-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x8000 : Shape := ⟨2, ![8000, 8000]⟩
abbrev S4200x4200 : Shape := ⟨2, ![4200, 4200]⟩
abbrev S4000x64 : Shape := ⟨2, ![4000, 64]⟩
abbrev S200x64 : Shape := ⟨2, ![200, 64]⟩
abbrev S64x64 : Shape := ⟨2, ![64, 64]⟩
abbrev S512 : Shape := ⟨1, ![512]⟩
abbrev S_ : Shape := ⟨0, ![]⟩

class Facts : Prop where
  bcast_S_S8000x8000 : S_.BroadcastsInDim S8000x8000 (![] : Fin 0 → Fin S8000x8000.rank)
  reducesTo_S8000x8000_S_d0_1 : S8000x8000.ReducesTo [0, 1] S_
  h_S_ : 0 < S_.numel
  bcast_S_S4200x4200 : S_.BroadcastsInDim S4200x4200 (![] : Fin 0 → Fin S4200x4200.rank)
  reducesTo_S4200x4200_S_d0_1 : S4200x4200.ReducesTo [0, 1] S_
  bcast_S_S4000x64 : S_.BroadcastsInDim S4000x64 (![] : Fin 0 → Fin S4000x64.rank)
  reducesTo_S4000x64_S_d0_1 : S4000x64.ReducesTo [0, 1] S_
  bcast_S_S200x64 : S_.BroadcastsInDim S200x64 (![] : Fin 0 → Fin S200x64.rank)
  reducesTo_S200x64_S_d0_1 : S200x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S4000x64 .f32) (main_arg5 : FVec F S200x64 .f32) (main_arg6 : FVec F S64x64 .f32) (main_v13 : IVec S_ 1) (main_v16 : IVec S4000x64 1) : IVec S_ 1 :=
  let main_c_5 : IVec S_ 1 := constantI S_ 1 1#1
  let main_v17 : IVec S_ 1 := (fun x v => Host.reduce IntOp.andi x v reducesTo_S4000x64_S_d0_1 h_S_) main_v16 main_c_5
  let main_v18 : IVec S_ 1 := andi main_v13 main_v17
  let main_v19 : FVec F S4000x64 .f32 := Host.absf main_arg4
  let main_cst_6 : FVec F S_ .f32 := constant S_ .f32 0x7F800000#32
  let main_v20 : FVec F S4000x64 .f32 := broadcastInDim S4000x64 ![] bcast_S_S4000x64 main_cst_6
  let main_v21 : IVec S4000x64 1 := cmpf .olt main_v19 main_v20
  let main_c_7 : IVec S_ 1 := constantI S_ 1 1#1
  let main_v22 : IVec S_ 1 := (fun x v => Host.reduce IntOp.andi x v reducesTo_S4000x64_S_d0_1 h_S_) main_v21 main_c_7
  let main_v23 : IVec S_ 1 := andi main_v18 main_v22
  let main_v24 : FVec F S200x64 .f32 := Host.absf main_arg5
  let main_cst_8 : FVec F S_ .f32 := constant S_ .f32 0x7F800000#32
  let main_v25 : FVec F S200x64 .f32 := broadcastInDim S200x64 ![] bcast_S_S200x64 main_cst_8
  let main_v26 : IVec S200x64 1 := cmpf .olt main_v24 main_v25
  let main_c_9 : IVec S_ 1 := constantI S_ 1 1#1
  let main_v27 : IVec S_ 1 := (fun x v => Host.reduce IntOp.andi x v reducesTo_S200x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S8000x8000 .f32) (main_arg1 : FVec F S4200x4200 .f32) (main_arg2 : FVec F S4200x4200 .f32) (main_arg3 : FVec F S4000x64 .f32) (main_arg4 : FVec F S4000x64 .f32) (main_arg5 : FVec F S200x64 .f32) (main_arg6 : FVec F S64x64 .f32) (main_arg7 : IVec S512 32) : IVec S_ 1 :=
  let main_v0 : FVec F S8000x8000 .f32 := Host.absf main_arg0
  let main_cst : FVec F S_ .f32 := constant S_ .f32 0x7F800000#32
  let main_v1 : FVec F S8000x8000 .f32 := broadcastInDim S8000x8000 ![] bcast_S_S8000x8000 main_cst
  let main_v2 : IVec S8000x8000 1 := cmpf .olt main_v0 main_v1
  let main_c : IVec S_ 1 := constantI S_ 1 1#1
  let main_v3 : IVec S_ 1 := (fun x v => Host.reduce IntOp.andi x v reducesTo_S8000x8000_S_d0_1 h_S_) main_v2 main_c
  let main_v4 : FVec F S4200x4200 .f32 := Host.absf main_arg1
  let main_cst_0 : FVec F S_ .f32 := constant S_ .f32 0x7F800000#32
  let main_v5 : FVec F S4200x4200 .f32 := broadcastInDim S4200x4200 ![] bcast_S_S4200x4200 main_cst_0
  let main_v6 : IVec S4200x4200 1 := cmpf .olt main_v4 main_v5
  let main_c_1 : IVec S_ 1 := constantI S_ 1 1#1
  let main_v7 : IVec S_ 1 := (fun x v => Host.reduce IntOp.andi x v reducesTo_S4200x4200_S_d0_1 h_S_) main_v6 main_c_1
  let main_v8 : IVec S_ 1 := andi main_v3 main_v7
  let main_v9 : FVec F S4200x4200 .f32 := Host.absf main_arg2
  let main_cst_2 : FVec F S_ .f32 := constant S_ .f32 0x7F800000#32
  let main_v10 : FVec F S4200x4200 .f32 := broadcastInDim S4200x4200 ![] bcast_S_S4200x4200 main_cst_2
  let main_v11 : IVec S4200x4200 1 := cmpf .olt main_v9 main_v10
  let main_c_3 : IVec S_ 1 := constantI S_ 1 1#1
  let main_v12 : IVec S_ 1 := (fun x v => Host.reduce IntOp.andi x v reducesTo_S4200x4200_S_d0_1 h_S_) main_v11 main_c_3
  let main_v13 : IVec S_ 1 := andi main_v8 main_v12
  let main_v14 : FVec F S4000x64 .f32 := Host.absf main_arg3
  let main_cst_4 : FVec F S_ .f32 := constant S_ .f32 0x7F800000#32
  let main_v15 : FVec F S4000x64 .f32 := broadcastInDim S4000x64 ![] bcast_S_S4000x64 main_cst_4
  let main_v16 : IVec S4000x64 1 := cmpf .olt main_v14 main_v15
  fn_part1 (F := F) main_arg4 main_arg5 main_arg6 main_v13 main_v16
-- ==== Kernel.lean ====
abbrev S8000x8000 : Shape := ⟨2, ![8000, 8000]⟩
abbrev S4200x4200 : Shape := ⟨2, ![4200, 4200]⟩
abbrev S4000x64 : Shape := ⟨2, ![4000, 64]⟩
abbrev S200x64 : Shape := ⟨2, ![200, 64]⟩
abbrev S64x64 : Shape := ⟨2, ![64, 64]⟩
abbrev S512 : Shape := ⟨1, ![512]⟩
abbrev S8000x64 : Shape := ⟨2, ![8000, 64]⟩
abbrev S4200x64 : Shape := ⟨2, ![4200, 64]⟩
abbrev S320x8000 : Shape := ⟨2, ![320, 8000]⟩
abbrev S320x64 : Shape := ⟨2, ![320, 64]⟩
abbrev S320 : Shape := ⟨1, ![320]⟩
abbrev S320x1 : Shape := ⟨2, ![320, 1]⟩
abbrev S168x4200 : Shape := ⟨2, ![168, 4200]⟩
abbrev S168x64 : Shape := ⟨2, ![168, 64]⟩
abbrev S168 : Shape := ⟨1, ![168]⟩
abbrev S168x1 : Shape := ⟨2, ![168, 1]⟩
abbrev S_ : Shape := ⟨0, ![]⟩
abbrev S512x1 : Shape := ⟨2, ![512, 1]⟩
abbrev S512x64 : Shape := ⟨2, ![512, 64]⟩
abbrev S512x4000 : Shape := ⟨2, ![512, 4000]⟩
abbrev S512x512 : Shape := ⟨2, ![512, 512]⟩

abbrev nBuf : Space → Nat
  | .hbm => 35
  | .vmem => 29
  | .smem => 0
  | _ => 0

abbrev bufTy : (tb : Table) → Fin (tcTables nBuf tb) → BufTy
  | .hbm, ⟨0, _⟩ => ⟨S8000x8000, .f32⟩
  | .hbm, ⟨1, _⟩ => ⟨S4200x4200, .f32⟩
  | .hbm, ⟨2, _⟩ => ⟨S4200x4200, .f32⟩
  | .hbm, ⟨3, _⟩ => ⟨S4000x64, .f32⟩
  | .hbm, ⟨4, _⟩ => ⟨S4000x64, .f32⟩
  | .hbm, ⟨5, _⟩ => ⟨S200x64, .f32⟩
  | .hbm, ⟨6, _⟩ => ⟨S64x64, .f32⟩
  | .hbm, ⟨7, _⟩ => ⟨S512, .i32⟩
  | .hbm, ⟨8, _⟩ => ⟨S8000x64, .f32⟩
  | .hbm, ⟨9, _⟩ => ⟨S8000x64, .bf16⟩
  | .hbm, ⟨10, _⟩ => ⟨S4200x64, .f32⟩
  | .hbm, ⟨11, _⟩ => ⟨S4200x64, .bf16⟩
  | .hbm, ⟨12, _⟩ => ⟨S4200x64, .f32⟩
  | .hbm, ⟨13, _⟩ => ⟨S4200x64, .bf16⟩
  | .hbm, ⟨14, _⟩ => ⟨S8000x64, .f32⟩
  | .hbm, ⟨15, _⟩ => ⟨S4200x64, .f32⟩
  | .hbm, ⟨16, _⟩ => ⟨S4200x64, .f32⟩
  | .hbm, ⟨17, _⟩ => ⟨S4000x64, .f32⟩
  | .hbm, ⟨18, _⟩ => ⟨S4000x64, .f32⟩
  | .hbm, ⟨19, _⟩ => ⟨S4000x64, .f32⟩
  | .hbm, ⟨20, _⟩ => ⟨S4000x64, .f32⟩
  | .hbm, ⟨21, _⟩ => ⟨S4000x64, .f32⟩
  | .hbm, ⟨22, _⟩ => ⟨S_, .f32⟩
  | .hbm, ⟨23, _⟩ => ⟨S4000x64, .f32⟩
  | .hbm, ⟨24, _⟩ => ⟨S4000x64, .f32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S512x64, .f32⟩
  | .hbm, ⟨34, _⟩ => ⟨S512x4000, .f32⟩
  | .local _ .vmem, ⟨0, _⟩ => ⟨S320x8000, .f32⟩
  | .local _ .vmem, ⟨1, _⟩ => ⟨S320x8000, .f32⟩
  | .local _ .vmem, ⟨2, _⟩ => ⟨S8000x64, .bf16⟩
  | .local _ .vmem, ⟨3, _⟩ => ⟨S320x64, .f32⟩
  | .local _ .vmem, ⟨4, _⟩ => ⟨S320x64, .f32⟩
  | .local _ .vmem, ⟨5, _⟩ => ⟨S320x64, .f32⟩
  | .local _ .vmem, ⟨6, _⟩ => ⟨S320x64, .f32⟩
  | .local _ .vmem, ⟨7, _⟩ => ⟨S168x4200, .f32⟩
  | .local _ .vmem, ⟨8, _⟩ => ⟨S168x4200, .f32⟩
  | .local _ .vmem, ⟨9, _⟩ => ⟨S4200x64, .bf16⟩
  | .local _ .vmem, ⟨10, _⟩ => ⟨S168x64, .f32⟩
  | .local _ .vmem, ⟨11, _⟩ => ⟨S168x64, .f32⟩
  | .local _ .vmem, ⟨12, _⟩ => ⟨S168x64, .f32⟩
  | .local _ .vmem, ⟨13, _⟩ => ⟨S168x64, .f32⟩
  | .local _ .vmem, ⟨14, _⟩ => ⟨S168x4200, .f32⟩
  | .local _ .vmem, ⟨15, _⟩ => ⟨S168x4200, .f32⟩
  | .local _ .vmem, ⟨16, _⟩ => ⟨S4200x64, .bf16⟩
  | .local _ .vmem, ⟨17, _⟩ => ⟨S168x64, .f32⟩
  | .local _ .vmem, ⟨18, _⟩ => ⟨S168x64, .f32⟩
  | .local _ .vmem, ⟨19, _⟩ => ⟨S168x64, .f32⟩
  | .local _ .vmem, ⟨20, _⟩ => ⟨S168x64, .f32⟩
  | .local _ .vmem, ⟨21, _⟩ => ⟨S512x64, .f32⟩
  | .local _ .vmem, ⟨22, _⟩ => ⟨S64x64, .f32⟩
  | .local _ .vmem, ⟨23, _⟩ => ⟨S512x64, .f32⟩
  | .local _ .vmem, ⟨24, _⟩ => ⟨S512x64, .f32⟩
  | .local _ .vmem, ⟨25, _⟩ => ⟨S512x64, .f32⟩
  | .local _ .vmem, ⟨26, _⟩ => ⟨S512x64, .f32⟩
  | .local _ .vmem, ⟨27, _⟩ => ⟨S512x512, .f32⟩
  | .local _ .vmem, ⟨28, _⟩ => ⟨S512x512, .f32⟩
  | _, _ => ⟨S8000x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem3_1 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8000x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S168x4200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4200x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S168x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S168x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S168x4200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4200x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S168x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S168x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  concatenates_S4000x64_S4000x64_S8000x64_d0 : Shape.Concatenates [S4000x64, S4000x64] S8000x64 0
  bitsLt_bf16_f32 : FTy.bits .bf16 < FTy.bits .f32
  concatenates_S200x64_S4000x64_S4200x64_d0 : Shape.Concatenates [S200x64, S4000x64] S4200x64 0
  inb_S320x8000_S320x8000_0_0 : ∀ a, (![0, 0] : Fin 2 → Nat) a + S320x8000.size a ≤ S320x8000.size a
  h_S320x8000 : 0 < S320x8000.numel
  reduces_S320x8000_S320 : S320x8000.Reduces [1] S320
  shapeCasts_S320_S320x1 : S320.ShapeCasts S320x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S320x1_S320x64 : S320x1.Broadcasts S320x64
  inb_S320x64_S320x64_0_0 : ∀ a, (![0, 0] : Fin 2 → Nat) a + S320x64.size a ≤ S320x64.size a
  h_S320x64 : 0 < S320x64.numel
  shapeCasts_S320x64_S320x64 : S320x64.ShapeCasts S320x64
  inb_S168x4200_S168x4200_0_0 : ∀ a, (![0, 0] : Fin 2 → Nat) a + S168x4200.size a ≤ S168x4200.size a
  h_S168x4200 : 0 < S168x4200.numel
  reduces_S168x4200_S168 : S168x4200.Reduces [1] S168
  shapeCasts_S168_S168x1 : S168.ShapeCasts S168x1
  inb_S4200x64_S4200x64_0_0 : ∀ a, (![0, 0] : Fin 2 → Nat) a + S4200x64.size a ≤ S4200x64.size a
  h_S4200x64 : 0 < S4200x64.numel
  shapeCasts_S4200x64_S4200x64 : S4200x64.ShapeCasts S4200x64
  broadcasts_S168x1_S168x64 : S168x1.Broadcasts S168x64
  inb_S168x64_S168x64_0_0 : ∀ a, (![0, 0] : Fin 2 → Nat) a + S168x64.size a ≤ S168x64.size a
  h_S168x64 : 0 < S168x64.numel
  shapeCasts_S168x64_S168x64 : S168x64.ShapeCasts S168x64
  slices_S8000x64_S4000x64_0_0 : S8000x64.Slices ![0, 0] S4000x64
  slices_S8000x64_S4000x64_4000_0 : S8000x64.Slices ![4000, 0] S4000x64
  slices_S4200x64_S4000x64_200_0 : S4200x64.Slices ![200, 0] S4000x64
  bcast_S_S4000x64 : S_.BroadcastsInDim S4000x64 (![] : Fin 0 → Fin S4000x64.rank)
  bcast_S_S512 : S_.BroadcastsInDim S512 (![] : Fin 0 → Fin S512.rank)
  bcast_S512_S512x1_0 : S512.BroadcastsInDim S512x1 (![0] : Fin 1 → Fin S512x1.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x64_S64x64_0_0 : ∀ a, (![0, 0] : Fin 2 → Nat) a + S64x64.size a ≤ S64x64.size a
  h_S64x64 : 0 < S64x64.numel
  iota_S512x512_d1_w32 : S512x512.Iotas .tc 32 [1]
  inb_S512x512_S512x512_0_0 : ∀ a, (![0, 0] : Fin 2 → Nat) a + S512x512.size a ≤ S512x512.size a
  h_S512x512 : 0 < S512x512.numel
  dot_S320x8000_S8000x64_S320x64_1_0_0_1_n_n_wf : DotDims.WF S320x8000 S8000x64 S320x64 [1] [0] [0] [1] [] []
  dot_S168x4200_S4200x64_S168x64_1_0_0_1_n_n_wf : DotDims.WF S168x4200 S4200x64 S168x64 [1] [0] [0] [1] [] []
  gather_S4000x64_S512x1_S512x64_1_0_n_n_0_1_164_wf : GatherDims.WF S4000x64 S512x1 S512x64 [1] [0] [] [0] [] 1 ![1, 64]
  dot_S512x64_S64x64_S512x64_1_0_0_1_n_n_wf : DotDims.WF S512x64 S64x64 S512x64 [1] [0] [0] [1] [] []
  dot_S512x64_S512x64_S512x512_1_1_0_0_n_n_wf : DotDims.WF S512x64 S512x64 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x8000.size a ≤ S8000x8000.size a
  hwx0_0 : ∀ i : grid0.Coords, EltTy.bits .f32 = 32 ∨ (Rect.block (s := S8000x8000) S320x8000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S8000x64.size a
  hwx0_1 : ∀ i : grid0.Coords, EltTy.bits .bf16 = 32 ∨ (Rect.block (s := S8000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S320x64.size a ≤ S8000x64.size a
  hwx0_2 : ∀ i : grid0.Coords, EltTy.bits .f32 = 32 ∨ (Rect.block (s := S8000x64) S320x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S320x64.size a ≤ S8000x64.size a
  hwx0_3 : ∀ i : grid0.Coords, EltTy.bits .f32 = 32 ∨ (Rect.block (s := S8000x64) S320x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S168x4200.size a ≤ S4200x4200.size a
  hwx1_0 : ∀ i : grid1.Coords, EltTy.bits .f32 = 32 ∨ (Rect.block (s := S4200x4200) S168x4200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4200x64.size a ≤ S4200x64.size a
  hwx1_1 : ∀ i : grid1.Coords, EltTy.bits .bf16 = 32 ∨ (Rect.block (s := S4200x64) S4200x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S168x64.size a ≤ S4200x64.size a
  hwx1_2 : ∀ i : grid1.Coords, EltTy.bits .f32 = 32 ∨ (Rect.block (s := S4200x64) S168x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S168x64.size a ≤ S4200x64.size a
  hwx1_3 : ∀ i : grid1.Coords, EltTy.bits .f32 = 32 ∨ (Rect.block (s := S4200x64) S168x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S168x4200.size a ≤ S4200x4200.size a
  hwx2_0 : ∀ i : grid2.Coords, EltTy.bits .f32 = 32 ∨ (Rect.block (s := S4200x4200) S168x4200.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4200x64.size a ≤ S4200x64.size a
  hwx2_1 : ∀ i : grid2.Coords, EltTy.bits .bf16 = 32 ∨ (Rect.block (s := S4200x64) S4200x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S168x64.size a ≤ S4200x64.size a
  hwx2_2 : ∀ i : grid2.Coords, EltTy.bits .f32 = 32 ∨ (Rect.block (s := S4200x64) S168x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S168x64.size a ≤ S4200x64.size a
  hwx2_3 : ∀ i : grid2.Coords, EltTy.bits .f32 = 32 ∨ (Rect.block (s := S4200x64) S168x64.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S512x64.size a < S4000x64.size a
  hwx3_2 : ∀ i : grid3.Coords, EltTy.bits .f32 = 32 ∨ (Rect.unit (s := S4000x64) (fun a => cc3_transform_2 i a * S512x64.size a) (fun a => (Pipeline.Clip.of (cc3_transform_2 i a) (S512x64.size a) (S4000x64.size a)).extent (S512x64.size a)) fun a => Pipeline.Clip.inb (Pipeline.Clip.ok_of (hstart3_2 i a))).WholeWords (EltTy.packing .f32)
  hwxs3_2 : ∀ i : grid3.Coords, EltTy.bits .f32 = 32 ∨ (Rect.unit (s := S512x64) (fun _ => 0) (fun a => (Pipeline.Clip.of (cc3_transform_2 i a) (S512x64.size a) (S4000x64.size a)).extent (S512x64.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S512x64.size a < S4000x64.size a
  hwx3_3 : ∀ i : grid3.Coords, EltTy.bits .f32 = 32 ∨ (Rect.unit (s := S4000x64) (fun a => cc3_transform_3 i a * S512x64.size a) (fun a => (Pipeline.Clip.of (cc3_transform_3 i a) (S512x64.size a) (S4000x64.size a)).extent (S512x64.size a)) fun a => Pipeline.Clip.inb (Pipeline.Clip.ok_of (hstart3_3 i a))).WholeWords (EltTy.packing .f32)
  hwxs3_3 : ∀ i : grid3.Coords, EltTy.bits .f32 = 32 ∨ (Rect.unit (s := S512x64) (fun _ => 0) (fun a => (Pipeline.Clip.of (cc3_transform_3 i a) (S512x64.size a) (S4000x64.size a)).extent (S512x64.size a)) fun a => (Nat.zero_add _).trans_le (Pipeline.Clip.extent_le (Pipeline.Clip.ok_of (hstart3_3 i a)))).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hstart3_4 : ∀ (i : grid3.Coords) a, cc3_transform_4 i a * S512x512.size a < S512x4000.size a
  hwx3_4 : ∀ i : grid3.Coords, EltTy.bits .f32 = 32 ∨ (Rect.unit (s := S512x4000) (fun a => cc3_transform_4 i a * S512x512.size a) (fun a => (Pipeline.Clip.of (cc3_transform_4 i a) (S512x512.size a) (S512x4000.size a)).extent (S512x512.size a)) fun a => Pipeline.Clip.inb (Pipeline.Clip.ok_of (hstart3_4 i a))).WholeWords (EltTy.packing .f32)
  hwxs3_4 : ∀ i : grid3.Coords, EltTy.bits .f32 = 32 ∨ (Rect.unit (s := S512x512) (fun _ => 0) (fun a => (Pipeline.Clip.of (cc3_transform_4 i a) (S512x512.size a) (S512x4000.size a)).extent (S512x512.size a)) fun a => (Nat.zero_add _).trans_le (Pipeline.Clip.extent_le (Pipeline.Clip.ok_of (hstart3_4 i a)))).WholeWords (EltTy.packing .f32)

variable [Facts₀]

def dot_S320x8000_S8000x64_S320x64_1_0_0_1_n_n : DotDims S320x8000 S8000x64 S320x64 where
  lhsContracting := [1]
  rhsContracting := [0]
  lhsNonContracting := [0]
  rhsNonContracting := [1]
  lhsBatch := []
  rhsBatch := []
  wf := dot_S320x8000_S8000x64_S320x64_1_0_0_1_n_n_wf
def dot_S168x4200_S4200x64_S168x64_1_0_0_1_n_n : DotDims S168x4200 S4200x64 S168x64 where
  lhsContracting := [1]
  rhsContracting := [0]
  lhsNonContracting := [0]
  rhsNonContracting := [1]
  lhsBatch := []
  rhsBatch := []
  wf := dot_S168x4200_S4200x64_S168x64_1_0_0_1_n_n_wf
def gather_S4000x64_S512x1_S512x64_1_0_n_n_0_1_164 : GatherDims S4000x64 S512x1 S512x64 where
  offsetDims := [1]
  collapsedSliceDims := [0]
  operandBatchingDims := []
  startIndicesBatchingDims := []
  startIndexMap := [0]
  indexVectorDim := 1
  sliceSizes := ![1, 64]
  wf := gather_S4000x64_S512x1_S512x64_1_0_n_n_0_1_164_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf

abbrev win0_0 : Pipeline.Window sig grid0 :=
  Pipeline.Window.ofSpec (Memref.whole main_arg0) S320x8000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S320x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S320x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S168x4200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4200x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S168x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S168x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S168x4200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S4200x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S168x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S168x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v22) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpecClip (Memref.whole main_v10) S512x64.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v12) S512x64.size cc3_transform_3 reads3_3 false false 2 stage3_3 sem3_3
    hrank3 hreads3_3 hstart3_3 nbuf3_3 (Memref.isWhole_whole _) hwx3_3 hwxs3_3 hstage3_3

abbrev win3_4 : Pipeline.Window sig grid3 :=
  Pipeline.Window.ofSpecClip (Memref.whole main_v23) S512x512.size cc3_transform_4 reads3_4 true false 2 stage3_4 sem3_4
    hrank3 hreads3_4 hstart3_4 nbuf3_4 (Memref.isWhole_whole _) hwx3_4 hwxs3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8000x8000 : Shape := ⟨2, ![8000, 8000]⟩
abbrev S4200x4200 : Shape := ⟨2, ![4200, 4200]⟩
abbrev S4000x64 : Shape := ⟨2, ![4000, 64]⟩
abbrev S200x64 : Shape := ⟨2, ![200, 64]⟩
abbrev S64x64 : Shape := ⟨2, ![64, 64]⟩
abbrev S512 : Shape := ⟨1, ![512]⟩
abbrev S8000x64 : Shape := ⟨2, ![8000, 64]⟩
abbrev S_ : Shape := ⟨0, ![]⟩
abbrev S8000 : Shape := ⟨1, ![8000]⟩
abbrev S8000x1 : Shape := ⟨2, ![8000, 1]⟩
abbrev S4200x64 : Shape := ⟨2, ![4200, 64]⟩
abbrev S4200 : Shape := ⟨1, ![4200]⟩
abbrev S4200x1 : Shape := ⟨2, ![4200, 1]⟩
abbrev S512x1 : Shape := ⟨2, ![512, 1]⟩
abbrev S512x64 : Shape := ⟨2, ![512, 64]⟩
abbrev S4000x1x64 : Shape := ⟨3, ![4000, 1, 64]⟩
abbrev S4000x2x64 : Shape := ⟨3, ![4000, 2, 64]⟩
abbrev S512x4000x2 : Shape := ⟨3, ![512, 4000, 2]⟩
abbrev S512x4000 : Shape := ⟨2, ![512, 4000]⟩
abbrev S512x4000x1 : Shape := ⟨3, ![512, 4000, 1]⟩

abbrev nBuf : Space → Nat
  | .hbm => 96
  | .vmem => 0
  | .smem => 0
  | _ => 0

abbrev bufTy : (tb : Table) → Fin (tcTables nBuf tb) → BufTy
  | .hbm, ⟨0, _⟩ => ⟨S8000x8000, .f32⟩
  | .hbm, ⟨1, _⟩ => ⟨S4200x4200, .f32⟩
  | .hbm, ⟨2, _⟩ => ⟨S4200x4200, .f32⟩
  | .hbm, ⟨3, _⟩ => ⟨S4000x64, .f32⟩
  | .hbm, ⟨4, _⟩ => ⟨S4000x64, .f32⟩
  | .hbm, ⟨5, _⟩ => ⟨S200x64, .f32⟩
  | .hbm, ⟨6, _⟩ => ⟨S64x64, .f32⟩
  | .hbm, ⟨7, _⟩ => ⟨S512, .i32⟩
  | .hbm, ⟨8, _⟩ => ⟨S8000x64, .f32⟩
  | .hbm, ⟨9, _⟩ => ⟨S_, .f32⟩
  | .hbm, ⟨10, _⟩ => ⟨S8000, .f32⟩
  | .hbm, ⟨11, _⟩ => ⟨S8000x1, .f32⟩
  | .hbm, ⟨12, _⟩ => ⟨S_, .f32⟩
  | .hbm, ⟨13, _⟩ => ⟨S8000x1, .f32⟩
  | .hbm, ⟨14, _⟩ => ⟨S8000x1, .f32⟩
  | .hbm, ⟨15, _⟩ => ⟨S8000x8000, .f32⟩
  | .hbm, ⟨16, _⟩ => ⟨S8000x8000, .f32⟩
  | .hbm, ⟨17, _⟩ => ⟨S8000x64, .f32⟩
  | .hbm, ⟨18, _⟩ => ⟨S8000x64, .f32⟩
  | .hbm, ⟨19, _⟩ => ⟨S_, .f32⟩
  | .hbm, ⟨20, _⟩ => ⟨S8000x64, .f32⟩
  | .hbm, ⟨21, _⟩ => ⟨S8000x64, .f32⟩
  | .hbm, ⟨22, _⟩ => ⟨S4200x64, .f32⟩
  | .hbm, ⟨23, _⟩ => ⟨S_, .f32⟩
  | .hbm, ⟨24, _⟩ => ⟨S4200, .f32⟩
  | .hbm, ⟨25, _⟩ => ⟨S4200x1, .f32⟩
  | .hbm, ⟨26, _⟩ => ⟨S_, .f32⟩
  | .hbm, ⟨27, _⟩ => ⟨S4200x1, .f32⟩
  | .hbm, ⟨28, _⟩ => ⟨S4200x1, .f32⟩
  | .hbm, ⟨29, _⟩ => ⟨S4200x4200, .f32⟩
  | .hbm, ⟨30, _⟩ => ⟨S4200x4200, .f32⟩
  | .hbm, ⟨31, _⟩ => ⟨S4200x64, .f32⟩
  | .hbm, ⟨32, _⟩ => ⟨S4200x64, .f32⟩
  | .hbm, ⟨33, _⟩ => ⟨S_, .f32⟩
  | .hbm, ⟨34, _⟩ => ⟨S4200x64, .f32⟩
  | .hbm, ⟨35, _⟩ => ⟨S4200x64, .f32⟩
  | .hbm, ⟨36, _⟩ => ⟨S4200x64, .f32⟩
  | .hbm, ⟨37, _⟩ => ⟨S_, .f32⟩
  | .hbm, ⟨38, _⟩ => ⟨S4200, .f32⟩
  | .hbm, ⟨39, _⟩ => ⟨S4200x1, .f32⟩
  | .hbm, ⟨40, _⟩ => ⟨S_, .f32⟩
  | .hbm, ⟨41, _⟩ => ⟨S4200x1, .f32⟩
  | .hbm, ⟨42, _⟩ => ⟨S4200x1, .f32⟩
  | .hbm, ⟨43, _⟩ => ⟨S4200x4200, .f32⟩
  | .hbm, ⟨44, _⟩ => ⟨S4200x4200, .f32⟩
  | .hbm, ⟨45, _⟩ => ⟨S4200x64, .f32⟩
  | .hbm, ⟨46, _⟩ => ⟨S4200x64, .f32⟩
  | .hbm, ⟨47, _⟩ => ⟨S_, .f32⟩
  | .hbm, ⟨48, _⟩ => ⟨S4200x64, .f32⟩
  | .hbm, ⟨49, _⟩ => ⟨S4200x64, .f32⟩
  | .hbm, ⟨50, _⟩ => ⟨S4000x64, .f32⟩
  | .hbm, ⟨51, _⟩ => ⟨S4000x64, .f32⟩
  | .hbm, ⟨52, _⟩ => ⟨S4000x64, .f32⟩
  | .hbm, ⟨53, _⟩ => ⟨S4000x64, .f32⟩
  | .hbm, ⟨54, _⟩ => ⟨S4000x64, .f32⟩
  | .hbm, ⟨55, _⟩ => ⟨S_, .f32⟩
  | .hbm, ⟨56, _⟩ => ⟨S4000x64, .f32⟩
  | .hbm, ⟨57, _⟩ => ⟨S4000x64, .f32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S512x64, .f32⟩
  | .hbm, ⟨67, _⟩ => ⟨S4000x1x64, .f32⟩
  | .hbm, ⟨68, _⟩ => ⟨S4000x1x64, .f32⟩
  | .hbm, ⟨69, _⟩ => ⟨S4000x2x64, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S512x64, .f32⟩
  | .hbm, ⟨75, _⟩ => ⟨S512x4000x2, .f32⟩
  | .hbm, ⟨76, _⟩ => ⟨S512x4000x2, .f32⟩
  | .hbm, ⟨77, _⟩ => ⟨S512x4000x2, .f32⟩
  | .hbm, ⟨78, _⟩ => ⟨S_, .f32⟩
  | .hbm, ⟨79, _⟩ => ⟨S512x4000, .f32⟩
  | .hbm, ⟨80, _⟩ => ⟨S_, .f32⟩
  | .hbm, ⟨81, _⟩ => ⟨S512x4000, .f32⟩
  | .hbm, ⟨82, _⟩ => ⟨S512x4000, .f32⟩
  | .hbm, ⟨83, _⟩ => ⟨S512x4000x1, .f32⟩
  | .hbm, ⟨84, _⟩ => ⟨S512x4000x2, .f32⟩
  | .hbm, ⟨85, _⟩ => ⟨S512x4000x2, .f32⟩
  | .hbm, ⟨86, _⟩ => ⟨S512x4000x2, .f32⟩
  | .hbm, ⟨87, _⟩ => ⟨S_, .f32⟩
  | .hbm, ⟨88, _⟩ => ⟨S512x4000, .f32⟩
  | .hbm, ⟨89, _⟩ => ⟨S512x4000x1, .f32⟩
  | .hbm, ⟨90, _⟩ => ⟨S512x4000x2, .f32⟩
  | .hbm, ⟨91, _⟩ => ⟨S512x4000x2, .f32⟩
  | .hbm, ⟨92, _⟩ => ⟨S512x4000x2, .f32⟩
  | .hbm, ⟨93, _⟩ => ⟨S512x4000x2, .f32⟩
  | .hbm, ⟨94, _⟩ => ⟨S_, .f32⟩
  | .hbm, ⟨95, _⟩ => ⟨S512x4000, .f32⟩
  | _, _ => ⟨S8000x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_c : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  concatenates_S4000x64_S4000x64_S8000x64_d0 : Shape.Concatenates [S4000x64, S4000x64] S8000x64 0
  reducesTo_S8000x8000_S8000_d1 : S8000x8000.ReducesTo [1] S8000
  h_S_ : 0 < S_.numel
  bcast_S8000_S8000x1_0 : S8000.BroadcastsInDim S8000x1 (![0] : Fin 1 → Fin S8000x1.rank)
  bcast_S_S8000x1 : S_.BroadcastsInDim S8000x1 (![] : Fin 0 → Fin S8000x1.rank)
  bcast_S8000x1_S8000x8000_0_1 : S8000x1.BroadcastsInDim S8000x8000 (![0, 1] : Fin 2 → Fin S8000x8000.rank)
  bcast_S_S8000x64 : S_.BroadcastsInDim S8000x64 (![] : Fin 0 → Fin S8000x64.rank)
  concatenates_S200x64_S4000x64_S4200x64_d0 : Shape.Concatenates [S200x64, S4000x64] S4200x64 0
  reducesTo_S4200x4200_S4200_d1 : S4200x4200.ReducesTo [1] S4200
  bcast_S4200_S4200x1_0 : S4200.BroadcastsInDim S4200x1 (![0] : Fin 1 → Fin S4200x1.rank)
  bcast_S_S4200x1 : S_.BroadcastsInDim S4200x1 (![] : Fin 0 → Fin S4200x1.rank)
  bcast_S4200x1_S4200x4200_0_1 : S4200x1.BroadcastsInDim S4200x4200 (![0, 1] : Fin 2 → Fin S4200x4200.rank)
  bcast_S_S4200x64 : S_.BroadcastsInDim S4200x64 (![] : Fin 0 → Fin S4200x64.rank)
  slices_S8000x64_S4000x64_0_0 : S8000x64.Slices ![0, 0] S4000x64
  slices_S8000x64_S4000x64_4000_0 : S8000x64.Slices ![4000, 0] S4000x64
  slices_S4200x64_S4000x64_200_0 : S4200x64.Slices ![200, 0] S4000x64
  bcast_S_S4000x64 : S_.BroadcastsInDim S4000x64 (![] : Fin 0 → Fin S4000x64.rank)
  bcast_S_S512 : S_.BroadcastsInDim S512 (![] : Fin 0 → Fin S512.rank)
  bcast_S512_S512x1_0 : S512.BroadcastsInDim S512x1 (![0] : Fin 1 → Fin S512x1.rank)
  bcast_S4000x64_S4000x1x64_0_2 : S4000x64.BroadcastsInDim S4000x1x64 (![0, 2] : Fin 2 → Fin S4000x1x64.rank)
  concatenates_S4000x1x64_S4000x1x64_S4000x2x64_d1 : Shape.Concatenates [S4000x1x64, S4000x1x64] S4000x2x64 1
  bcast_S_S512x4000x2 : S_.BroadcastsInDim S512x4000x2 (![] : Fin 0 → Fin S512x4000x2.rank)
  reducesTo_S512x4000x2_S512x4000_d2 : S512x4000x2.ReducesTo [2] S512x4000
  bcast_S_S512x4000 : S_.BroadcastsInDim S512x4000 (![] : Fin 0 → Fin S512x4000.rank)
  bcast_S512x4000_S512x4000x1_0_1 : S512x4000.BroadcastsInDim S512x4000x1 (![0, 1] : Fin 2 → Fin S512x4000x1.rank)
  bcast_S512x4000x1_S512x4000x2_0_1_2 : S512x4000x1.BroadcastsInDim S512x4000x2 (![0, 1, 2] : Fin 3 → Fin S512x4000x2.rank)
  dot_S8000x8000_S8000x64_S8000x64_1_0_0_1_n_n_wf : DotDims.WF S8000x8000 S8000x64 S8000x64 [1] [0] [0] [1] [] []
  dot_S4200x4200_S4200x64_S4200x64_1_0_0_1_n_n_wf : DotDims.WF S4200x4200 S4200x64 S4200x64 [1] [0] [0] [1] [] []
  gather_S4000x64_S512x1_S512x64_1_0_n_n_0_1_164_wf : GatherDims.WF S4000x64 S512x1 S512x64 [1] [0] [] [0] [] 1 ![1, 64]
  dot_S512x64_S64x64_S512x64_1_0_0_1_n_n_wf : DotDims.WF S512x64 S64x64 S512x64 [1] [0] [0] [1] [] []
  dot_S512x64_S4000x2x64_S512x4000x2_1_2_0_01_n_n_wf : DotDims.WF S512x64 S4000x2x64 S512x4000x2 [1] [2] [0] [0, 1] [] []

variable [Facts₀]

def dot_S8000x8000_S8000x64_S8000x64_1_0_0_1_n_n : DotDims S8000x8000 S8000x64 S8000x64 where
  lhsContracting := [1]
  rhsContracting := [0]
  lhsNonContracting := [0]
  rhsNonContracting := [1]
  lhsBatch := []
  rhsBatch := []
  wf := dot_S8000x8000_S8000x64_S8000x64_1_0_0_1_n_n_wf
def dot_S4200x4200_S4200x64_S4200x64_1_0_0_1_n_n : DotDims S4200x4200 S4200x64 S4200x64 where
  lhsContracting := [1]
  rhsContracting := [0]
  lhsNonContracting := [0]
  rhsNonContracting := [1]
  lhsBatch := []
  rhsBatch := []
  wf := dot_S4200x4200_S4200x64_S4200x64_1_0_0_1_n_n_wf
def gather_S4000x64_S512x1_S512x64_1_0_n_n_0_1_164 : GatherDims S4000x64 S512x1 S512x64 where
  offsetDims := [1]
  collapsedSliceDims := [0]
  operandBatchingDims := []
  startIndicesBatchingDims := []
  startIndexMap := [0]
  indexVectorDim := 1
  sliceSizes := ![1, 64]
  wf := gather_S4000x64_S512x1_S512x64_1_0_n_n_0_1_164_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S4000x2x64_S512x4000x2_1_2_0_01_n_n : DotDims S512x64 S4000x2x64 S512x4000x2 where
  lhsContracting := [1]
  rhsContracting := [2]
  lhsNonContracting := [0]
  rhsNonContracting := [0, 1]
  lhsBatch := []
  rhsBatch := []
  wf := dot_S512x64_S4000x2x64_S512x4000x2_1_2_0_01_n_n_wf

class Facts : Prop extends Facts₀ where

variable [Facts]
-- ==== Proof.Laws.lean ====
import Idealize.ShloMosaic.PureOps.Ideal
import Idealize.ShloMosaic.PureOps.Ideal.Laws

noncomputable section

namespace Cert.Laws

open Idealize.ShloMosaic
open scoped BigOperators

/-! ## The float constants the two programs spell, as extended reals

The bit patterns are unfolded here, once; every other module reads a constant through these lemmas. -/

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The pattern of `-inf` denotes the bottom element. -/
theorem ofBits_neg_inf : Ideal.ofBits .f32 0xFF800000#32 = ⊥ := by
  simp [Ideal.ofBits, Ideal.ieee]

/-- The pattern of `+inf` denotes the top element. -/
theorem ofBits_pos_inf : Ideal.ofBits .f32 0x7F800000#32 = ⊤ := by
  simp [Ideal.ofBits, Ideal.ieee]

/-- The real the pattern `0x322BCC77` (the single-precision rounding of `1e-8`) denotes: `11258999 · 2⁻⁵⁰`. -/
def epsR : ℝ := 11258999 / 2 ^ 50

theorem epsR_pos : 0 < epsR := by unfold epsR; positivity

theorem ofBits_eps : Ideal.ofBits .f32 0x322BCC77#32 = ((epsR : ℝ) : EReal) := by
  simp [Ideal.ofBits, Ideal.ieee, -EReal.coe_mul, epsR]; norm_num

/-- The same, as the existence of a positive real. -/
theorem ofBits_eps_pos_real : ∃ e : ℝ, 0 < e ∧ Ideal.ofBits .f32 0x322BCC77#32 = (e : EReal) :=
  ⟨epsR, epsR_pos, ofBits_eps⟩

/-! ## Sums and maxima of reals inside the extended reals -/

/-- The inclusion of the reals commutes with finite sums. -/
theorem coe_sum {ι : Type*} (s : Finset ι) (f : ι → ℝ) :
    ((∑ k ∈ s, f k : ℝ) : EReal) = ∑ k ∈ s, (f k : EReal) :=
  map_sum (⟨⟨Real.toEReal, EReal.coe_zero⟩, EReal.coe_add⟩ : ℝ →+ EReal) f s

/-- The inclusion of the reals commutes with `max`. -/
theorem coe_max (a b : ℝ) : ((max a b : ℝ) : EReal) = max (a : EReal) (b : EReal) :=
  EReal.coe_strictMono.monotone.map_max

/-- An extended real whose absolute value `max x (-x)` is below `+∞` is a real. -/
theorem exists_real_of_abs_lt_top {x : EReal} (h : max x (-x) < ⊤) : ∃ r : ℝ, x = (r : EReal) := by
  induction x using EReal.rec with
  | bot => simp at h
  | top => simp at h
  | coe r => exact ⟨r, rfl⟩

/-- The precondition's test at one element — `|x| < +inf`, the comparison answering `true` — makes it a real. -/
theorem exists_real_of_cmp {x : EReal}
    (h : Ideal.cmp .olt (max x (-x)) (Ideal.ofBits .f32 0x7F800000#32) = 1#1) : ∃ r : ℝ, x = (r : EReal) := by
  apply exists_real_of_abs_lt_top
  rw [ofBits_pos_inf] at h
  by_contra hn
  simp [Ideal.cmp, hn] at h

/-! ## (B1) The propagation law -/

/-- The row normaliser `max (0 + ∑ₖ aₖ) ε` of real entries and a positive real `ε` is a positive real. -/
theorem denom_real {ι : Type*} [Fintype ι] (a : ι → ℝ) (e : ℝ) (he : 0 < e) :
    ∃ d : ℝ, 0 < d ∧ max (0 + ∑ k, (a k : EReal)) (e : EReal) = (d : EReal) := by
  refine ⟨max (∑ k, a k) e, lt_max_of_lt_right he, ?_⟩
  rw [zero_add, ← coe_sum, coe_max]

/-- The propagation law over a nonzero real normaliser `d`: dividing the contracted sum by `d` and halving is
    contracting the entries divided by `d` and dividing by two. All the quantities are reals, so both sides are the
    real `(ξ + (∑ₖ aₖ xₖ) / d) / 2`. -/
theorem prop_core {ι : Type*} [Fintype ι] (a x : ι → ℝ) (xi d : ℝ) (hd : d ≠ 0) :
    ((xi : EReal) + Ideal.div (∑ k, (a k : EReal) * (x k : EReal)) (d : EReal)) * ((1 / 2 : ℝ) : EReal)
      = Ideal.div ((xi : EReal) + ∑ k, Ideal.div (a k : EReal) (d : EReal) * (x k : EReal)) ((2 : ℝ) : EReal) := by
  rw [Ideal.div_coe (by norm_num : (2 : ℝ) ≠ 0)]
  simp only [Ideal.div_coe hd]
  simp only [← EReal.coe_mul, ← coe_sum, ← EReal.coe_add]
  have h : (∑ k, a k * x k) * (1 / d) = ∑ k, a k * (1 / d) * x k := by
    rw [Finset.sum_mul]; exact Finset.sum_congr rfl fun k _ => by ring
  rw [h]

/-- (B1) The propagation law, real entries: with `d = max (0 + ∑ₖ aₖ) ε`, `ε` a positive real,
    `(ξ + (∑ₖ aₖ xₖ) / d) · 0.5 = (ξ + ∑ₖ (aₖ / d) xₖ) / 2.0`. -/
theorem prop_law {ι : Type*} [Fintype ι] (a x : ι → ℝ) (xi e : ℝ) (he : 0 < e) :
    ((xi : EReal) + Ideal.div (∑ k, (a k : EReal) * (x k : EReal)) (max (0 + ∑ k, (a k : EReal)) (e : EReal)))
        * Ideal.ofBits .f32 0x3F000000#32
      = Ideal.div ((xi : EReal) + ∑ k, Ideal.div (a k : EReal) (max (0 + ∑ k, (a k : EReal)) (e : EReal)) * (x k : EReal))
          (Ideal.ofBits .f32 0x40000000#32) := by
  obtain ⟨d, hd, hmax⟩ := denom_real a e he
  rw [hmax, ofBits_half, ofBits_two]
  exact prop_core a x xi d hd.ne'

/-- (B1) The propagation law for extended-real arrays whose entries are all reals, `ε` any positive real. -/
theorem prop_law_of_real {ι : Type*} [Fintype ι] (A X : ι → EReal) (Xi E : EReal)
    (hA : ∀ k, ∃ r : ℝ, A k = (r : EReal)) (hX : ∀ k, ∃ r : ℝ, X k = (r : EReal)) (hXi : ∃ r : ℝ, Xi = (r : EReal))
    (hE : ∃ e : ℝ, 0 < e ∧ E = (e : EReal)) :
    (Xi + Ideal.div (∑ k, A k * X k) (max (0 + ∑ k, A k) E)) * Ideal.ofBits .f32 0x3F000000#32
      = Ideal.div (Xi + ∑ k, Ideal.div (A k) (max (0 + ∑ k, A k) E) * X k) (Ideal.ofBits .f32 0x40000000#32) := by
  choose a ha using hA
  choose x hx using hX
  obtain ⟨xi, rfl⟩ := hXi
  obtain ⟨e, he, rfl⟩ := hE
  obtain rfl : A = fun k => (a k : EReal) := funext ha
  obtain rfl : X = fun k => (x k : EReal) := funext hx
  exact prop_law a x xi e he

/-- A row of reals inside the extended reals has the row normaliser `max (0 + ∑ₖ Rₖ) ε` a positive real. -/
theorem denom_of_real {ι : Type*} [Fintype ι] (R : ι → EReal) (E : EReal)
    (hR : ∀ k, ∃ r : ℝ, R k = (r : EReal)) (hE : ∃ e : ℝ, 0 < e ∧ E = (e : EReal)) :
    ∃ d : ℝ, 0 < d ∧ max (0 + ∑ k, R k) E = (d : EReal) := by
  choose a ha using hR
  obtain ⟨e, he, rfl⟩ := hE
  obtain rfl : R = fun k => (a k : EReal) := funext ha
  exact denom_real a e he

/-- The same for a sum that starts from no zero: `max (∑ₖ Rₖ) ε`. -/
theorem denom_of_real' {ι : Type*} [Fintype ι] (R : ι → EReal) (E : EReal)
    (hR : ∀ k, ∃ r : ℝ, R k = (r : EReal)) (hE : ∃ e : ℝ, 0 < e ∧ E = (e : EReal)) :
    ∃ d : ℝ, 0 < d ∧ max (∑ k, R k) E = (d : EReal) := by
  have h := denom_of_real R E hR hE
  rwa [zero_add] at h

/-- (B1) The propagation law over ANY normaliser `D` that is a positive real (the row sum it comes from may be taken
    over another index type than the contraction's). -/
theorem prop_law_denom {ι : Type*} [Fintype ι] (A X : ι → EReal) (Xi D : EReal)
    (hA : ∀ k, ∃ r : ℝ, A k = (r : EReal)) (hX : ∀ k, ∃ r : ℝ, X k = (r : EReal)) (hXi : ∃ r : ℝ, Xi = (r : EReal))
    (hD : ∃ d : ℝ, 0 < d ∧ D = (d : EReal)) :
    (Xi + Ideal.div (∑ k, A k * X k) D) * Ideal.ofBits .f32 0x3F000000#32
      = Ideal.div (Xi + ∑ k, Ideal.div (A k) D * X k) (Ideal.ofBits .f32 0x40000000#32) := by
  choose a ha using hA
  choose x hx using hX
  obtain ⟨xi, rfl⟩ := hXi
  obtain ⟨d, hd, rfl⟩ := hD
  obtain rfl : A = fun k => (a k : EReal) := funext ha
  obtain rfl : X = fun k => (x k : EReal) := funext hx
  rw [ofBits_half, ofBits_two]
  exact prop_core a x xi d hd.ne'

/-- (B1) The same with `ε` the pattern `0x322BCC77` the two programs spell. -/
theorem prop_law_eps {ι : Type*} [Fintype ι] (A X : ι → EReal) (Xi : EReal)
    (hA : ∀ k, ∃ r : ℝ, A k = (r : EReal)) (hX : ∀ k, ∃ r : ℝ, X k = (r : EReal)) (hXi : ∃ r : ℝ, Xi = (r : EReal)) :
    (Xi + Ideal.div (∑ k, A k * X k) (max (0 + ∑ k, A k) (Ideal.ofBits .f32 0x322BCC77#32)))
        * Ideal.ofBits .f32 0x3F000000#32
      = Ideal.div (Xi + ∑ k, Ideal.div (A k) (max (0 + ∑ k, A k) (Ideal.ofBits .f32 0x322BCC77#32)) * X k)
          (Ideal.ofBits .f32 0x40000000#32) :=
  prop_law_of_real A X Xi _ hA hX hXi ofBits_eps_pos_real

/-! ## (B2) The scale constant -/

theorem sqrt_64 : Real.sqrt 64 = 8 := by
  rw [show (64 : ℝ) = 8 ^ 2 by norm_num, Real.sqrt_sq (by norm_num)]

/-- (B2) `1.0 / sqrt 64.0` is `0.125`. -/
theorem scale_eq :
    Ideal.div (Ideal.ofBits .f32 0x3F800000#32) (Ideal.sqrt (Ideal.ofBits .f32 0x42800000#32))
      = Ideal.ofBits .f32 0x3E000000#32 := by
  rw [ofBits_64, Ideal.sqrt_coe, if_neg (by norm_num), sqrt_64, ofBits_one,
    Ideal.div_coe (by norm_num : (8 : ℝ) ≠ 0), one_mul, ofBits_eighth]

/-- (B2) in the host's fields: the host quotient of the word `1.0` by the host square root of the word `64.0`. -/
theorem scale_eq_fields :
    FloatOps.hostDivf (F := Ideal) (φ := .f32) (FloatOps.ofBits .f32 0x3F800000#32)
        (FloatOps.hostUnary .sqrt (FloatOps.ofBits .f32 0x42800000#32))
      = FloatOps.ofBits .f32 0x3E000000#32 :=
  scale_eq

/-- (B2) on constant tensors of any shape (the reference's are rank zero). -/
theorem scale_eq_host (s : Shape) :
    Host.divf (constant (F := Ideal) s .f32 0x3F800000#32) (Host.sqrt (constant s .f32 0x42800000#32))
      = constant s .f32 0x3E000000#32 :=
  funext fun _ => scale_eq

/-! ## (B3) The two-view softmax -/

/-- The reference's maximum — a fold of `max` from `-∞` over the two views, then a `max` with `-∞` — is the
    kernel's `max l₀ l₁`. -/
theorem max_fold_bot (l0 l1 : EReal) : max ⊥ (max (max ⊥ l0) l1) = max l0 l1 := by
  rw [max_bot_left, max_bot_left]

/-- The same with `-∞` spelled by its pattern. -/
theorem max_fold_neg_inf (l0 l1 : EReal) :
    max (Ideal.ofBits .f32 0xFF800000#32) (max (max (Ideal.ofBits .f32 0xFF800000#32) l0) l1) = max l0 l1 := by
  rw [ofBits_neg_inf, max_fold_bot]

/-- A fold of a commutative associative operation over the two-element index set, from `b`: `(b ∘ f 0) ∘ f 1`. -/
theorem fold_fin2 {α : Type*} (op : α → α → α) [Std.Commutative op] [Std.Associative op] (b : α) (f : Fin 2 → α) :
    (Finset.univ : Finset (Fin 2)).fold op b f = op (op b (f 0)) (f 1) := by
  have h : (Finset.univ : Finset (Fin 2)) = insert 0 {1} := by decide
  rw [h, Finset.fold_insert (by decide), Finset.fold_singleton, Std.Commutative.comm (op := op) (f 1) b,
    ← Std.Associative.assoc (op := op), Std.Commutative.comm (op := op) (f 0) b]

/-- The reference's maximum over the two views, as a fold of the float maximum from `-∞`, is `max (f 0) (f 1)`. -/
theorem fold_maximumf_fin2 (f : Fin 2 → Ideal .f32) :
    (Finset.univ : Finset (Fin 2)).fold (FloatOps.maximumf (F := Ideal) (φ := .f32))
        (FloatOps.ofBits .f32 0xFF800000#32) f = max (f 0) (f 1) := by
  rw [fold_fin2]
  show max (max (Ideal.ofBits .f32 0xFF800000#32) (f 0)) (f 1) = max (f 0) (f 1)
  rw [ofBits_neg_inf, max_bot_left]

/-- (B3) The reference's two-view attention score is the kernel's, on all extended reals: the reference's sums
    start from `0` and its maximum from `-∞`. Sums read as `0 + (t₀ + t₁)`. -/
theorem softmax2 (l0 l1 d0 d1 : EReal) :
    (0 : EReal)
        + (Ideal.div (Ideal.exp (l0 - max ⊥ (max (max ⊥ l0) l1)))
              (0 + (Ideal.exp (l0 - max ⊥ (max (max ⊥ l0) l1)) + Ideal.exp (l1 - max ⊥ (max (max ⊥ l0) l1)))) * d0
          + Ideal.div (Ideal.exp (l1 - max ⊥ (max (max ⊥ l0) l1)))
              (0 + (Ideal.exp (l0 - max ⊥ (max (max ⊥ l0) l1)) + Ideal.exp (l1 - max ⊥ (max (max ⊥ l0) l1)))) * d1)
      = Ideal.div (Ideal.exp (l0 - max l0 l1)) (Ideal.exp (l0 - max l0 l1) + Ideal.exp (l1 - max l0 l1)) * d0
          + Ideal.div (Ideal.exp (l1 - max l0 l1)) (Ideal.exp (l0 - max l0 l1) + Ideal.exp (l1 - max l0 l1)) * d1 := by
  simp only [max_bot_left, zero_add]

/-- (B3) with the sums read as `(0 + t₀) + t₁`. -/
theorem softmax2' (l0 l1 d0 d1 : EReal) :
    (0 : EReal)
        + Ideal.div (Ideal.exp (l0 - max ⊥ (max (max ⊥ l0) l1)))
              (0 + Ideal.exp (l0 - max ⊥ (max (max ⊥ l0) l1)) + Ideal.exp (l1 - max ⊥ (max (max ⊥ l0) l1))) * d0
        + Ideal.div (Ideal.exp (l1 - max ⊥ (max (max ⊥ l0) l1)))
              (0 + Ideal.exp (l0 - max ⊥ (max (max ⊥ l0) l1)) + Ideal.exp (l1 - max ⊥ (max (max ⊥ l0) l1))) * d1
      = Ideal.div (Ideal.exp (l0 - max l0 l1)) (Ideal.exp (l0 - max l0 l1) + Ideal.exp (l1 - max l0 l1)) * d0
          + Ideal.div (Ideal.exp (l1 - max l0 l1)) (Ideal.exp (l0 - max l0 l1) + Ideal.exp (l1 - max l0 l1)) * d1 := by
  simp only [max_bot_left, zero_add]

end Cert.Laws

end
-- ==== Proof.Finite.lean ====
/-
  Finiteness of the inputs, decoded from the precondition. The precondition is a conjunction of seven tests
  "every entry x of the array has |x| < +∞", one per float argument; each test is a reduction by `and` of the
  entrywise comparison of max x (-x) against the word 0x7F800000 (+∞) over all axes. When the conjunction is 1,
  every entry of every float argument is an extended real that is neither +∞ nor -∞, that is a real number.
-/
import proofs.«132272_j21028159881436_2_alg».proof.Proof.Laws
import proofs.«132272_j21028159881436_2_alg».proof.Defs
import proofs.«132272_j21028159881436_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Idealize.SL.Sem
open Cert.Pre_finite_inputs

/-- The scalar shape has one index. -/
instance : Subsingleton S_.Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test |x| < +∞ answered 1: x is a real number. -/
theorem real_of_test (x : EReal)
    (h : FloatOps.cmpf (F := Ideal) (φ := .f32) .olt (FloatOps.hostAbsf x) (FloatOps.ofBits .f32 0x7F800000#32) = 1#1) :
    ∃ r : ℝ, x = (r : EReal) := by
  apply real_of_abs_lt_top
  have h' : BitVec.ofBool (decide (max x (-x) < Ideal.ofBits .f32 0x7F800000#32)) = 1#1 := h
  rw [inf_word] at h'
  by_contra hn
  rw [decide_eq_false hn] at h'
  exact absurd h' (by decide)

/-- One test of the precondition: a reduction by `and` over all axes of the entrywise comparison |x| < +∞ that came
    out 1 says that every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32))) init hr hu j = 1#1)
    (i : s.Idx) : ∃ r : ℝ, x i = (r : EReal) :=
  real_of_test (x i) (Host.reduce_andi_all _ init hr hu j e i)

/-- THE PRECONDITION DECODED: when the printed predicate answers 1, every entry of each of the seven float arguments
    is a real number. -/
theorem of_fn [Cert.Pre_finite_inputs.Facts] (a0 : FVec Ideal S8000x8000 .f32) (a1 a2 : FVec Ideal S4200x4200 .f32) (a3 a4 : FVec Ideal S4000x64 .f32)
    (a5 : FVec Ideal S200x64 .f32) (a6 : FVec Ideal S64x64 .f32) (a7 : IVec S512 32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have e := congrFun h ix0
  dsimp only [Cert.Pre_finite_inputs.fn, Cert.Pre_finite_inputs.fn_part1, andi] at e
  simp only [IntOp.andi_eq_one] at e
  obtain ⟨⟨⟨⟨⟨⟨h0, h1⟩, h2⟩, h3⟩, h4⟩, h5⟩, h6⟩ := e
  exact ⟨all_real a0 _ _ _ _ _ h0, all_real a1 _ _ _ _ _ h1, all_real a2 _ _ _ _ _ h2, all_real a3 _ _ _ _ _ h3,
    all_real a4 _ _ _ _ _ h4, all_real a5 _ _ _ _ _ h5, all_real a6 _ _ _ _ _ h6⟩

/-- The same of a launch memory of which the precondition holds: on every device, every entry of each of the seven
    float argument arrays is a real number. -/
theorem of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S8000x8000.Idx, ∃ r : ℝ, m ((c.tc : Thread Cert.KernelIdeal.nD Cert.KernelIdeal.τ).loc Cert.KernelIdeal.main_arg0) i = (r : EReal))
    ∧ (∀ i : S4200x4200.Idx, ∃ r : ℝ, m ((c.tc : Thread Cert.KernelIdeal.nD Cert.KernelIdeal.τ).loc Cert.KernelIdeal.main_arg1) i = (r : EReal))
    ∧ (∀ i : S4200x4200.Idx, ∃ r : ℝ, m ((c.tc : Thread Cert.KernelIdeal.nD Cert.KernelIdeal.τ).loc Cert.KernelIdeal.main_arg2) i = (r : EReal))
    ∧ (∀ i : S4000x64.Idx, ∃ r : ℝ, m ((c.tc : Thread Cert.KernelIdeal.nD Cert.KernelIdeal.τ).loc Cert.KernelIdeal.main_arg3) i = (r : EReal))
    ∧ (∀ i : S4000x64.Idx, ∃ r : ℝ, m ((c.tc : Thread Cert.KernelIdeal.nD Cert.KernelIdeal.τ).loc Cert.KernelIdeal.main_arg4) i = (r : EReal))
    ∧ (∀ i : S200x64.Idx, ∃ r : ℝ, m ((c.tc : Thread Cert.KernelIdeal.nD Cert.KernelIdeal.τ).loc Cert.KernelIdeal.main_arg5) i = (r : EReal))
    ∧ (∀ i : S64x64.Idx, ∃ r : ℝ, m ((c.tc : Thread Cert.KernelIdeal.nD Cert.KernelIdeal.τ).loc Cert.KernelIdeal.main_arg6) i = (r : EReal)) :=
  of_fn _ _ _ _ _ _ _ _ (hpre c)

/-- The same of a launch memory of the reference program of which its precondition holds. -/
theorem of_pre_reference [Cert.Pre_finite_inputs.Facts]
    (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    (∀ i : S8000x8000.Idx, ∃ r : ℝ, m ((c.tc : Thread Cert.ReferenceIdeal.nD Cert.ReferenceIdeal.τ).loc Cert.ReferenceIdeal.main_arg0) i = (r : EReal))
    ∧ (∀ i : S4200x4200.Idx, ∃ r : ℝ, m ((c.tc : Thread Cert.ReferenceIdeal.nD Cert.ReferenceIdeal.τ).loc Cert.ReferenceIdeal.main_arg1) i = (r : EReal))
    ∧ (∀ i : S4200x4200.Idx, ∃ r : ℝ, m ((c.tc : Thread Cert.ReferenceIdeal.nD Cert.ReferenceIdeal.τ).loc Cert.ReferenceIdeal.main_arg2) i = (r : EReal))
    ∧ (∀ i : S4000x64.Idx, ∃ r : ℝ, m ((c.tc : Thread Cert.ReferenceIdeal.nD Cert.ReferenceIdeal.τ).loc Cert.ReferenceIdeal.main_arg3) i = (r : EReal))
    ∧ (∀ i : S4000x64.Idx, ∃ r : ℝ, m ((c.tc : Thread Cert.ReferenceIdeal.nD Cert.ReferenceIdeal.τ).loc Cert.ReferenceIdeal.main_arg4) i = (r : EReal))
    ∧ (∀ i : S200x64.Idx, ∃ r : ℝ, m ((c.tc : Thread Cert.ReferenceIdeal.nD Cert.ReferenceIdeal.τ).loc Cert.ReferenceIdeal.main_arg5) i = (r : EReal))
    ∧ (∀ i : S64x64.Idx, ∃ r : ℝ, m ((c.tc : Thread Cert.ReferenceIdeal.nD Cert.ReferenceIdeal.τ).loc Cert.ReferenceIdeal.main_arg6) i = (r : EReal)) :=
  of_fn _ _ _ _ _ _ _ _ (hpre c)

/-- An array of extended reals whose entries are all real numbers is the coercion of an array of real numbers. -/
theorem exists_real_fun {ι : Type} (a : ι → EReal) (h : ∀ i, ∃ r : ℝ, a i = (r : EReal)) :
    ∃ f : ι → ℝ, a = fun i => (f i : EReal) := by
  choose f hf using h
  exact ⟨f, funext hf⟩

/-- A real entry is neither infinity. -/
theorem ne_top_bot {x : EReal} (h : ∃ r : ℝ, x = (r : EReal)) : x ≠ ⊤ ∧ x ≠ ⊥ := by
  obtain ⟨r, rfl⟩ := h
  exact ⟨EReal.coe_ne_top r, EReal.coe_ne_bot r⟩

end Cert.Finite

end
-- ==== Proof.RefRead.lean ====
/-
  The reference program's results read index by index, at the ideal instance (floats are extended reals,
  every operation exact). Each theorem's left side is a stage of the reference applied to an index built
  from its coordinates; the right side is the arithmetic formula for that element.
-/
import proofs.«132272_j21028159881436_2_alg».proof.Proof.Finite
import proofs.«132272_j21028159881436_2_alg».proof.Proof.Gen.ReferenceIdeal.Read
import proofs.«132272_j21028159881436_2_alg».proof.Proof.Laws
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.RefSide

open Cert.ReferenceIdeal Cert.ReferenceIdeal.Gen Cert.ReferenceIdeal.Read Idealize.ShloMosaic Idealize.ShloMosaic.ValueIdx

/-! ## Propagation one (8000 rows): row-normalised adjacency times the stacked table, averaged with the table -/

/-- The broadcast denominator at (i, k): the larger of the row sum of the adjacency (from zero) and the floor constant. -/
theorem den1_apply (A : (⟨S8000x8000, .f32⟩ : BufTy).Contents (Elt Ideal)) (i k : Fin 8000) :
    val_main_v5 (F := Ideal) A (ix2 i k)
      = max (0 + ∑ k' : Fin 8000, A (ix2 i k')) (Ideal.ofBits .f32 0x322BCC77#32) := by
  rw [val_main_v5_apply, val_main_v4_apply, val_main_v2_apply, val_main_v3_apply, val_main_cst_0_apply, val_main_v1_apply, val_main_cst_apply]
  simp only [Ideal.maximumf_def, Ideal.ofBits_def, Ideal.ofBits_zero_f32]
  refine congrArg (fun t => max (0 + t) _) (Finset.sum_congr rfl fun k' _ => congrArg A ?_)
  funext a
  match a with
  | ⟨0, _⟩ => rfl
  | ⟨1, _⟩ => rfl

/-- The normalised adjacency at (i, k). -/
theorem norm1_apply (A : (⟨S8000x8000, .f32⟩ : BufTy).Contents (Elt Ideal)) (i k : Fin 8000) :
    val_main_v6 (F := Ideal) A (ix2 i k)
      = Ideal.div (A (ix2 i k)) (max (0 + ∑ k' : Fin 8000, A (ix2 i k')) (Ideal.ofBits .f32 0x322BCC77#32)) := by
  rw [val_main_v6_apply, den1_apply]
  rfl

/-- The propagation result at (i, j): the table entry plus the normalised row of the adjacency against the table's
    column, halved by a division by two. -/
theorem prop1_apply (A : (⟨S8000x8000, .f32⟩ : BufTy).Contents (Elt Ideal)) (x3 x4 : (⟨S4000x64, .f32⟩ : BufTy).Contents (Elt Ideal)) (i : Fin 8000) (j : Fin 64) :
    val_main_v10 (F := Ideal) A x3 x4 (ix2 i j)
      = Ideal.div (val_main_v0 (F := Ideal) x3 x4 (ix2 i j)
          + ∑ k : Fin 8000, Ideal.div (A (ix2 i k)) (max (0 + ∑ k' : Fin 8000, A (ix2 i k')) (Ideal.ofBits .f32 0x322BCC77#32))
              * val_main_v0 (F := Ideal) x3 x4 (ix2 k j))
          (Ideal.ofBits .f32 0x40000000#32) := by
  rw [val_main_v10_apply, val_main_v8_apply, val_main_v9_apply, val_main_cst_1_apply, val_main_v7_apply]
  simp only [Ideal.hostDivf_def, Ideal.addf_def, Ideal.ofBits_def]
  refine congrArg (fun t => Ideal.div (_ + t) _) (Finset.sum_congr rfl fun k _ => ?_)
  have el : lidx_main_v7 (ix2 i j) k = ix2 i k := by
    funext a
    match a with
    | ⟨0, _⟩ => rfl
    | ⟨1, _⟩ => rfl
  have er : ridx_main_v7 (ix2 i j) k = ix2 k j := by
    funext a
    match a with
    | ⟨0, _⟩ => rfl
    | ⟨1, _⟩ => rfl
  rw [el, er, norm1_apply]

/-! ## Propagation two (4200 rows, first table): row-normalised adjacency times the stacked table, averaged with the table -/

/-- The broadcast denominator at (i, k): the larger of the row sum of the adjacency (from zero) and the floor constant. -/
theorem den2_apply (A : (⟨S4200x4200, .f32⟩ : BufTy).Contents (Elt Ideal)) (i k : Fin 4200) :
    val_main_v16 (F := Ideal) A (ix2 i k)
      = max (0 + ∑ k' : Fin 4200, A (ix2 i k')) (Ideal.ofBits .f32 0x322BCC77#32) := by
  rw [val_main_v16_apply, val_main_v15_apply, val_main_v13_apply, val_main_v14_apply, val_main_cst_3_apply, val_main_v12_apply, val_main_cst_2_apply]
  simp only [Ideal.maximumf_def, Ideal.ofBits_def, Ideal.ofBits_zero_f32]
  refine congrArg (fun t => max (0 + t) _) (Finset.sum_congr rfl fun k' _ => congrArg A ?_)
  funext a
  match a with
  | ⟨0, _⟩ => rfl
  | ⟨1, _⟩ => rfl

/-- The normalised adjacency at (i, k). -/
theorem norm2_apply (A : (⟨S4200x4200, .f32⟩ : BufTy).Contents (Elt Ideal)) (i k : Fin 4200) :
    val_main_v17 (F := Ideal) A (ix2 i k)
      = Ideal.div (A (ix2 i k)) (max (0 + ∑ k' : Fin 4200, A (ix2 i k')) (Ideal.ofBits .f32 0x322BCC77#32)) := by
  rw [val_main_v17_apply, den2_apply]
  rfl

/-- The propagation result at (i, j): the table entry plus the normalised row of the adjacency against the table's
    column, halved by a division by two. -/
theorem prop2_apply (A : (⟨S4200x4200, .f32⟩ : BufTy).Contents (Elt Ideal)) (x3 : (⟨S4000x64, .f32⟩ : BufTy).Contents (Elt Ideal)) (x5 : (⟨S200x64, .f32⟩ : BufTy).Contents (Elt Ideal)) (i : Fin 4200) (j : Fin 64) :
    val_main_v21 (F := Ideal) A x3 x5 (ix2 i j)
      = Ideal.div (val_main_v11 (F := Ideal) x3 x5 (ix2 i j)
          + ∑ k : Fin 4200, Ideal.div (A (ix2 i k)) (max (0 + ∑ k' : Fin 4200, A (ix2 i k')) (Ideal.ofBits .f32 0x322BCC77#32))
              * val_main_v11 (F := Ideal) x3 x5 (ix2 k j))
          (Ideal.ofBits .f32 0x40000000#32) := by
  rw [val_main_v21_apply, val_main_v19_apply, val_main_v20_apply, val_main_cst_4_apply, val_main_v18_apply]
  simp only [Ideal.hostDivf_def, Ideal.addf_def, Ideal.ofBits_def]
  refine congrArg (fun t => Ideal.div (_ + t) _) (Finset.sum_congr rfl fun k _ => ?_)
  have el : lidx_main_v18 (ix2 i j) k = ix2 i k := by
    funext a
    match a with
    | ⟨0, _⟩ => rfl
    | ⟨1, _⟩ => rfl
  have er : ridx_main_v18 (ix2 i j) k = ix2 k j := by
    funext a
    match a with
    | ⟨0, _⟩ => rfl
    | ⟨1, _⟩ => rfl
  rw [el, er, norm2_apply]

/-! ## Propagation three (4200 rows, second table): row-normalised adjacency times the stacked table, averaged with the table -/

/-- The broadcast denominator at (i, k): the larger of the row sum of the adjacency (from zero) and the floor constant. -/
theorem den3_apply (A : (⟨S4200x4200, .f32⟩ : BufTy).Contents (Elt Ideal)) (i k : Fin 4200) :
    val_main_v27 (F := Ideal) A (ix2 i k)
      = max (0 + ∑ k' : Fin 4200, A (ix2 i k')) (Ideal.ofBits .f32 0x322BCC77#32) := by
  rw [val_main_v27_apply, val_main_v26_apply, val_main_v24_apply, val_main_v25_apply, val_main_cst_6_apply, val_main_v23_apply, val_main_cst_5_apply]
  simp only [Ideal.maximumf_def, Ideal.ofBits_def, Ideal.ofBits_zero_f32]
  refine congrArg (fun t => max (0 + t) _) (Finset.sum_congr rfl fun k' _ => congrArg A ?_)
  funext a
  match a with
  | ⟨0, _⟩ => rfl
  | ⟨1, _⟩ => rfl

/-- The normalised adjacency at (i, k). -/
theorem norm3_apply (A : (⟨S4200x4200, .f32⟩ : BufTy).Contents (Elt Ideal)) (i k : Fin 4200) :
    val_main_v28 (F := Ideal) A (ix2 i k)
      = Ideal.div (A (ix2 i k)) (max (0 + ∑ k' : Fin 4200, A (ix2 i k')) (Ideal.ofBits .f32 0x322BCC77#32)) := by
  rw [val_main_v28_apply, den3_apply]
  rfl

/-- The propagation result at (i, j): the table entry plus the normalised row of the adjacency against the table's
    column, halved by a division by two. -/
theorem prop3_apply (A : (⟨S4200x4200, .f32⟩ : BufTy).Contents (Elt Ideal)) (x4 : (⟨S4000x64, .f32⟩ : BufTy).Contents (Elt Ideal)) (x5 : (⟨S200x64, .f32⟩ : BufTy).Contents (Elt Ideal)) (i : Fin 4200) (j : Fin 64) :
    val_main_v32 (F := Ideal) A x4 x5 (ix2 i j)
      = Ideal.div (val_main_v22 (F := Ideal) x4 x5 (ix2 i j)
          + ∑ k : Fin 4200, Ideal.div (A (ix2 i k)) (max (0 + ∑ k' : Fin 4200, A (ix2 i k')) (Ideal.ofBits .f32 0x322BCC77#32))
              * val_main_v22 (F := Ideal) x4 x5 (ix2 k j))
          (Ideal.ofBits .f32 0x40000000#32) := by
  rw [val_main_v32_apply, val_main_v30_apply, val_main_v31_apply, val_main_cst_7_apply, val_main_v29_apply]
  simp only [Ideal.hostDivf_def, Ideal.addf_def, Ideal.ofBits_def]
  refine congrArg (fun t => Ideal.div (_ + t) _) (Finset.sum_congr rfl fun k _ => ?_)
  have el : lidx_main_v29 (ix2 i j) k = ix2 i k := by
    funext a
    match a with
    | ⟨0, _⟩ => rfl
    | ⟨1, _⟩ => rfl
  have er : ridx_main_v29 (ix2 i j) k = ix2 k j := by
    funext a
    match a with
    | ⟨0, _⟩ => rfl
    | ⟨1, _⟩ => rfl
  rw [el, er, norm3_apply]

/-! ## The attention scores -/

/-- The stacked two-view features at view 0 are the first view's rows. -/
theorem feat_view0_apply (x0 : (⟨S8000x8000, .f32⟩ : BufTy).Contents (Elt Ideal)) (x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (p : Fin 4000) (d : Fin 64) :
    val_main_v49 (F := Ideal) x0 x2 x3 x4 x5 (ix3 p (0 : Fin 2) d) = val_main_v34 (F := Ideal) x0 x3 x4 (ix2 p d) := by
  unfold val_main_v49
  rw [concatenate_pair_apply_left (t := S4000x2x64) (s₁ := S4000x1x64) (s₂ := S4000x1x64) (1 : Fin 3) _ _ concatenates_S4000x1x64_S4000x1x64_S4000x2x64_d1
    (ix3 p (0 : Fin 2) d) rfl (ix3 p (0 : Fin 1) d : S4000x1x64.Idx) (fun b => by
      match b with
      | ⟨0, _⟩ => rfl
      | ⟨1, _⟩ => rfl
      | ⟨2, _⟩ => rfl)]
  rw [val_main_v47_apply]
  refine congrArg _ ?_
  funext a
  match a with
  | ⟨0, _⟩ => rfl
  | ⟨1, _⟩ => rfl

/-- The stacked two-view features at view 1 are the second view's rows. -/
theorem feat_view1_apply (x0 : (⟨S8000x8000, .f32⟩ : BufTy).Contents (Elt Ideal)) (x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (p : Fin 4000) (d : Fin 64) :
    val_main_v49 (F := Ideal) x0 x2 x3 x4 x5 (ix3 p (1 : Fin 2) d) = val_main_v36 (F := Ideal) x2 x4 x5 (ix2 p d) := by
  unfold val_main_v49
  rw [concatenate_pair_apply_right (t := S4000x2x64) (s₁ := S4000x1x64) (s₂ := S4000x1x64) (1 : Fin 3) _ _ concatenates_S4000x1x64_S4000x1x64_S4000x2x64_d1
    (ix3 p (1 : Fin 2) d) rfl rfl (ix3 p (0 : Fin 1) d : S4000x1x64.Idx) (fun b hb => by
      match b with
      | ⟨0, _⟩ => rfl
      | ⟨1, _⟩ => exact absurd rfl hb
      | ⟨2, _⟩ => rfl) rfl]
  rw [val_main_v48_apply]
  refine congrArg _ ?_
  funext a
  match a with
  | ⟨0, _⟩ => rfl
  | ⟨1, _⟩ => rfl

/-- The scale the reference computes on the host: one divided by the square root of sixty-four. -/
def scale : EReal := Ideal.div (Ideal.ofBits .f32 0x3F800000#32) (Ideal.sqrt (Ideal.ofBits .f32 0x42800000#32))

/-- The query row: q(b, d) = ∑ₑ G(b, e) · W(e, d). -/
def query (G : (⟨S512x64, .f32⟩ : BufTy).Contents (Elt Ideal)) (W : (⟨S64x64, .f32⟩ : BufTy).Contents (Elt Ideal))
    (b : Fin 512) (d : Fin 64) : EReal :=
  ∑ e : Fin 64, G (ix2 b e) * W (ix2 e d)

/-- One view's logit: (∑_d q(b, d) · feat(p, d)) · scale. -/
def logit (G : (⟨S512x64, .f32⟩ : BufTy).Contents (Elt Ideal)) (W : (⟨S64x64, .f32⟩ : BufTy).Contents (Elt Ideal))
    (Fk : (⟨S4000x64, .f32⟩ : BufTy).Contents (Elt Ideal)) (b : Fin 512) (p : Fin 4000) : EReal :=
  (∑ d : Fin 64, query G W b d * Fk (ix2 p d)) * scale

/-- One view's plain dot product: ∑_d G(b, d) · feat(p, d). -/
def dots (G : (⟨S512x64, .f32⟩ : BufTy).Contents (Elt Ideal)) (Fk : (⟨S4000x64, .f32⟩ : BufTy).Contents (Elt Ideal))
    (b : Fin 512) (p : Fin 4000) : EReal :=
  ∑ d : Fin 64, G (ix2 b d) * Fk (ix2 p d)

/-- The projected user features at (b, d). -/
theorem query_apply (x0 : (⟨S8000x8000, .f32⟩ : BufTy).Contents (Elt Ideal)) (x1 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (d : Fin 64) :
    val_main_v52 (F := Ideal) x0 x1 x3 x4 x5 x6 x7 (ix2 b d) = query (val_main_v46 (F := Ideal) x0 x1 x3 x4 x5 x7) x6 b d := by
  rw [val_main_v52_apply]
  unfold query
  refine Finset.sum_congr rfl fun e _ => ?_
  have el : lidx_main_v52 (ix2 b d) e = ix2 b e := by
    funext a
    match a with
    | ⟨0, _⟩ => rfl
    | ⟨1, _⟩ => rfl
  have er : ridx_main_v52 (ix2 b d) e = ix2 e d := by
    funext a
    match a with
    | ⟨0, _⟩ => rfl
    | ⟨1, _⟩ => rfl
  rw [el, er]

/-- The broadcast scale, anywhere. -/
theorem scale_apply (i : S512x4000x2.Idx) : val_main_v54 (F := Ideal) i = scale := by
  rw [val_main_v54_apply, val_main_v51_apply, val_main_cst_11_apply, val_main_v50_apply, val_main_cst_10_apply]
  rfl

/-- The first view's logit at (b, p). -/
theorem logit0_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (p : Fin 4000) :
    val_main_v55 (F := Ideal) x0 x1 x2 x3 x4 x5 x6 x7 (ix3 b p (0 : Fin 2)) = logit (val_main_v46 (F := Ideal) x0 x1 x3 x4 x5 x7) x6 (val_main_v34 (F := Ideal) x0 x3 x4) b p := by
  rw [val_main_v55_apply, scale_apply, val_main_v53_apply]
  unfold logit
  simp only [Ideal.mulf_def]
  refine congrArg (fun t : EReal => t * scale) (Finset.sum_congr rfl fun d _ => ?_)
  have el : lidx_main_v53 (ix3 b p (0 : Fin 2)) d = ix2 b d := by
    funext a
    match a with
    | ⟨0, _⟩ => rfl
    | ⟨1, _⟩ => rfl
  have er : ridx_main_v53 (ix3 b p (0 : Fin 2)) d = ix3 p (0 : Fin 2) d := by
    funext a
    match a with
    | ⟨0, _⟩ => rfl
    | ⟨1, _⟩ => rfl
    | ⟨2, _⟩ => rfl
  rw [el, er, query_apply, feat_view0_apply]

/-- The second view's logit at (b, p). -/
theorem logit1_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (p : Fin 4000) :
    val_main_v55 (F := Ideal) x0 x1 x2 x3 x4 x5 x6 x7 (ix3 b p (1 : Fin 2)) = logit (val_main_v46 (F := Ideal) x0 x1 x3 x4 x5 x7) x6 (val_main_v36 (F := Ideal) x2 x4 x5) b p := by
  rw [val_main_v55_apply, scale_apply, val_main_v53_apply]
  unfold logit
  simp only [Ideal.mulf_def]
  refine congrArg (fun t : EReal => t * scale) (Finset.sum_congr rfl fun d _ => ?_)
  have el : lidx_main_v53 (ix3 b p (1 : Fin 2)) d = ix2 b d := by
    funext a
    match a with
    | ⟨0, _⟩ => rfl
    | ⟨1, _⟩ => rfl
  have er : ridx_main_v53 (ix3 b p (1 : Fin 2)) d = ix3 p (1 : Fin 2) d := by
    funext a
    match a with
    | ⟨0, _⟩ => rfl
    | ⟨1, _⟩ => rfl
    | ⟨2, _⟩ => rfl
  rw [el, er, query_apply, feat_view1_apply]

/-- The first view's plain dot product at (b, p). -/
theorem dots0_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x7 : (⟨S512, .i32⟩ : BufTy).Contents (Elt Ideal)) (b : Fin 512) (p : Fin 4000) :
    val_main_v67 (F := Ideal) x0 x1 x2 x3 x4 x5 x7 (ix3 b p (0 : Fin 2)) = dots (val_main_v46 (F := Ideal) x0 x1 x3 x4 x5 x7) (val_main_v34 (F := Ideal) x0 x3 x4) b p := by
  rw [val_main_v67_apply]
  unfold dots
  refine Finset.sum_congr rfl fun d _ => ?_
  have el : lidx_main_v67 (ix3 b p (0 : Fin 2)) d = ix2 b d := by
    funext a
    match a with
    | ⟨0, _⟩ => rfl
    | ⟨1, _⟩ => rfl
  have er : ridx_main_v67 (ix3 b p (0 : Fin 2)) d = ix3 p (0 : Fin 2) d := by
    funext a
    match a with
    | ⟨0, _⟩ => rfl
    | ⟨1, _⟩ => rfl
    | ⟨2, _⟩ => rfl
  rw [el, er, feat_view0_apply]

/-- The second view's plain dot product at (b, p). -/
theorem dots1_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x7 : (⟨S512, .i32⟩ : BufTy).Contents (Elt Ideal)) (b : Fin 512) (p : Fin 4000) :
    val_main_v67 (F := Ideal) x0 x1 x2 x3 x4 x5 x7 (ix3 b p (1 : Fin 2)) = dots (val_main_v46 (F := Ideal) x0 x1 x3 x4 x5 x7) (val_main_v36 (F := Ideal) x2 x4 x5) b p := by
  rw [val_main_v67_apply]
  unfold dots
  refine Finset.sum_congr rfl fun d _ => ?_
  have el : lidx_main_v67 (ix3 b p (1 : Fin 2)) d = ix2 b d := by
    funext a
    match a with
    | ⟨0, _⟩ => rfl
    | ⟨1, _⟩ => rfl
  have er : ridx_main_v67 (ix3 b p (1 : Fin 2)) d = ix3 p (1 : Fin 2) d := by
    funext a
    match a with
    | ⟨0, _⟩ => rfl
    | ⟨1, _⟩ => rfl
    | ⟨2, _⟩ => rfl
  rw [el, er, feat_view1_apply]

/-- A fold over the two coordinates of an axis of size two, written out. -/
theorem fold_univ_fin2 {α : Type} (f : α → α → α) [Std.Commutative f] [Std.Associative f] (c : α) (g : Fin 2 → α) :
    (Finset.univ : Finset (Fin 2)).fold f c g = f (g 0) (f (g 1) c) := by
  simp only [Fin.univ_succ, Finset.fold_cons, Finset.fold_map, Finset.univ_unique, Finset.fold_singleton]
  rfl

/-- A reduced index (b, p) with the view coordinate put back is (b, p, k). -/
theorem lift_view (h : S512x4000x2.Reduces [2] S512x4000) (b : Fin 512) (p : Fin 4000)
    (k : Fin (S512x4000x2.size 2)) : h.lift (ix2 b p) k = ix3 b p (⟨k.val, k.isLt⟩ : Fin 2) := by
  funext c
  apply Fin.ext
  fin_cases c <;> rfl

/-- The maximum over the two views of the logits at (b, p): the reduce from negative infinity, then the maximum with
    negative infinity, leave the larger of the two logits. -/
theorem rowmax_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (p : Fin 4000) :
    val_main_v58 (F := Ideal) x0 x1 x2 x3 x4 x5 x6 x7 (ix2 b p) = max (val_main_v55 (F := Ideal) x0 x1 x2 x3 x4 x5 x6 x7 (ix3 b p (0 : Fin 2))) (val_main_v55 (F := Ideal) x0 x1 x2 x3 x4 x5 x6 x7 (ix3 b p (1 : Fin 2))) := by
  have hR : S512x4000x2.Reduces [2] S512x4000 := by decide
  rw [val_main_v58_apply, val_main_v57_apply, val_main_cst_13_apply]
  unfold val_main_v56
  rw [Host.reduce_eq_fold_single FloatOps.maximumf _ _ reducesTo_S512x4000x2_S512x4000_d2 hR h_S_]
  have hf : ((val_main_v55 (F := Ideal) x0 x1 x2 x3 x4 x5 x6 x7) ∘ hR.lift (ix2 b p))
      = fun k : Fin 2 => val_main_v55 (F := Ideal) x0 x1 x2 x3 x4 x5 x6 x7 (ix3 b p k) :=
    funext fun k => congrArg (val_main_v55 (F := Ideal) x0 x1 x2 x3 x4 x5 x6 x7) (lift_view hR b p k)
  rw [hf]
  have e := fold_univ_fin2 (FloatOps.maximumf (F := Ideal) (φ := .f32)) (val_main_cst_12 (F := Ideal) (Shape.Idx.first h_S_))
    (fun k : Fin 2 => val_main_v55 (F := Ideal) x0 x1 x2 x3 x4 x5 x6 x7 (ix3 b p k))
  refine (congrArg (FloatOps.maximumf (FloatOps.ofBits .f32 0xFF800000#32)) e).trans ?_
  rw [val_main_cst_12_apply]
  simp only [Ideal.maximumf_def, Ideal.ofBits_def, Cert.Laws.ofBits_neg_inf, max_bot_right, max_bot_left]

/-- The exponential of a logit less the row maximum, at view k. -/
theorem expo_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (p : Fin 4000) (k : Fin 2) :
    val_main_v62 (F := Ideal) x0 x1 x2 x3 x4 x5 x6 x7 (ix3 b p k) = Ideal.exp (val_main_v55 (F := Ideal) x0 x1 x2 x3 x4 x5 x6 x7 (ix3 b p k) - val_main_v58 (F := Ideal) x0 x1 x2 x3 x4 x5 x6 x7 (ix2 b p)) := by
  rw [val_main_v62_apply, val_main_v61_apply, val_main_v60_apply, val_main_v59_apply]
  have ei : idx_main_v59 (idx_main_v60 (ix3 b p k)) = ix2 b p := by
    funext a
    match a with
    | ⟨0, _⟩ => rfl
    | ⟨1, _⟩ => rfl
  rw [ei]
  rfl

/-- The sum of the two exponentials at (b, p), from zero. -/
theorem expsum_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (p : Fin 4000) :
    val_main_v63 (F := Ideal) x0 x1 x2 x3 x4 x5 x6 x7 (ix2 b p) = val_main_v62 (F := Ideal) x0 x1 x2 x3 x4 x5 x6 x7 (ix3 b p (0 : Fin 2)) + val_main_v62 (F := Ideal) x0 x1 x2 x3 x4 x5 x6 x7 (ix3 b p (1 : Fin 2)) := by
  rw [val_main_v63_apply, val_main_cst_14_apply, Fin.sum_univ_two]
  simp only [Ideal.ofBits_def, Ideal.ofBits_zero_f32, zero_add]
  have e0 : idx_main_v63 (ix2 b p) (0 : Fin 2) = ix3 b p (0 : Fin 2) := by
    funext a
    match a with
    | ⟨0, _⟩ => rfl
    | ⟨1, _⟩ => rfl
    | ⟨2, _⟩ => rfl
  have e1 : idx_main_v63 (ix2 b p) (1 : Fin 2) = ix3 b p (1 : Fin 2) := by
    funext a
    match a with
    | ⟨0, _⟩ => rfl
    | ⟨1, _⟩ => rfl
    | ⟨2, _⟩ => rfl
  rw [e0, e1]

/-- The attention weight of view k at (b, p): its exponential over the sum of the two. -/
theorem attn_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (p : Fin 4000) (k : Fin 2) :
    val_main_v66 (F := Ideal) x0 x1 x2 x3 x4 x5 x6 x7 (ix3 b p k) = Ideal.div (val_main_v62 (F := Ideal) x0 x1 x2 x3 x4 x5 x6 x7 (ix3 b p k)) (val_main_v63 (F := Ideal) x0 x1 x2 x3 x4 x5 x6 x7 (ix2 b p)) := by
  rw [val_main_v66_apply, val_main_v65_apply, val_main_v64_apply]
  have ei : idx_main_v64 (idx_main_v65 (ix3 b p k)) = ix2 b p := by
    funext a
    match a with
    | ⟨0, _⟩ => rfl
    | ⟨1, _⟩ => rfl
  rw [ei]
  rfl

/-- The score at (b, p): the sum, from zero, over the two views of weight times plain dot product. -/
theorem score_sum_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (p : Fin 4000) :
    val_main_v69 (F := Ideal) x0 x1 x2 x3 x4 x5 x6 x7 (ix2 b p)
      = val_main_v66 (F := Ideal) x0 x1 x2 x3 x4 x5 x6 x7 (ix3 b p (0 : Fin 2)) * val_main_v67 (F := Ideal) x0 x1 x2 x3 x4 x5 x7 (ix3 b p (0 : Fin 2))
        + val_main_v66 (F := Ideal) x0 x1 x2 x3 x4 x5 x6 x7 (ix3 b p (1 : Fin 2)) * val_main_v67 (F := Ideal) x0 x1 x2 x3 x4 x5 x7 (ix3 b p (1 : Fin 2)) := by
  rw [val_main_v69_apply, val_main_cst_15_apply, Fin.sum_univ_two]
  simp only [Ideal.ofBits_def, Ideal.ofBits_zero_f32, zero_add]
  have e0 : idx_main_v69 (ix2 b p) (0 : Fin 2) = ix3 b p (0 : Fin 2) := by
    funext a
    match a with
    | ⟨0, _⟩ => rfl
    | ⟨1, _⟩ => rfl
    | ⟨2, _⟩ => rfl
  have e1 : idx_main_v69 (ix2 b p) (1 : Fin 2) = ix3 b p (1 : Fin 2) := by
    funext a
    match a with
    | ⟨0, _⟩ => rfl
    | ⟨1, _⟩ => rfl
    | ⟨2, _⟩ => rfl
  rw [e0, e1, val_main_v68_apply, val_main_v68_apply]
  rfl

/-- The two-view softmax-weighted score from the two logits and the two plain dot products: with m the larger logit,
    e_k = exp (l_k − m), the weights e_k / (e₀ + e₁), and the score their combination of the dot products. -/
def softmax2Score (l0 l1 d0 d1 : EReal) : EReal :=
  Ideal.div (Ideal.exp (l0 - max l0 l1)) (Ideal.exp (l0 - max l0 l1) + Ideal.exp (l1 - max l0 l1)) * d0
    + Ideal.div (Ideal.exp (l1 - max l0 l1)) (Ideal.exp (l0 - max l0 l1) + Ideal.exp (l1 - max l0 l1)) * d1

/-- THE SCORES at (b, p): the two-view softmax-weighted score of the logits and plain dot products formed from the
    gathered user features, the attention matrix and the two views' item features. -/
theorem scores_apply (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (p : Fin 4000) :
    val_main_v69 (F := Ideal) x0 x1 x2 x3 x4 x5 x6 x7 (ix2 b p)
      = softmax2Score (logit (val_main_v46 (F := Ideal) x0 x1 x3 x4 x5 x7) x6 (val_main_v34 (F := Ideal) x0 x3 x4) b p) (logit (val_main_v46 (F := Ideal) x0 x1 x3 x4 x5 x7) x6 (val_main_v36 (F := Ideal) x2 x4 x5) b p)
          (dots (val_main_v46 (F := Ideal) x0 x1 x3 x4 x5 x7) (val_main_v34 (F := Ideal) x0 x3 x4) b p) (dots (val_main_v46 (F := Ideal) x0 x1 x3 x4 x5 x7) (val_main_v36 (F := Ideal) x2 x4 x5) b p) := by
  rw [score_sum_apply, attn_apply, attn_apply, expsum_apply, expo_apply, expo_apply, rowmax_apply,
    logit0_apply, logit1_apply, dots0_apply, dots1_apply]
  rfl

end Cert.RefSide

end
-- ==== Proof.RefRead2.lean ====
/-
  The reference program's layout stages read index by index: each row slice of a propagation result is that result
  at the row shifted by the slice's offset, and each stacked table is its first operand on the leading rows and its
  second operand, shifted back, on the rest.
-/
import proofs.«132272_j21028159881436_2_alg».proof.Proof.RefRead
import Idealize.ShloMosaic.Lib.Pipeline.Value
import Idealize.ShloMosaic.Lib.ValueIdx

noncomputable section

namespace Cert.RefSide

open Cert.ReferenceIdeal Cert.ReferenceIdeal.Gen Cert.ReferenceIdeal.Read Idealize.ShloMosaic Idealize.ShloMosaic.ValueIdx

/-! ## The row slices -/

/-- The leading 4000 rows of the first propagation result. -/
theorem slice33_apply (x0 : (⟨S8000x8000, .f32⟩ : BufTy).Contents (Elt Ideal)) (x3 x4 : (⟨S4000x64, .f32⟩ : BufTy).Contents (Elt Ideal)) (p : Fin 4000) (d : Fin 64) :
    val_main_v33 (F := Ideal) x0 x3 x4 (ix2 p d)
      = val_main_v10 (F := Ideal) x0 x3 x4 (ix2 (⟨p.val, by have := p.isLt; omega⟩ : Fin 8000) d) := by
  rw [val_main_v33_apply]
  refine congrArg _ ?_
  funext a
  match a with
  | ⟨0, _⟩ => exact Fin.ext (by show p.val = p.val; omega)
  | ⟨1, _⟩ => rfl

/-- The trailing 4000 rows of the first propagation result: row p is row p + 4000. -/
theorem slice34_apply (x0 : (⟨S8000x8000, .f32⟩ : BufTy).Contents (Elt Ideal)) (x3 x4 : (⟨S4000x64, .f32⟩ : BufTy).Contents (Elt Ideal)) (p : Fin 4000) (d : Fin 64) :
    val_main_v34 (F := Ideal) x0 x3 x4 (ix2 p d)
      = val_main_v10 (F := Ideal) x0 x3 x4 (ix2 (⟨p.val + 4000, by have := p.isLt; omega⟩ : Fin 8000) d) := by
  rw [val_main_v34_apply]
  refine congrArg _ ?_
  funext a
  match a with
  | ⟨0, _⟩ => exact Fin.ext (by show 4000 + p.val = p.val + 4000; omega)
  | ⟨1, _⟩ => rfl

/-- The trailing 4000 rows of the second propagation result: row p is row p + 200. -/
theorem slice35_apply (x1 : (⟨S4200x4200, .f32⟩ : BufTy).Contents (Elt Ideal)) (x3 : (⟨S4000x64, .f32⟩ : BufTy).Contents (Elt Ideal)) (x5 : (⟨S200x64, .f32⟩ : BufTy).Contents (Elt Ideal)) (p : Fin 4000) (d : Fin 64) :
    val_main_v35 (F := Ideal) x1 x3 x5 (ix2 p d)
      = val_main_v21 (F := Ideal) x1 x3 x5 (ix2 (⟨p.val + 200, by have := p.isLt; omega⟩ : Fin 4200) d) := by
  rw [val_main_v35_apply]
  refine congrArg _ ?_
  funext a
  match a with
  | ⟨0, _⟩ => exact Fin.ext (by show 200 + p.val = p.val + 200; omega)
  | ⟨1, _⟩ => rfl

/-- The trailing 4000 rows of the third propagation result: row p is row p + 200. -/
theorem slice36_apply (x2 : (⟨S4200x4200, .f32⟩ : BufTy).Contents (Elt Ideal)) (x4 : (⟨S4000x64, .f32⟩ : BufTy).Contents (Elt Ideal)) (x5 : (⟨S200x64, .f32⟩ : BufTy).Contents (Elt Ideal)) (p : Fin 4000) (d : Fin 64) :
    val_main_v36 (F := Ideal) x2 x4 x5 (ix2 p d)
      = val_main_v32 (F := Ideal) x2 x4 x5 (ix2 (⟨p.val + 200, by have := p.isLt; omega⟩ : Fin 4200) d) := by
  rw [val_main_v36_apply]
  refine congrArg _ ?_
  funext a
  match a with
  | ⟨0, _⟩ => exact Fin.ext (by show 200 + p.val = p.val + 200; omega)
  | ⟨1, _⟩ => rfl

/-! ## The stacked tables -/

/-- The 8000-row table: the first operand's 4000 rows, then the second's. -/
theorem cat0_apply (x3 x4 : (⟨S4000x64, .f32⟩ : BufTy).Contents (Elt Ideal)) (i : Fin 8000) (j : Fin 64) :
    val_main_v0 (F := Ideal) x3 x4 (ix2 i j)
      = if h : i.val < 4000 then x3 (ix2 (⟨i.val, h⟩ : Fin 4000) j)
        else x4 (ix2 (⟨i.val - 4000, by have := i.isLt; omega⟩ : Fin 4000) j) := by
  unfold val_main_v0
  by_cases h : i.val < 4000
  · rw [dif_pos h]
    exact concatenate_pair_apply_left (t := S8000x64) (s₁ := S4000x64) (s₂ := S4000x64) (0 : Fin 2) _ _
      concatenates_S4000x64_S4000x64_S8000x64_d0 (ix2 i j) rfl
      (ix2 (⟨i.val, h⟩ : Fin 4000) j : S4000x64.Idx) (fun b => by
        match b with
        | ⟨0, _⟩ => rfl
        | ⟨1, _⟩ => rfl)
  · rw [dif_neg h]
    exact concatenate_pair_apply_right (t := S8000x64) (s₁ := S4000x64) (s₂ := S4000x64) (0 : Fin 2) _ _
      concatenates_S4000x64_S4000x64_S8000x64_d0 (ix2 i j) rfl rfl
      (ix2 (⟨i.val - 4000, by have := i.isLt; omega⟩ : Fin 4000) j : S4000x64.Idx) (fun b hb => by
        match b with
        | ⟨0, _⟩ => exact absurd rfl hb
        | ⟨1, _⟩ => rfl)
      (by show i.val - 4000 + 4000 = i.val; omega)

/-- The first 4200-row table: the 200 group rows, then the 4000 user rows. -/
theorem cat11_apply (x3 : (⟨S4000x64, .f32⟩ : BufTy).Contents (Elt Ideal)) (x5 : (⟨S200x64, .f32⟩ : BufTy).Contents (Elt Ideal)) (i : Fin 4200) (j : Fin 64) :
    val_main_v11 (F := Ideal) x3 x5 (ix2 i j)
      = if h : i.val < 200 then x5 (ix2 (⟨i.val, h⟩ : Fin 200) j)
        else x3 (ix2 (⟨i.val - 200, by have := i.isLt; omega⟩ : Fin 4000) j) := by
  unfold val_main_v11
  by_cases h : i.val < 200
  · rw [dif_pos h]
    exact concatenate_pair_apply_left (t := S4200x64) (s₁ := S200x64) (s₂ := S4000x64) (0 : Fin 2) _ _
      concatenates_S200x64_S4000x64_S4200x64_d0 (ix2 i j) rfl
      (ix2 (⟨i.val, h⟩ : Fin 200) j : S200x64.Idx) (fun b => by
        match b with
        | ⟨0, _⟩ => rfl
        | ⟨1, _⟩ => rfl)
  · rw [dif_neg h]
    exact concatenate_pair_apply_right (t := S4200x64) (s₁ := S200x64) (s₂ := S4000x64) (0 : Fin 2) _ _
      concatenates_S200x64_S4000x64_S4200x64_d0 (ix2 i j) rfl rfl
      (ix2 (⟨i.val - 200, by have := i.isLt; omega⟩ : Fin 4000) j : S4000x64.Idx) (fun b hb => by
        match b with
        | ⟨0, _⟩ => exact absurd rfl hb
        | ⟨1, _⟩ => rfl)
      (by show i.val - 200 + 200 = i.val; omega)

/-- The second 4200-row table: the 200 group rows, then the 4000 item rows. -/
theorem cat22_apply (x4 : (⟨S4000x64, .f32⟩ : BufTy).Contents (Elt Ideal)) (x5 : (⟨S200x64, .f32⟩ : BufTy).Contents (Elt Ideal)) (i : Fin 4200) (j : Fin 64) :
    val_main_v22 (F := Ideal) x4 x5 (ix2 i j)
      = if h : i.val < 200 then x5 (ix2 (⟨i.val, h⟩ : Fin 200) j)
        else x4 (ix2 (⟨i.val - 200, by have := i.isLt; omega⟩ : Fin 4000) j) := by
  unfold val_main_v22
  by_cases h : i.val < 200
  · rw [dif_pos h]
    exact concatenate_pair_apply_left (t := S4200x64) (s₁ := S200x64) (s₂ := S4000x64) (0 : Fin 2) _ _
      concatenates_S200x64_S4000x64_S4200x64_d0 (ix2 i j) rfl
      (ix2 (⟨i.val, h⟩ : Fin 200) j : S200x64.Idx) (fun b => by
        match b with
        | ⟨0, _⟩ => rfl
        | ⟨1, _⟩ => rfl)
  · rw [dif_neg h]
    exact concatenate_pair_apply_right (t := S4200x64) (s₁ := S200x64) (s₂ := S4000x64) (0 : Fin 2) _ _
      concatenates_S200x64_S4000x64_S4200x64_d0 (ix2 i j) rfl rfl
      (ix2 (⟨i.val - 200, by have := i.isLt; omega⟩ : Fin 4000) j : S4000x64.Idx) (fun b hb => by
        match b with
        | ⟨0, _⟩ => exact absurd rfl hb
        | ⟨1, _⟩ => rfl)
      (by show i.val - 200 + 200 = i.val; omega)

end Cert.RefSide

end
-- ==== Proof.RefBridge.lean ====
/-
  The propagation written the kernel's way — contract the adjacency row against the table's column, divide the
  contracted sum by the row normaliser, add the table entry, multiply by one half — equals the reference's
  propagation stage — divide each adjacency entry by the normaliser, contract, add, divide by two — whenever every
  entry of the adjacency and of the embedding tables is a real number. Then the averaged table both programs gather
  from, read at an index.
-/
import proofs.«132272_j21028159881436_2_alg».proof.Proof.RefRead2
import proofs.«132272_j21028159881436_2_alg».proof.Proof.Laws
import Idealize.ShloMosaic.Lib.ValueIdx

noncomputable section

open scoped BigOperators

namespace Cert.RefSide

open Cert.ReferenceIdeal Cert.ReferenceIdeal.Gen Cert.ReferenceIdeal.Read Idealize.ShloMosaic Idealize.ShloMosaic.ValueIdx

/-! ## The tables' entries are reals -/

/-- Every entry of the 8000-row table is a real when every entry of its two operands is. -/
theorem cat0_real (x3 x4 : (⟨S4000x64, .f32⟩ : BufTy).Contents (Elt Ideal))
    (h3 : ∀ t, ∃ r : ℝ, x3 t = (r : EReal)) (h4 : ∀ t, ∃ r : ℝ, x4 t = (r : EReal))
    (i : Fin 8000) (j : Fin 64) : ∃ r : ℝ, val_main_v0 (F := Ideal) x3 x4 (ix2 i j) = (r : EReal) := by
  rw [cat0_apply]
  split
  · exact h3 _
  · exact h4 _

/-- Every entry of the first 4200-row table is a real when every entry of its two operands is. -/
theorem cat11_real (x3 : (⟨S4000x64, .f32⟩ : BufTy).Contents (Elt Ideal)) (x5 : (⟨S200x64, .f32⟩ : BufTy).Contents (Elt Ideal))
    (h3 : ∀ t, ∃ r : ℝ, x3 t = (r : EReal)) (h5 : ∀ t, ∃ r : ℝ, x5 t = (r : EReal))
    (i : Fin 4200) (j : Fin 64) : ∃ r : ℝ, val_main_v11 (F := Ideal) x3 x5 (ix2 i j) = (r : EReal) := by
  rw [cat11_apply]
  split
  · exact h5 _
  · exact h3 _

/-- Every entry of the second 4200-row table is a real when every entry of its two operands is. -/
theorem cat22_real (x4 : (⟨S4000x64, .f32⟩ : BufTy).Contents (Elt Ideal)) (x5 : (⟨S200x64, .f32⟩ : BufTy).Contents (Elt Ideal))
    (h4 : ∀ t, ∃ r : ℝ, x4 t = (r : EReal)) (h5 : ∀ t, ∃ r : ℝ, x5 t = (r : EReal))
    (i : Fin 4200) (j : Fin 64) : ∃ r : ℝ, val_main_v22 (F := Ideal) x4 x5 (ix2 i j) = (r : EReal) := by
  rw [cat22_apply]
  split
  · exact h5 _
  · exact h4 _

/-! ## The kernel's form of each propagation is the reference's stage -/

/-- Propagation one: the kernel's form of the element (i, j) equals the reference's stage there. -/
theorem kprop1_eq (A : (⟨S8000x8000, .f32⟩ : BufTy).Contents (Elt Ideal)) (x3 x4 : (⟨S4000x64, .f32⟩ : BufTy).Contents (Elt Ideal))
    (hA : ∀ t, ∃ r : ℝ, A t = (r : EReal))
    (h3 : ∀ t, ∃ r : ℝ, x3 t = (r : EReal)) (h4 : ∀ t, ∃ r : ℝ, x4 t = (r : EReal))
    (i : Fin 8000) (j : Fin 64) :
    (val_main_v0 (F := Ideal) x3 x4 (ix2 i j)
        + Ideal.div (∑ k : Fin 8000, A (ix2 i k) * val_main_v0 (F := Ideal) x3 x4 (ix2 k j))
            (max (0 + ∑ k : Fin 8000, A (ix2 i k)) (Ideal.ofBits .f32 0x322BCC77#32)))
        * Ideal.ofBits .f32 0x3F000000#32
      = val_main_v10 (F := Ideal) A x3 x4 (ix2 i j) := by
  rw [prop1_apply]
  exact Cert.Laws.prop_law_eps (fun k : Fin 8000 => A (ix2 i k)) (fun k : Fin 8000 => val_main_v0 (F := Ideal) x3 x4 (ix2 k j))
    (val_main_v0 (F := Ideal) x3 x4 (ix2 i j)) (fun k => hA _) (fun k => cat0_real x3 x4 h3 h4 k j)
    (cat0_real x3 x4 h3 h4 i j)

/-- Propagation one, whole array: an array whose every element is the kernel's form is the reference's stage. -/
theorem kprop1_eq_array (A : (⟨S8000x8000, .f32⟩ : BufTy).Contents (Elt Ideal)) (x3 x4 : (⟨S4000x64, .f32⟩ : BufTy).Contents (Elt Ideal))
    (hA : ∀ t, ∃ r : ℝ, A t = (r : EReal))
    (h3 : ∀ t, ∃ r : ℝ, x3 t = (r : EReal)) (h4 : ∀ t, ∃ r : ℝ, x4 t = (r : EReal))
    (K : S8000x64.Idx → EReal)
    (hK : ∀ (i : Fin 8000) (j : Fin 64), K (ix2 i j)
      = (val_main_v0 (F := Ideal) x3 x4 (ix2 i j)
          + Ideal.div (∑ k : Fin 8000, A (ix2 i k) * val_main_v0 (F := Ideal) x3 x4 (ix2 k j))
              (max (0 + ∑ k : Fin 8000, A (ix2 i k)) (Ideal.ofBits .f32 0x322BCC77#32)))
          * Ideal.ofBits .f32 0x3F000000#32) :
    K = val_main_v10 (F := Ideal) A x3 x4 := by
  funext t
  obtain ⟨i, j, rfl⟩ : ∃ (i : Fin 8000) (j : Fin 64), t = ix2 i j := ⟨t 0, t 1, eq_ix2 t⟩
  rw [hK i j]
  exact kprop1_eq A x3 x4 hA h3 h4 i j

/-- Propagation two: the kernel's form of the element (i, j) equals the reference's stage there. -/
theorem kprop2_eq (A : (⟨S4200x4200, .f32⟩ : BufTy).Contents (Elt Ideal)) (x3 : (⟨S4000x64, .f32⟩ : BufTy).Contents (Elt Ideal)) (x5 : (⟨S200x64, .f32⟩ : BufTy).Contents (Elt Ideal))
    (hA : ∀ t, ∃ r : ℝ, A t = (r : EReal))
    (h3 : ∀ t, ∃ r : ℝ, x3 t = (r : EReal)) (h5 : ∀ t, ∃ r : ℝ, x5 t = (r : EReal))
    (i : Fin 4200) (j : Fin 64) :
    (val_main_v11 (F := Ideal) x3 x5 (ix2 i j)
        + Ideal.div (∑ k : Fin 4200, A (ix2 i k) * val_main_v11 (F := Ideal) x3 x5 (ix2 k j))
            (max (0 + ∑ k : Fin 4200, A (ix2 i k)) (Ideal.ofBits .f32 0x322BCC77#32)))
        * Ideal.ofBits .f32 0x3F000000#32
      = val_main_v21 (F := Ideal) A x3 x5 (ix2 i j) := by
  rw [prop2_apply]
  exact Cert.Laws.prop_law_eps (fun k : Fin 4200 => A (ix2 i k)) (fun k : Fin 4200 => val_main_v11 (F := Ideal) x3 x5 (ix2 k j))
    (val_main_v11 (F := Ideal) x3 x5 (ix2 i j)) (fun k => hA _) (fun k => cat11_real x3 x5 h3 h5 k j)
    (cat11_real x3 x5 h3 h5 i j)

/-- Propagation two, whole array: an array whose every element is the kernel's form is the reference's stage. -/
theorem kprop2_eq_array (A : (⟨S4200x4200, .f32⟩ : BufTy).Contents (Elt Ideal)) (x3 : (⟨S4000x64, .f32⟩ : BufTy).Contents (Elt Ideal)) (x5 : (⟨S200x64, .f32⟩ : BufTy).Contents (Elt Ideal))
    (hA : ∀ t, ∃ r : ℝ, A t = (r : EReal))
    (h3 : ∀ t, ∃ r : ℝ, x3 t = (r : EReal)) (h5 : ∀ t, ∃ r : ℝ, x5 t = (r : EReal))
    (K : S4200x64.Idx → EReal)
    (hK : ∀ (i : Fin 4200) (j : Fin 64), K (ix2 i j)
      = (val_main_v11 (F := Ideal) x3 x5 (ix2 i j)
          + Ideal.div (∑ k : Fin 4200, A (ix2 i k) * val_main_v11 (F := Ideal) x3 x5 (ix2 k j))
              (max (0 + ∑ k : Fin 4200, A (ix2 i k)) (Ideal.ofBits .f32 0x322BCC77#32)))
          * Ideal.ofBits .f32 0x3F000000#32) :
    K = val_main_v21 (F := Ideal) A x3 x5 := by
  funext t
  obtain ⟨i, j, rfl⟩ : ∃ (i : Fin 4200) (j : Fin 64), t = ix2 i j := ⟨t 0, t 1, eq_ix2 t⟩
  rw [hK i j]
  exact kprop2_eq A x3 x5 hA h3 h5 i j

/-- Propagation three: the kernel's form of the element (i, j) equals the reference's stage there. -/
theorem kprop3_eq (A : (⟨S4200x4200, .f32⟩ : BufTy).Contents (Elt Ideal)) (x4 : (⟨S4000x64, .f32⟩ : BufTy).Contents (Elt Ideal)) (x5 : (⟨S200x64, .f32⟩ : BufTy).Contents (Elt Ideal))
    (hA : ∀ t, ∃ r : ℝ, A t = (r : EReal))
    (h4 : ∀ t, ∃ r : ℝ, x4 t = (r : EReal)) (h5 : ∀ t, ∃ r : ℝ, x5 t = (r : EReal))
    (i : Fin 4200) (j : Fin 64) :
    (val_main_v22 (F := Ideal) x4 x5 (ix2 i j)
        + Ideal.div (∑ k : Fin 4200, A (ix2 i k) * val_main_v22 (F := Ideal) x4 x5 (ix2 k j))
            (max (0 + ∑ k : Fin 4200, A (ix2 i k)) (Ideal.ofBits .f32 0x322BCC77#32)))
        * Ideal.ofBits .f32 0x3F000000#32
      = val_main_v32 (F := Ideal) A x4 x5 (ix2 i j) := by
  rw [prop3_apply]
  exact Cert.Laws.prop_law_eps (fun k : Fin 4200 => A (ix2 i k)) (fun k : Fin 4200 => val_main_v22 (F := Ideal) x4 x5 (ix2 k j))
    (val_main_v22 (F := Ideal) x4 x5 (ix2 i j)) (fun k => hA _) (fun k => cat22_real x4 x5 h4 h5 k j)
    (cat22_real x4 x5 h4 h5 i j)

/-- Propagation three, whole array: an array whose every element is the kernel's form is the reference's stage. -/
theorem kprop3_eq_array (A : (⟨S4200x4200, .f32⟩ : BufTy).Contents (Elt Ideal)) (x4 : (⟨S4000x64, .f32⟩ : BufTy).Contents (Elt Ideal)) (x5 : (⟨S200x64, .f32⟩ : BufTy).Contents (Elt Ideal))
    (hA : ∀ t, ∃ r : ℝ, A t = (r : EReal))
    (h4 : ∀ t, ∃ r : ℝ, x4 t = (r : EReal)) (h5 : ∀ t, ∃ r : ℝ, x5 t = (r : EReal))
    (K : S4200x64.Idx → EReal)
    (hK : ∀ (i : Fin 4200) (j : Fin 64), K (ix2 i j)
      = (val_main_v22 (F := Ideal) x4 x5 (ix2 i j)
          + Ideal.div (∑ k : Fin 4200, A (ix2 i k) * val_main_v22 (F := Ideal) x4 x5 (ix2 k j))
              (max (0 + ∑ k : Fin 4200, A (ix2 i k)) (Ideal.ofBits .f32 0x322BCC77#32)))
          * Ideal.ofBits .f32 0x3F000000#32) :
    K = val_main_v32 (F := Ideal) A x4 x5 := by
  funext t
  obtain ⟨i, j, rfl⟩ : ∃ (i : Fin 4200) (j : Fin 64), t = ix2 i j := ⟨t 0, t 1, eq_ix2 t⟩
  rw [hK i j]
  exact kprop3_eq A x4 x5 hA h4 h5 i j

/-! ## The averaged table the user features are gathered from -/

/-- Row p of the averaged table: the first propagation's row p plus the second propagation's row p + 200, times one half. -/
theorem avg39_apply (x0 : (⟨S8000x8000, .f32⟩ : BufTy).Contents (Elt Ideal)) (x1 : (⟨S4200x4200, .f32⟩ : BufTy).Contents (Elt Ideal)) (x3 x4 : (⟨S4000x64, .f32⟩ : BufTy).Contents (Elt Ideal)) (x5 : (⟨S200x64, .f32⟩ : BufTy).Contents (Elt Ideal)) (p : Fin 4000) (d : Fin 64) :
    val_main_v39 (F := Ideal) x0 x1 x3 x4 x5 (ix2 p d)
      = (val_main_v10 (F := Ideal) x0 x3 x4 (ix2 (⟨p.val, by have := p.isLt; omega⟩ : Fin 8000) d)
          + val_main_v21 (F := Ideal) x1 x3 x5 (ix2 (⟨p.val + 200, by have := p.isLt; omega⟩ : Fin 4200) d))
        * Ideal.ofBits .f32 0x3F000000#32 := by
  rw [val_main_v39_apply, val_main_v37_apply, val_main_v38_apply, val_main_cst_8_apply, slice33_apply, slice35_apply]
  rfl

end Cert.RefSide

end
-- ==== Proof.PayAttn.lean ====
/-
  The attention body's value at an index, at the ideal values. The body forms q = u · W (a 512×64 by 64×64 product),
  the two logits (q · a) / 8 and (q · g) / 8 against the rows of the two views, the two-way softmax
  e_k / (e_0 + e_1) with e_k = exp (l_k - max l_0 l_1), and the score a_0 (u · a) + a_1 (u · g); entry (b, p) of the
  512×512 block at grid point i is that score for user row b and item row p where column i·512 + p lies below 4000, and 0
  elsewhere. Every product is read as the sum over its one contracted coordinate.
-/
import proofs.«132272_j21028159881436_2_alg».proof.Proof.RefBridge
import proofs.«132272_j21028159881436_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.PayAttn

open Idealize.ShloMosaic Idealize.ShloMosaic.ValueIdx Idealize.SL.Sem
open Cert.KernelIdeal Cert.KernelIdeal.Gen

variable [Cert.KernelIdeal.Facts]

/-! ## The two products read at an index -/

/-- In the 512×64 by 64×64 product, the left operand's row is the result's row … -/
theorem lhsQ_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
/-- … its column the contracted coordinate … -/
theorem lhsQ_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
/-- … the right operand's row the contracted coordinate … -/
theorem rhsQ_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
/-- … and its column the result's column. -/
theorem rhsQ_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- The 512×64 by 64×64 product into a zero accumulator, at (b, d): ∑ₑ l[b, e] · r[e, d]. -/
theorem mmQ_apply (l : FVec Ideal S512x64 .bf16) (r : FVec Ideal S64x64 .bf16) (b : Fin 512) (d : Fin 64) :
    matmul dot_S512x64_S64x64_S512x64_1_0_0_1_n_n none l r (constant (F := Ideal) S512x64 .f32 0x00000000#32) (ix2 b d)
      = ∑ e : Fin 64, l (ix2 b e) * r (ix2 e d) := by
  refine (Ideal.matmul_constant_zero_apply dot_S512x64_S64x64_S512x64_1_0_0_1_n_n none l r (ix2 b d)).trans ?_
  rw [← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 b d) ((contrEquiv1 dot_S512x64_S64x64_S512x64_1_0_0_1_n_n 64 rfl rfl).symm k) = ix2 b k := funext fun a => Fin.ext (by
    match a with
    | ⟨0, _⟩ => exact lhsQ_0 _ _
    | ⟨1, _⟩ => exact (lhsQ_1 _ _).trans hk)
  have er : dot_S512x64_S64x64_S512x64_1_0_0_1_n_n.rhsIdx (ix2 b d) ((contrEquiv1 dot_S512x64_S64x64_S512x64_1_0_0_1_n_n 64 rfl rfl).symm k) = ix2 k d := funext fun a => Fin.ext (by
    match a with
    | ⟨0, _⟩ => exact (rhsQ_0 _ _).trans hk
    | ⟨1, _⟩ => exact rhsQ_1 _ _)
  rw [el, er]

/-- In the 512×64 by (512×64)ᵀ product, the left operand's row is the result's row … -/
theorem lhsT_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
/-- … its column the contracted coordinate … -/
theorem lhsT_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
/-- … the right operand's row the result's column … -/
theorem rhsT_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
/-- … and its column the contracted coordinate. -/
theorem rhsT_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

/-- The 512×64 by (512×64)ᵀ product into a zero accumulator, at (b, p): ∑_d l[b, d] · r[p, d]. -/
theorem mmT_apply (l r : FVec Ideal S512x64 .bf16) (b p : Fin 512) :
    matmul dot_S512x64_S512x64_S512x512_1_1_0_0_n_n none l r (constant (F := Ideal) S512x512 .f32 0x00000000#32) (ix2 b p)
      = ∑ d : Fin 64, l (ix2 b d) * r (ix2 p d) := by
  refine (Ideal.matmul_constant_zero_apply dot_S512x64_S512x64_S512x512_1_1_0_0_n_n none l r (ix2 b p)).trans ?_
  rw [← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  have el : dot_S512x64_S512x64_S512x512_1_1_0_0_n_n.lhsIdx (ix2 b p) ((contrEquiv1 dot_S512x64_S512x64_S512x512_1_1_0_0_n_n 64 rfl rfl).symm k) = ix2 b k := funext fun a => Fin.ext (by
    match a with
    | ⟨0, _⟩ => exact lhsT_0 _ _
    | ⟨1, _⟩ => exact (lhsT_1 _ _).trans hk)
  have er : dot_S512x64_S512x64_S512x512_1_1_0_0_n_n.rhsIdx (ix2 b p) ((contrEquiv1 dot_S512x64_S512x64_S512x512_1_1_0_0_n_n 64 rfl rfl).symm k) = ix2 p k := funext fun a => Fin.ext (by
    match a with
    | ⟨0, _⟩ => exact rhsT_0 _ _
    | ⟨1, _⟩ => exact (rhsT_1 _ _).trans hk)
  rw [el, er]

/-! ## The score -/

/-- Row d of q = u · W: ∑ₑ u[e] · W[e, d]. -/
def qrow (u : Fin 64 → EReal) (W : S64x64.Idx → EReal) (d : Fin 64) : EReal := ∑ e : Fin 64, u e * W (ix2 e d)

/-- The logit of a view row a: (q · a) times the word 0x3E000000 (one eighth). -/
def logit (u : Fin 64 → EReal) (W : S64x64.Idx → EReal) (a : Fin 64 → EReal) : EReal :=
  (∑ d : Fin 64, qrow u W d * a d) * Ideal.ofBits .f32 0x3E000000#32

/-- The plain product of two rows. -/
def dots (u a : Fin 64 → EReal) : EReal := ∑ d : Fin 64, u d * a d

/-- The softmax weight of the logit l against the other logit l': exp (l - max) / (exp (l0 - max) + exp (l1 - max)),
    written for the pair (l0, l1) with the numerator's logit named. -/
def weight (l l0 l1 : EReal) : EReal :=
  Ideal.div (Ideal.exp (l - max l0 l1)) (Ideal.exp (l0 - max l0 l1) + Ideal.exp (l1 - max l0 l1))

/-- The two-view attention score of a user row u (weights W) against an item's two view rows a and g. -/
def score3 (u : Fin 64 → EReal) (W : S64x64.Idx → EReal) (a g : Fin 64 → EReal) : EReal :=
  weight (logit u W a) (logit u W a) (logit u W g) * dots u a + weight (logit u W g) (logit u W a) (logit u W g) * dots u g

/-! ## The payload at an index -/

/-- The exponential at an index is the exponential of the element. -/
theorem exp_apply {s : Shape} {φ : FTy} (x : FVec Ideal s φ) (j : s.Idx) : exp x j = Ideal.exp (x j) := rfl
/-- An integer comparison at an index compares the elements. -/
theorem cmpi_apply {s : Shape} {w : Nat} (p : CmpIPredicate) (x y : IVec s w) (j : s.Idx) : cmpi p x y j = IntOp.cmpi p (x j) (y j) := rfl
/-- An integer sum at an index adds the elements. -/
theorem addi_apply {s : Shape} {w : Nat} (x y : IVec s w) (j : s.Idx) : addi x y j = IntOp.addi (x j) (y j) := rfl

/-- The body's value at (b, p), the mask left as the comparison of words. -/
theorem pay3_at (i : grid3.Coords) (x0 : Vec Ideal S512x64 .f32) (x1 : Vec Ideal S64x64 .f32) (x2 x3 : Vec Ideal S512x64 .f32)
    (b p : Fin 512) :
    k3_pay1 (F := Ideal) i x0 x1 x2 x3 (ix2 b p)
      = Scalar.select (IntOp.cmpi .slt (IntOp.addi (Scalar.muli (BitVec.ofNat 32 (i 0).val) 512#32) (BitVec.ofNat 32 p.val)) 4000#32)
          (score3 (fun e => x0 (ix2 b e)) x1 (fun d => x2 (ix2 p d)) (fun d => x3 (ix2 p d)))
          (Ideal.ofBits .f32 0x00000000#32) := by
  unfold k3_pay1
  simp only [shapeCast_self, select_apply, addf_apply, mulf_apply, divf_apply, subf_apply, maximumf_apply, broadcast_apply,
    exp_apply, cmpi_apply, addi_apply, mmT_apply, mmQ_apply, truncf_apply]
  rw [iota_single_apply]
  rfl

/-- The body's value at (b, p) depends on the two views only through their rows p. -/
theorem pay3_congr_row (i : grid3.Coords) (x0 : Vec Ideal S512x64 .f32) (x1 : Vec Ideal S64x64 .f32)
    (x2 x3 x2' x3' : Vec Ideal S512x64 .f32) (b p : Fin 512)
    (h2 : ∀ d : Fin 64, x2' (ix2 p d) = x2 (ix2 p d)) (h3 : ∀ d : Fin 64, x3' (ix2 p d) = x3 (ix2 p d)) :
    k3_pay1 (F := Ideal) i x0 x1 x2' x3' (ix2 b p) = k3_pay1 (F := Ideal) i x0 x1 x2 x3 (ix2 b p) := by
  rw [pay3_at, pay3_at]
  have e2 : (fun d => x2' (ix2 p d)) = fun d => x2 (ix2 p d) := funext h2
  have e3 : (fun d => x3' (ix2 p d)) = fun d => x3 (ix2 p d) := funext h3
  rw [e2, e3]

/-! ## The mask -/

/-- For a grid coordinate n below 8 and a column p below 512, the signed comparison of the word n · 512 + p against
    4000 is the comparison of the numbers: nothing wraps below 4096. -/
theorem mask_word (n p : ℕ) (hn : n < 8) (hp : p < 512) :
    IntOp.cmpi .slt (IntOp.addi (Scalar.muli (BitVec.ofNat 32 n) 512#32) (BitVec.ofNat 32 p)) 4000#32
      = if n * 512 + p < 4000 then 1#1 else 0#1 := by
  have hx : IntOp.addi (Scalar.muli (BitVec.ofNat 32 n) 512#32) (BitVec.ofNat 32 p) = BitVec.ofNat 32 (n * 512 + p) := by
    show BitVec.ofNat 32 n * 512#32 + BitVec.ofNat 32 p = _
    apply BitVec.eq_of_toNat_eq
    simp only [BitVec.toNat_add, BitVec.toNat_mul, BitVec.toNat_ofNat]
    omega
  rw [hx]
  show BitVec.ofBool ((BitVec.ofNat 32 (n * 512 + p)).slt 4000#32) = _
  have hs : (BitVec.ofNat 32 (n * 512 + p)).slt 4000#32 = decide (n * 512 + p < 4000) := by
    simp only [BitVec.slt, BitVec.toInt, BitVec.toNat_ofNat]
    have h1 : (n * 512 + p) % 2 ^ 32 = n * 512 + p := Nat.mod_eq_of_lt (by omega)
    rw [h1]
    have h2 : 2 * (n * 512 + p) < 2 ^ 32 := by omega
    simp only [h2, if_true]
    rw [show (4000 % 2 ^ 32 : ℕ) = 4000 from rfl, if_pos (by norm_num)]
    exact decide_eq_decide.mpr (by omega)
  rw [hs]
  by_cases h : n * 512 + p < 4000
  · rw [if_pos h, decide_eq_true h]; rfl
  · rw [if_neg h, decide_eq_false h]; rfl

/-- THE BODY'S VALUE AT (b, p): the score of user row b against item row p where column i · 512 + p lies inside the
    4000 columns of the result, 0 elsewhere. -/
theorem pay3_eq (i : grid3.Coords) (x0 : Vec Ideal S512x64 .f32) (x1 : Vec Ideal S64x64 .f32) (x2 x3 : Vec Ideal S512x64 .f32)
    (b p : Fin 512) :
    k3_pay1 (F := Ideal) i x0 x1 x2 x3 (ix2 b p)
      = if (i 0).val * 512 + p.val < 4000 then
          score3 (fun e => x0 (ix2 b e)) x1 (fun d => x2 (ix2 p d)) (fun d => x3 (ix2 p d))
        else 0 := by
  rw [pay3_at, mask_word (i 0).val p.val (i 0).isLt p.isLt]
  split
  · exact select_one _ _
  · rw [select_zero, Ideal.ofBits_zero_f32]

end Cert.PayAttn

end
-- ==== Proof.PayProp.lean ====
/-
  The propagation bodies' values at an index, at the ideal values. A body takes a block A of adjacency rows, the whole
  embedding table X and the block x of the table's own rows, and stores (x + (A · X) / max (rowsum A) ε) · ½: the
  product A · X read as the sum over the one contracted coordinate, the row sums as sums along the lanes, kept as a
  column and broadcast back along the rows' entries.
-/
import proofs.«132272_j21028159881436_2_alg».proof.Proof.PayAttn
import proofs.«132272_j21028159881436_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.PayProp

open Idealize.ShloMosaic Idealize.ShloMosaic.ValueIdx Idealize.SL.Sem
open Cert.KernelIdeal Cert.KernelIdeal.Gen

/-! ## A column kept from a row reduction -/

/-- An `[a]` array cast to a column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(r, c)`, the column's entry `r`. -/
theorem broadcastTo_a1_ab_apply {α : Type} {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## One propagation entry -/

/-- (x + (∑ₖ aₖ · cₖ) / max (∑ₖ aₖ) ε) · ½ for a row a of adjacency weights, a column c of the table and the table's own
    entry x; ε is the word 0x322BCC77 and ½ the word 0x3F000000. -/
def prop {K : ℕ} (a c : Fin K → EReal) (x : EReal) : EReal :=
  (x + Ideal.div (∑ k : Fin K, a k * c k) (max (∑ k : Fin K, a k) (Ideal.ofBits .f32 0x322BCC77#32)))
    * Ideal.ofBits .f32 0x3F000000#32

variable [Cert.KernelIdeal.Facts]

/-! ### The 320×8000 by 8000×64 product and the 320×8000 lane sum -/

/-- In the 320×8000 by 8000×64 product, the left operand's row is the result's row … -/
theorem lhsA_0 (i : S320x64.Idx) (q : dot_S320x8000_S8000x64_S320x64_1_0_0_1_n_n.contr.Idx) :
    (dot_S320x8000_S8000x64_S320x64_1_0_0_1_n_n.lhsIdx i q 0).val = (i 0).val := by
  unfold DotDims.lhsIdx
  rw [dif_neg (show ¬(0 : Fin S320x8000.rank) ∈ dot_S320x8000_S8000x64_S320x64_1_0_0_1_n_n.lhsBatch by decide), dif_pos (show (0 : Fin S320x8000.rank) ∈ dot_S320x8000_S8000x64_S320x64_1_0_0_1_n_n.lhsNonContracting by decide)]
  rfl
/-- … its column the contracted coordinate … -/
theorem lhsA_1 (i : S320x64.Idx) (q : dot_S320x8000_S8000x64_S320x64_1_0_0_1_n_n.contr.Idx) :
    (dot_S320x8000_S8000x64_S320x64_1_0_0_1_n_n.lhsIdx i q 1).val = (q ⟨0, by decide⟩).val :=
  dot_S320x8000_S8000x64_S320x64_1_0_0_1_n_n.lhsIdx_val_of_single rfl i q
/-- … the right operand's row the contracted coordinate … -/
theorem rhsA_0 (i : S320x64.Idx) (q : dot_S320x8000_S8000x64_S320x64_1_0_0_1_n_n.contr.Idx) :
    (dot_S320x8000_S8000x64_S320x64_1_0_0_1_n_n.rhsIdx i q 0).val = (q ⟨0, by decide⟩).val :=
  dot_S320x8000_S8000x64_S320x64_1_0_0_1_n_n.rhsIdx_val_of_single rfl i q
/-- … and its column the result's column. -/
theorem rhsA_1 (i : S320x64.Idx) (q : dot_S320x8000_S8000x64_S320x64_1_0_0_1_n_n.contr.Idx) :
    (dot_S320x8000_S8000x64_S320x64_1_0_0_1_n_n.rhsIdx i q 1).val = (i 1).val := by
  unfold DotDims.rhsIdx
  rw [dif_neg (show ¬(1 : Fin S8000x64.rank) ∈ dot_S320x8000_S8000x64_S320x64_1_0_0_1_n_n.rhsBatch by decide), dif_pos (show (1 : Fin S8000x64.rank) ∈ dot_S320x8000_S8000x64_S320x64_1_0_0_1_n_n.rhsNonContracting by decide)]
  rfl

/-- The 320×8000 by 8000×64 product into a zero accumulator, at (r, j): ∑ₖ l[r, k] · x[k, j]. -/
theorem mmA_apply (l : FVec Ideal S320x8000 .bf16) (x : FVec Ideal S8000x64 .bf16) (r : Fin 320) (j : Fin 64) :
    matmul dot_S320x8000_S8000x64_S320x64_1_0_0_1_n_n none l x (constant (F := Ideal) S320x64 .f32 0x00000000#32) (ix2 r j)
      = ∑ k : Fin 8000, l (ix2 r k) * x (ix2 k j) := by
  refine (Ideal.matmul_constant_zero_apply dot_S320x8000_S8000x64_S320x64_1_0_0_1_n_n none l x (ix2 r j)).trans ?_
  rw [← Equiv.sum_comp (contrEquiv1 dot_S320x8000_S8000x64_S320x64_1_0_0_1_n_n 8000 rfl rfl).symm]
  refine Finset.sum_congr rfl fun k _ => ?_
  have hk := contrEquiv1_symm_val dot_S320x8000_S8000x64_S320x64_1_0_0_1_n_n 8000 rfl rfl k
  have el : dot_S320x8000_S8000x64_S320x64_1_0_0_1_n_n.lhsIdx (ix2 r j) ((contrEquiv1 dot_S320x8000_S8000x64_S320x64_1_0_0_1_n_n 8000 rfl rfl).symm k) = ix2 r k := funext fun a => Fin.ext (by
    match a with
    | ⟨0, _⟩ => exact lhsA_0 _ _
    | ⟨1, _⟩ => exact (lhsA_1 _ _).trans hk)
  have er : dot_S320x8000_S8000x64_S320x64_1_0_0_1_n_n.rhsIdx (ix2 r j) ((contrEquiv1 dot_S320x8000_S8000x64_S320x64_1_0_0_1_n_n 8000 rfl rfl).symm k) = ix2 k j := funext fun a => Fin.ext (by
    match a with
    | ⟨0, _⟩ => exact (rhsA_0 _ _).trans hk
    | ⟨1, _⟩ => exact rhsA_1 _ _)
  rw [el, er]

/-- The sum of an 320×8000 array along its rows, at r: ∑ₖ x[r, k]. -/
theorem laneSumA_apply (x : FVec Ideal S320x8000 .f32) (hφ : FKind.Formats .f32)
    (hacc : (0x00000000#32 : BitVec 32) = FKind.add.neutral .f32 hφ) (r : Fin 320) :
    multiReduction (F := Ideal) .add [1] S320 x 0x00000000#32 reduces_S320x8000_S320 hφ hacc (ix1 r)
      = ∑ k : Fin 8000, x (ix2 r k) := by
  refine (Ideal.multiReduction_add_single x 0x00000000#32 reduces_S320x8000_S320 hφ hacc (ix1 r)).trans ?_
  exact Finset.sum_congr rfl fun k _ => congrArg x (funext fun a => Fin.ext (by
    match a with
    | ⟨0, _⟩ => rfl
    | ⟨1, _⟩ => rfl))

/-! ### The 168×4200 by 4200×64 product and the 168×4200 lane sum -/

/-- In the 168×4200 by 4200×64 product, the left operand's row is the result's row … -/
theorem lhsB_0 (i : S168x64.Idx) (q : dot_S168x4200_S4200x64_S168x64_1_0_0_1_n_n.contr.Idx) :
    (dot_S168x4200_S4200x64_S168x64_1_0_0_1_n_n.lhsIdx i q 0).val = (i 0).val := by
  unfold DotDims.lhsIdx
  rw [dif_neg (show ¬(0 : Fin S168x4200.rank) ∈ dot_S168x4200_S4200x64_S168x64_1_0_0_1_n_n.lhsBatch by decide), dif_pos (show (0 : Fin S168x4200.rank) ∈ dot_S168x4200_S4200x64_S168x64_1_0_0_1_n_n.lhsNonContracting by decide)]
  rfl
/-- … its column the contracted coordinate … -/
theorem lhsB_1 (i : S168x64.Idx) (q : dot_S168x4200_S4200x64_S168x64_1_0_0_1_n_n.contr.Idx) :
    (dot_S168x4200_S4200x64_S168x64_1_0_0_1_n_n.lhsIdx i q 1).val = (q ⟨0, by decide⟩).val :=
  dot_S168x4200_S4200x64_S168x64_1_0_0_1_n_n.lhsIdx_val_of_single rfl i q
/-- … the right operand's row the contracted coordinate … -/
theorem rhsB_0 (i : S168x64.Idx) (q : dot_S168x4200_S4200x64_S168x64_1_0_0_1_n_n.contr.Idx) :
    (dot_S168x4200_S4200x64_S168x64_1_0_0_1_n_n.rhsIdx i q 0).val = (q ⟨0, by decide⟩).val :=
  dot_S168x4200_S4200x64_S168x64_1_0_0_1_n_n.rhsIdx_val_of_single rfl i q
/-- … and its column the result's column. -/
theorem rhsB_1 (i : S168x64.Idx) (q : dot_S168x4200_S4200x64_S168x64_1_0_0_1_n_n.contr.Idx) :
    (dot_S168x4200_S4200x64_S168x64_1_0_0_1_n_n.rhsIdx i q 1).val = (i 1).val := by
  unfold DotDims.rhsIdx
  rw [dif_neg (show ¬(1 : Fin S4200x64.rank) ∈ dot_S168x4200_S4200x64_S168x64_1_0_0_1_n_n.rhsBatch by decide), dif_pos (show (1 : Fin S4200x64.rank) ∈ dot_S168x4200_S4200x64_S168x64_1_0_0_1_n_n.rhsNonContracting by decide)]
  rfl

/-- The 168×4200 by 4200×64 product into a zero accumulator, at (r, j): ∑ₖ l[r, k] · x[k, j]. -/
theorem mmB_apply (l : FVec Ideal S168x4200 .bf16) (x : FVec Ideal S4200x64 .bf16) (r : Fin 168) (j : Fin 64) :
    matmul dot_S168x4200_S4200x64_S168x64_1_0_0_1_n_n none l x (constant (F := Ideal) S168x64 .f32 0x00000000#32) (ix2 r j)
      = ∑ k : Fin 4200, l (ix2 r k) * x (ix2 k j) := by
  refine (Ideal.matmul_constant_zero_apply dot_S168x4200_S4200x64_S168x64_1_0_0_1_n_n none l x (ix2 r j)).trans ?_
  rw [← Equiv.sum_comp (contrEquiv1 dot_S168x4200_S4200x64_S168x64_1_0_0_1_n_n 4200 rfl rfl).symm]
  refine Finset.sum_congr rfl fun k _ => ?_
  have hk := contrEquiv1_symm_val dot_S168x4200_S4200x64_S168x64_1_0_0_1_n_n 4200 rfl rfl k
  have el : dot_S168x4200_S4200x64_S168x64_1_0_0_1_n_n.lhsIdx (ix2 r j) ((contrEquiv1 dot_S168x4200_S4200x64_S168x64_1_0_0_1_n_n 4200 rfl rfl).symm k) = ix2 r k := funext fun a => Fin.ext (by
    match a with
    | ⟨0, _⟩ => exact lhsB_0 _ _
    | ⟨1, _⟩ => exact (lhsB_1 _ _).trans hk)
  have er : dot_S168x4200_S4200x64_S168x64_1_0_0_1_n_n.rhsIdx (ix2 r j) ((contrEquiv1 dot_S168x4200_S4200x64_S168x64_1_0_0_1_n_n 4200 rfl rfl).symm k) = ix2 k j := funext fun a => Fin.ext (by
    match a with
    | ⟨0, _⟩ => exact (rhsB_0 _ _).trans hk
    | ⟨1, _⟩ => exact rhsB_1 _ _)
  rw [el, er]

/-- The sum of an 168×4200 array along its rows, at r: ∑ₖ x[r, k]. -/
theorem laneSumB_apply (x : FVec Ideal S168x4200 .f32) (hφ : FKind.Formats .f32)
    (hacc : (0x00000000#32 : BitVec 32) = FKind.add.neutral .f32 hφ) (r : Fin 168) :
    multiReduction (F := Ideal) .add [1] S168 x 0x00000000#32 reduces_S168x4200_S168 hφ hacc (ix1 r)
      = ∑ k : Fin 4200, x (ix2 r k) := by
  refine (Ideal.multiReduction_add_single x 0x00000000#32 reduces_S168x4200_S168 hφ hacc (ix1 r)).trans ?_
  exact Finset.sum_congr rfl fun k _ => congrArg x (funext fun a => Fin.ext (by
    match a with
    | ⟨0, _⟩ => rfl
    | ⟨1, _⟩ => rfl))

/-! ## The three bodies -/

/-- Body 0's value at (r, j): (x[r, j] + (∑ₖ A[r, k] · X[k, j]) / max (∑ₖ A[r, k]) ε) · ½. -/
theorem pay0_at (x0 : Vec Ideal S320x8000 .f32) (x1 : Vec Ideal S8000x64 .bf16) (x2 : Vec Ideal S320x64 .f32) (r : Fin 320) (j : Fin 64) :
    k0_pay1 (F := Ideal) x0 x1 x2 (ix2 r j)
      = prop (fun k : Fin 8000 => x0 (ix2 r k)) (fun k : Fin 8000 => x1 (ix2 k j)) (x2 (ix2 r j)) := by
  unfold k0_pay1
  simp only [shapeCast_self, mulf_apply, addf_apply, divf_apply, maximumf_apply, broadcast_apply, truncf_apply,
    mmA_apply, broadcastTo_a1_ab_apply, shapeCast_a_a1_apply]
  exact congrArg (fun s : EReal => (x2 (ix2 r j) + Ideal.div (∑ k, x0 (ix2 r k) * x1 (ix2 k j))
    (max s (Ideal.ofBits .f32 0x322BCC77#32))) * Ideal.ofBits .f32 0x3F000000#32) (laneSumA_apply x0 (.inl rfl) rfl r)

/-- Body 1's value at (r, j): (x[r, j] + (∑ₖ A[r, k] · X[k, j]) / max (∑ₖ A[r, k]) ε) · ½. -/
theorem pay1_at (x0 : Vec Ideal S168x4200 .f32) (x1 : Vec Ideal S4200x64 .bf16) (x2 : Vec Ideal S168x64 .f32) (r : Fin 168) (j : Fin 64) :
    k1_pay1 (F := Ideal) x0 x1 x2 (ix2 r j)
      = prop (fun k : Fin 4200 => x0 (ix2 r k)) (fun k : Fin 4200 => x1 (ix2 k j)) (x2 (ix2 r j)) := by
  unfold k1_pay1
  simp only [shapeCast_self, mulf_apply, addf_apply, divf_apply, maximumf_apply, broadcast_apply, truncf_apply,
    mmB_apply, broadcastTo_a1_ab_apply, shapeCast_a_a1_apply]
  exact congrArg (fun s : EReal => (x2 (ix2 r j) + Ideal.div (∑ k, x0 (ix2 r k) * x1 (ix2 k j))
    (max s (Ideal.ofBits .f32 0x322BCC77#32))) * Ideal.ofBits .f32 0x3F000000#32) (laneSumB_apply x0 (.inl rfl) rfl r)

/-- Body 2's value at (r, j): (x[r, j] + (∑ₖ A[r, k] · X[k, j]) / max (∑ₖ A[r, k]) ε) · ½. -/
theorem pay2_at (x0 : Vec Ideal S168x4200 .f32) (x1 : Vec Ideal S4200x64 .bf16) (x2 : Vec Ideal S168x64 .f32) (r : Fin 168) (j : Fin 64) :
    k2_pay1 (F := Ideal) x0 x1 x2 (ix2 r j)
      = prop (fun k : Fin 4200 => x0 (ix2 r k)) (fun k : Fin 4200 => x1 (ix2 k j)) (x2 (ix2 r j)) := by
  unfold k2_pay1
  simp only [shapeCast_self, mulf_apply, addf_apply, divf_apply, maximumf_apply, broadcast_apply, truncf_apply,
    mmB_apply, broadcastTo_a1_ab_apply, shapeCast_a_a1_apply]
  exact congrArg (fun s : EReal => (x2 (ix2 r j) + Ideal.div (∑ k, x0 (ix2 r k) * x1 (ix2 k j))
    (max s (Ideal.ofBits .f32 0x322BCC77#32))) * Ideal.ofBits .f32 0x3F000000#32) (laneSumB_apply x0 (.inl rfl) rfl r)

end Cert.PayProp

end
-- ==== Proof.ScoreBridge.lean ====
/-
  The kernel's two-view attention score, as a function of one user row, the attention matrix and an item's two view
  rows, is the reference's score at the same element: the two differ only in how the scale is spelled — the kernel
  multiplies by the word of one eighth, the reference by the host's one over the square root of sixty-four — and the
  two are the same extended real.
-/
import proofs.«132272_j21028159881436_2_alg».proof.Proof.PayProp
import proofs.«132272_j21028159881436_2_alg».proof.Proof.RefBridge
import proofs.«132272_j21028159881436_2_alg».proof.Proof.Laws
import proofs.«132272_j21028159881436_2_alg».proof.Proof.PayAttn
import Idealize.ShloMosaic.Lib.ValueIdx

noncomputable section

open scoped BigOperators

namespace Cert.RefSide

open Cert.ReferenceIdeal Cert.ReferenceIdeal.Gen Cert.ReferenceIdeal.Read Idealize.ShloMosaic Idealize.ShloMosaic.ValueIdx

/-- The reference's scale is the word of one eighth. -/
theorem scale_eq_eighth : scale = Ideal.ofBits .f32 0x3E000000#32 := by
  unfold scale
  exact Cert.Laws.scale_eq

/-- The kernel's logit of a user row against a view row is the reference's logit at that element. -/
theorem logit_bridge (G : (⟨S512x64, .f32⟩ : BufTy).Contents (Elt Ideal)) (W : (⟨S64x64, .f32⟩ : BufTy).Contents (Elt Ideal))
    (Fk : (⟨S4000x64, .f32⟩ : BufTy).Contents (Elt Ideal)) (b : Fin 512) (p : Fin 4000) :
    Cert.PayAttn.logit (fun e => G (ix2 b e)) W (fun d => Fk (ix2 p d)) = logit G W Fk b p := by
  unfold Cert.PayAttn.logit Cert.PayAttn.qrow logit query
  rw [scale_eq_eighth]

/-- The kernel's plain product of a user row and a view row is the reference's at that element. -/
theorem dots_bridge (G : (⟨S512x64, .f32⟩ : BufTy).Contents (Elt Ideal))
    (Fk : (⟨S4000x64, .f32⟩ : BufTy).Contents (Elt Ideal)) (b : Fin 512) (p : Fin 4000) :
    Cert.PayAttn.dots (fun d => G (ix2 b d)) (fun d => Fk (ix2 p d)) = dots G Fk b p := rfl

/-- THE KERNEL'S SCORE IS THE REFERENCE'S: for user row b and item row p. -/
theorem score_bridge (G : (⟨S512x64, .f32⟩ : BufTy).Contents (Elt Ideal)) (W : (⟨S64x64, .f32⟩ : BufTy).Contents (Elt Ideal))
    (F0 F1 : (⟨S4000x64, .f32⟩ : BufTy).Contents (Elt Ideal)) (b : Fin 512) (p : Fin 4000) :
    Cert.PayAttn.score3 (fun e => G (ix2 b e)) W (fun d => F0 (ix2 p d)) (fun d => F1 (ix2 p d))
      = softmax2Score (logit G W F0 b p) (logit G W F1 b p) (dots G F0 b p) (dots G F1 b p) := by
  unfold Cert.PayAttn.score3 Cert.PayAttn.weight softmax2Score
  rw [logit_bridge, logit_bridge, dots_bridge, dots_bridge]

/-- The reference's scores stage at (b, p) is the kernel's score of the gathered user row b against the two views'
    rows p. -/
theorem scores_eq_score3 (x0 : (⟨S8000x8000, .f32⟩ : BufTy).Contents (Elt Ideal)) (x1 x2 : (⟨S4200x4200, .f32⟩ : BufTy).Contents (Elt Ideal)) (x3 x4 : (⟨S4000x64, .f32⟩ : BufTy).Contents (Elt Ideal)) (x5 : (⟨S200x64, .f32⟩ : BufTy).Contents (Elt Ideal)) (x6 : (⟨S64x64, .f32⟩ : BufTy).Contents (Elt Ideal)) (x7 : (⟨S512, .i32⟩ : BufTy).Contents (Elt Ideal)) (b : Fin 512) (p : Fin 4000) :
    val_main_v69 (F := Ideal) x0 x1 x2 x3 x4 x5 x6 x7 (ix2 b p)
      = Cert.PayAttn.score3 (fun e => val_main_v46 (F := Ideal) x0 x1 x3 x4 x5 x7 (ix2 b e)) x6
          (fun d => val_main_v34 (F := Ideal) x0 x3 x4 (ix2 p d)) (fun d => val_main_v36 (F := Ideal) x2 x4 x5 (ix2 p d)) := by
  rw [scores_apply]
  exact (score_bridge (val_main_v46 (F := Ideal) x0 x1 x3 x4 x5 x7) x6 (val_main_v34 (F := Ideal) x0 x3 x4) (val_main_v36 (F := Ideal) x2 x4 x5) b p).symm

end Cert.RefSide

end
-- ==== Proof.Reg0.lean ====
/-
  One propagation call (the user–paper graph, 8000 rows in 25 blocks of 320) as a pipeline over row blocks: at each grid point the body reads a block of
  rows of the adjacency matrix, the whole embedding table and the matching rows of the table again, and stores
  (x + (A·x) / max(rowsum A, ε)) · ½ for those rows. This module states, at any float instance, what each staging
  buffer holds around the body at a point (the input blocks; the stored value as a function of them), runs the body,
  and packages the per-point obligation of the pipeline. The region's entry contents are a parameter `V`.
-/
import proofs.«132272_j21028159881436_2_alg».proof.Proof.ScoreBridge
import proofs.«132272_j21028159881436_2_alg».proof.Proof.Gen.KernelIdeal.Launch
import proofs.«132272_j21028159881436_2_alg».proof.Proof.Gen.KernelIdeal.Skeleton
import proofs.«132272_j21028159881436_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_A : Rect S320x8000 := Rect.unit (s := S320x8000) ![0, 0] S320x8000.size inb_S320x8000_S320x8000_0_0
abbrev r0_X : Rect S8000x64 := Rect.unit (s := S8000x64) ![0, 0] S8000x64.size inb_S8000x64_S8000x64_0_0
abbrev r0_B : Rect S320x64 := Rect.unit (s := S320x64) ![0, 0] S320x64.size inb_S320x64_S320x64_0_0

/-- The output buffer after the body: its one whole store, of the body's value of the three loaded blocks. -/
def out0_3 (x0 : Vec F S320x8000 .f32) (x1 : Vec F S8000x64 .bf16) (x2 : Vec F S320x64 .f32) : Vec F S320x64 .f32 :=
  View.canon [⟨r0_B, k0_pay1 (View.ld x0 r0_A) (View.ld x1 r0_X) (View.ld x2 r0_B)⟩]

/-- The one store covers the buffer. -/
theorem cover0_3 (p0 : Vec F S320x64 .f32) (y : S320x64.Idx) :
    ∃ pc ∈ ([⟨r0_B, p0⟩] : List (View.Piece (Elt F) S320x64 .f32)), y ∈ pc.1.set :=
  View.cover_of_tiled [⟨r0_B, p0⟩] S320x64.size (by rfl) y

set_option maxHeartbeats 2000000 in
/-- The body on whole staging memrefs, the inputs' at known contents and the output's at anything, runs to the
    continuation holding the inputs' as they were and the output's at `out0_3` of them. -/
theorem sound_kernel0 (c : Dev nD) (E : Set ℕ) (i : grid0.Coords)
    (arg1 : Memref sig .tc .vmem S320x8000 .f32) (harg1 : arg1.IsWhole) (arg2 : Memref sig .tc .vmem S8000x64 .bf16) (harg2 : arg2.IsWhole)
    (arg3 : Memref sig .tc .vmem S320x64 .f32) (harg3 : arg3.IsWhole) (arg4 : Memref sig .tc .vmem S320x64 .f32) (harg4 : arg4.IsWhole)
    (x0 : Vec F S320x8000 .f32) (x1 : Vec F S8000x64 .bf16) (x2 : Vec F S320x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__propagate_kernel i arg1 harg1 arg2 harg2 arg3 harg3 arg4 harg4) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KI

end
-- ==== Proof.Reg1.lean ====
/-
  One propagation call (the group–user graph, 4200 rows in 25 blocks of 168) as a pipeline over row blocks: at each grid point the body reads a block of
  rows of the adjacency matrix, the whole embedding table and the matching rows of the table again, and stores
  (x + (A·x) / max(rowsum A, ε)) · ½ for those rows. This module states, at any float instance, what each staging
  buffer holds around the body at a point (the input blocks; the stored value as a function of them), runs the body,
  and packages the per-point obligation of the pipeline. The region's entry contents are a parameter `V`.
-/
import proofs.«132272_j21028159881436_2_alg».proof.Proof.Reg0
import proofs.«132272_j21028159881436_2_alg».proof.Proof.Gen.KernelIdeal.Launch
import proofs.«132272_j21028159881436_2_alg».proof.Proof.Gen.KernelIdeal.Skeleton
import proofs.«132272_j21028159881436_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_A : Rect S168x4200 := Rect.unit (s := S168x4200) ![0, 0] S168x4200.size inb_S168x4200_S168x4200_0_0
abbrev r1_X : Rect S4200x64 := Rect.unit (s := S4200x64) ![0, 0] S4200x64.size inb_S4200x64_S4200x64_0_0
abbrev r1_B : Rect S168x64 := Rect.unit (s := S168x64) ![0, 0] S168x64.size inb_S168x64_S168x64_0_0

/-- The output buffer after the body: its one whole store, of the body's value of the three loaded blocks. -/
def out1_3 (x0 : Vec F S168x4200 .f32) (x1 : Vec F S4200x64 .bf16) (x2 : Vec F S168x64 .f32) : Vec F S168x64 .f32 :=
  View.canon [⟨r1_B, k1_pay1 (View.ld x0 r1_A) (View.ld x1 r1_X) (View.ld x2 r1_B)⟩]

/-- The one store covers the buffer. -/
theorem cover1_3 (p0 : Vec F S168x64 .f32) (y : S168x64.Idx) :
    ∃ pc ∈ ([⟨r1_B, p0⟩] : List (View.Piece (Elt F) S168x64 .f32)), y ∈ pc.1.set :=
  View.cover_of_tiled [⟨r1_B, p0⟩] S168x64.size (by rfl) y

set_option maxHeartbeats 2000000 in
/-- The body on whole staging memrefs, the inputs' at known contents and the output's at anything, runs to the
    continuation holding the inputs' as they were and the output's at `out1_3` of them. -/
theorem sound_kernel1 (c : Dev nD) (E : Set ℕ) (i : grid1.Coords)
    (arg1 : Memref sig .tc .vmem S168x4200 .f32) (harg1 : arg1.IsWhole) (arg2 : Memref sig .tc .vmem S4200x64 .bf16) (harg2 : arg2.IsWhole)
    (arg3 : Memref sig .tc .vmem S168x64 .f32) (harg3 : arg3.IsWhole) (arg4 : Memref sig .tc .vmem S168x64 .f32) (harg4 : arg4.IsWhole)
    (x0 : Vec F S168x4200 .f32) (x1 : Vec F S4200x64 .bf16) (x2 : Vec F S168x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__propagate_kernel i arg1 harg1 arg2 harg2 arg3 harg3 arg4 harg4) K := by
  simp only [cc1__propagate_kernel_eq_skeleton]; unfold cc1__propagate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t`
    each input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KI

end
-- ==== Proof.Reg2.lean ====
/-
  One propagation call (the group–paper graph, 4200 rows in 25 blocks of 168) as a pipeline over row blocks: at each grid point the body reads a block of
  rows of the adjacency matrix, the whole embedding table and the matching rows of the table again, and stores
  (x + (A·x) / max(rowsum A, ε)) · ½ for those rows. This module states, at any float instance, what each staging
  buffer holds around the body at a point (the input blocks; the stored value as a function of them), runs the body,
  and packages the per-point obligation of the pipeline. The region's entry contents are a parameter `V`.
-/
import proofs.«132272_j21028159881436_2_alg».proof.Proof.Reg1
import proofs.«132272_j21028159881436_2_alg».proof.Proof.Gen.KernelIdeal.Launch
import proofs.«132272_j21028159881436_2_alg».proof.Proof.Gen.KernelIdeal.Skeleton
import proofs.«132272_j21028159881436_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_A : Rect S168x4200 := Rect.unit (s := S168x4200) ![0, 0] S168x4200.size inb_S168x4200_S168x4200_0_0
abbrev r2_X : Rect S4200x64 := Rect.unit (s := S4200x64) ![0, 0] S4200x64.size inb_S4200x64_S4200x64_0_0
abbrev r2_B : Rect S168x64 := Rect.unit (s := S168x64) ![0, 0] S168x64.size inb_S168x64_S168x64_0_0

/-- The output buffer after the body: its one whole store, of the body's value of the three loaded blocks. -/
def out2_3 (x0 : Vec F S168x4200 .f32) (x1 : Vec F S4200x64 .bf16) (x2 : Vec F S168x64 .f32) : Vec F S168x64 .f32 :=
  View.canon [⟨r2_B, k2_pay1 (View.ld x0 r2_A) (View.ld x1 r2_X) (View.ld x2 r2_B)⟩]

/-- The one store covers the buffer. -/
theorem cover2_3 (p0 : Vec F S168x64 .f32) (y : S168x64.Idx) :
    ∃ pc ∈ ([⟨r2_B, p0⟩] : List (View.Piece (Elt F) S168x64 .f32)), y ∈ pc.1.set :=
  View.cover_of_tiled [⟨r2_B, p0⟩] S168x64.size (by rfl) y

set_option maxHeartbeats 2000000 in
/-- The body on whole staging memrefs, the inputs' at known contents and the output's at anything, runs to the
    continuation holding the inputs' as they were and the output's at `out2_3` of them. -/
theorem sound_kernel2 (c : Dev nD) (E : Set ℕ) (i : grid2.Coords)
    (arg1 : Memref sig .tc .vmem S168x4200 .f32) (harg1 : arg1.IsWhole) (arg2 : Memref sig .tc .vmem S4200x64 .bf16) (harg2 : arg2.IsWhole)
    (arg3 : Memref sig .tc .vmem S168x64 .f32) (harg3 : arg3.IsWhole) (arg4 : Memref sig .tc .vmem S168x64 .f32) (harg4 : arg4.IsWhole)
    (x0 : Vec F S168x4200 .f32) (x1 : Vec F S4200x64 .bf16) (x2 : Vec F S168x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__propagate_kernel i arg1 harg1 arg2 harg2 arg3 harg3 arg4 harg4) K := by
  simp only [cc2__propagate_kernel_eq_skeleton]; unfold cc2__propagate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t`
    each input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KI

end
-- ==== Proof.Reg3.lean ====
/-
  The attention call as a pipeline over blocks of 512 papers: at each grid point the body reads the gathered user
  features and the attention matrix whole, 512 rows of each of the two paper tables, and stores the 512×512 block of
  scores. The paper tables have 4000 rows, so the last block overhangs them: a fetch there fills only the rows inside
  the table and leaves the rest of the buffer at words nothing names, and a write-back writes only the columns inside
  the result. At the ideal instance a score at (user, paper) reads only that paper's row of each table, so the columns
  inside the result do not depend on the unnamed rows; that is what makes exact proof data possible here.
-/
import proofs.«132272_j21028159881436_2_alg».proof.Proof.Reg2
import proofs.«132272_j21028159881436_2_alg».proof.Proof.Gen.KernelIdeal.Launch
import proofs.«132272_j21028159881436_2_alg».proof.Proof.Gen.KernelIdeal.Skeleton
import proofs.«132272_j21028159881436_2_alg».proof.Proof.Gen.KernelIdeal.Points
import Idealize.ShloMosaic.PureOps.Ideal
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- Window `w`'s block at point `t`, read off its array as the region finds it: for the paper tables and the result,
    the part of the block inside the array. -/
def iblk3 (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

theorem before3_0_of {c : Dev nD} (dat : Dat τ (Elt Ideal) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt Ideal) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- A paper table's block filled out to the buffer's 512 rows with the zero word (a filler the proof picks; nothing
    inside the result reads it). -/
def fblk3_2 (c : Dev nD) (t : Fin cfg3.N) : S512x64.Idx → Elt Ideal .f32 :=
  win3_2.fill (grid3.coords t) (fun _ => FloatOps.ofBits (F := Ideal) FTy.f32 0#32) (iblk3 V c 2 t)
def fblk3_3 (c : Dev nD) (t : Fin cfg3.N) : S512x64.Idx → Elt Ideal .f32 :=
  win3_3.fill (grid3.coords t) (fun _ => FloatOps.ofBits (F := Ideal) FTy.f32 0#32) (iblk3 V c 3 t)

abbrev r3_u : Rect S512x64 := Rect.unit (s := S512x64) ![0, 0] S512x64.size inb_S512x64_S512x64_0_0
abbrev r3_w : Rect S64x64 := Rect.unit (s := S64x64) ![0, 0] S64x64.size inb_S64x64_S64x64_0_0
abbrev r3_o : Rect S512x512 := Rect.unit (s := S512x512) ![0, 0] S512x512.size inb_S512x512_S512x512_0_0

/-- The result's buffer after the body: its one whole store, of the body's value of the four loaded blocks. -/
def out3_4 {F : FTy → Type} [FloatOps F] (i : grid3.Coords) (x0 : Vec F S512x64 .f32) (x1 : Vec F S64x64 .f32) (x2 x3 : Vec F S512x64 .f32) : Vec F S512x512 .f32 :=
  View.canon [⟨r3_o, k3_pay1 i (View.ld x0 r3_u) (View.ld x1 r3_w) (View.ld x2 r3_u) (View.ld x3 r3_u)⟩]

theorem cover3_4 {F : FTy → Type} [FloatOps F] (p0 : Vec F S512x512 .f32) (y : S512x512.Idx) :
    ∃ pc ∈ ([⟨r3_o, p0⟩] : List (View.Piece (Elt F) S512x512 .f32)), y ∈ pc.1.set :=
  View.cover_of_tiled [⟨r3_o, p0⟩] S512x512.size (by rfl) y

set_option maxHeartbeats 2000000 in
/-- The body on whole staging memrefs, at any float instance: the four inputs' at known contents and the result's at
    anything run to the inputs' as they were and the result's at `out3_4` of them. -/
theorem sound_kernel3 {F : FTy → Type} [FloatOps F] (c : Dev nD) (E : Set ℕ) (i : grid3.Coords)
    (arg1 : Memref sig .tc .vmem S512x64 .f32) (harg1 : arg1.IsWhole) (arg2 : Memref sig .tc .vmem S64x64 .f32) (harg2 : arg2.IsWhole)
    (arg3 : Memref sig .tc .vmem S512x64 .f32) (harg3 : arg3.IsWhole) (arg4 : Memref sig .tc .vmem S512x64 .f32) (harg4 : arg4.IsWhole)
    (arg5 : Memref sig .tc .vmem S512x512 .f32) (harg5 : arg5.IsWhole)
    (x0 : Vec F S512x64 .f32) (x1 : Vec F S64x64 .f32) (x2 x3 : Vec F S512x64 .f32)
    (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 i x0 x1 x2 x3)) -∗ K ⟨⟩))
      ⊢ wp frame (wpE (defs₀ (F := F)) Variants.none c none) E (cc3__attn_kernel i arg1 harg1 arg2 harg2 arg3 harg3 arg4 harg4 arg5 harg5) K := by
  simp only [cc3__attn_kernel_eq_skeleton]; unfold cc3__attn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

end Cert.KI

end
-- ==== Proof.Reg3b.lean ====
/-
  The attention call's exact proof data at the ideal instance, and its per-point obligation. The paper tables'
  buffers are handed to the body holding the block's rows inside the table and anything below them; the body leaves
  the result's buffer at a block whose columns inside the result are the scores of those rows, whatever the rest held.
-/
import proofs.«132272_j21028159881436_2_alg».proof.Proof.Gen.KernelIdeal.Launch
import proofs.«132272_j21028159881436_2_alg».proof.Proof.Gen.KernelIdeal.Skeleton
import proofs.«132272_j21028159881436_2_alg».proof.Proof.Gen.KernelIdeal.Points
import proofs.«132272_j21028159881436_2_alg».proof.Proof.Reg3
import proofs.«132272_j21028159881436_2_alg».proof.Proof.PayAttn
import Idealize.ShloMosaic.PureOps.Ideal
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

open ValueIdx

/-- On its columns inside the result, the stored block does not depend on what the paper tables' buffers hold below
    the rows inside the tables: a score reads one paper's row of each table, and a column inside the result is a row
    inside the tables. -/
theorem xs2_1 : ∀ t : Fin cfg3.N, win3_2.xsize (grid3.coords t) 1 = 64 :=
  (by decide +kernel : ∀ t : Fin grid3.N, win3_2.xsize (grid3.coords t) 1 = 64)
theorem xs3_1 : ∀ t : Fin cfg3.N, win3_3.xsize (grid3.coords t) 1 = 64 :=
  (by decide +kernel : ∀ t : Fin grid3.N, win3_3.xsize (grid3.coords t) 1 = 64)
/-- The result's columns inside the array at a point are as many as the tables' rows inside the arrays there. -/
theorem xs4_2 : ∀ t : Fin cfg3.N, win3_4.xsize (grid3.coords t) 1 = win3_2.xsize (grid3.coords t) 0 :=
  (by decide +kernel : ∀ t : Fin grid3.N, win3_4.xsize (grid3.coords t) 1 = win3_2.xsize (grid3.coords t) 0)
theorem xs4_3 : ∀ t : Fin cfg3.N, win3_4.xsize (grid3.coords t) 1 = win3_3.xsize (grid3.coords t) 0 :=
  (by decide +kernel : ∀ t : Fin grid3.N, win3_4.xsize (grid3.coords t) 1 = win3_3.xsize (grid3.coords t) 0)

/-- On a row inside the table a filled block holds the block's entry, whatever it was filled out with. -/
theorem fill2_row (t : Fin cfg3.N) (g : (win3_2.xblock (grid3.coords t)).Idx → Elt Ideal .f32) (d d' : S512x64.Idx → Elt Ideal .f32)
    (p : Fin 512) (hp : p.val < win3_2.xsize (grid3.coords t) 0) (e : Fin 64) :
    win3_2.fill (grid3.coords t) d g (ix2 p e) = win3_2.fill (grid3.coords t) d' g (ix2 p e) := by
  have hm : win3_2.moved (grid3.coords t) (ix2 p e) = true := (win3_2.moved_iff _ _).mpr fun a => by
    match a with
    | ⟨0, _⟩ => exact hp
    | ⟨1, _⟩ => show e.val < win3_2.xsize (grid3.coords t) 1; rw [xs2_1 t]; exact e.isLt
  unfold Pipeline.Window.fill; rw [dif_pos hm, dif_pos hm]
theorem fill3_row (t : Fin cfg3.N) (g : (win3_3.xblock (grid3.coords t)).Idx → Elt Ideal .f32) (d d' : S512x64.Idx → Elt Ideal .f32)
    (p : Fin 512) (hp : p.val < win3_3.xsize (grid3.coords t) 0) (e : Fin 64) :
    win3_3.fill (grid3.coords t) d g (ix2 p e) = win3_3.fill (grid3.coords t) d' g (ix2 p e) := by
  have hm : win3_3.moved (grid3.coords t) (ix2 p e) = true := (win3_3.moved_iff _ _).mpr fun a => by
    match a with
    | ⟨0, _⟩ => exact hp
    | ⟨1, _⟩ => show e.val < win3_3.xsize (grid3.coords t) 1; rw [xs3_1 t]; exact e.isLt
  unfold Pipeline.Window.fill; rw [dif_pos hm, dif_pos hm]

theorem out3_4_eq_pay (i : grid3.Coords) (x0 : Vec Ideal S512x64 .f32) (x1 : Vec Ideal S64x64 .f32) (x2 x3 : Vec Ideal S512x64 .f32) :
    out3_4 i x0 x1 x2 x3 = k3_pay1 (F := Ideal) i x0 x1 x2 x3 := by
  have hz : (![0, 0] : Fin 2 → Nat) = fun _ => 0 := funext fun a => by fin_cases a <;> rfl
  unfold out3_4
  rw [View.canon_unit_zero hz]
  simp only [View.ld_unit_zero (S := S512x64) hz, View.ld_unit_zero (S := S64x64) hz]

theorem out3_4_cut_indep (t : Fin cfg3.N) (x0 : Vec Ideal S512x64 .f32) (x1 : Vec Ideal S64x64 .f32)
    (g2 : (win3_2.xblock (grid3.coords t)).Idx → Elt Ideal .f32) (g3 : (win3_3.xblock (grid3.coords t)).Idx → Elt Ideal .f32)
    (d2 d3 d2' d3' : S512x64.Idx → Elt Ideal .f32) :
    win3_4.cut (grid3.coords t) (out3_4 (grid3.coords t) x0 x1 (win3_2.fill (grid3.coords t) d2 g2) (win3_3.fill (grid3.coords t) d3 g3))
      = win3_4.cut (grid3.coords t) (out3_4 (grid3.coords t) x0 x1 (win3_2.fill (grid3.coords t) d2' g2) (win3_3.fill (grid3.coords t) d3' g3)) := by
  funext j
  show out3_4 _ x0 x1 _ _ (win3_4.xinj (grid3.coords t) j) = out3_4 _ x0 x1 _ _ (win3_4.xinj (grid3.coords t) j)
  rw [out3_4_eq_pay, out3_4_eq_pay]
  have hj1 : (j 1).val < win3_4.xsize (grid3.coords t) 1 := (j 1).isLt
  have e : win3_4.xinj (grid3.coords t) j = ix2 (win3_4.xinj (grid3.coords t) j 0) (win3_4.xinj (grid3.coords t) j 1) := eq_ix2 _
  rw [e]
  refine Cert.PayAttn.pay3_congr_row _ x0 x1 _ _ _ _ _ _ (fun d => ?_) (fun d => ?_)
  · exact fill2_row t g2 d2 d2' _ (by show (j 1).val < _; rw [← xs4_2 t]; exact hj1) d
  · exact fill3_row t g3 d3 d3' _ (by show (j 1).val < _; rw [← xs4_3 t]; exact hj1) d

/-- The proof data of the attention pipeline on core `c`: the arrays as the region finds them; after the body at
    point `t` the features' and the matrix's buffers at their blocks, the paper tables' at their blocks filled out
    with the zero word, the result's at the stored block of those. -/
def dat3 (c : Dev nD) : Dat τ (Elt Ideal) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => fblk3_2 V c t
    | ⟨3, _⟩ => fblk3_3 V c t
    | ⟨4, _⟩ => out3_4 (grid3.coords t) (iblk3 V c 0 t) (iblk3 V c 1 t) (fblk3_2 V c t) (fblk3_3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = fblk3_2 V c t := by dsimp only [dat3]
theorem after3_3 (c : Dev nD) (t : Fin cfg3.N) : (dat3 V c).after 3 t = fblk3_3 V c t := by dsimp only [dat3]
theorem after3_4 (c : Dev nD) (t : Fin cfg3.N) :
    (dat3 V c).after 4 t = out3_4 (grid3.coords t) (iblk3 V c 0 t) (iblk3 V c 1 t) (fblk3_2 V c t) (fblk3_3 V c t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
/-- A paper table's buffer just fetched: the block on the rows inside the table, `d` elsewhere. -/
theorem before3_2 (c : Dev nD) (t : Fin cfg3.N) (d) :
    (dat3 V c).before 2 t d = win3_2.fill (grid3.coords t) d (iblk3 V c 2 t) := by
  unfold Dat.before; rw [if_pos (fetch3_2 t)]; rfl
theorem before3_3 (c : Dev nD) (t : Fin cfg3.N) (d) :
    (dat3 V c).before 3 t d = win3_3.fill (grid3.coords t) d (iblk3 V c 3 t) := by
  unfold Dat.before; rw [if_pos (fetch3_3 t)]; rfl

set_option maxHeartbeats 1000000 in
/-- The pipeline's body obligation, at every point: the windows that overhang their arrays are handed over and back
    stated on their part inside the array only. -/
theorem body_obligation3 (c : Dev nD) : BodyObligationLoose (dat3 V c) (defs₀ (F := Ideal)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl,
    after3_0 V c t, after3_1 V c t, after3_2 V c t, after3_3 V c t, after3_4 V c t]
  iintro ⟨HΦ, Ho, ⟨%d0, H0⟩, ⟨%d1, H1⟩, ⟨%d2, H2⟩, ⟨%d3, H3⟩, ⟨%d4, H4⟩⟩
  rw [before3_0 V c t d0, before3_1 V c t d1, before3_2 V c t d2, before3_3 V c t d3]
  iapply (sound_kernel3 (F := Ideal) c Set.univ (grid3.coords t) _ _ _ _ _ _ _ _ _ _
    (iblk3 V c 0 t) (iblk3 V c 1 t) (win3_2.fill (grid3.coords t) d2 (iblk3 V c 2 t)) (win3_3.fill (grid3.coords t) d3 (iblk3 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]
  · iexists d2
    change _ ⊢ owns (c : Thread nD τ) (stage3_2 (cfg3.slots t 2)) fullShare (win3_2.fill (grid3.coords t) d2 (win3_2.cut (grid3.coords t) (fblk3_2 V c t)))
    rw [show win3_2.cut (grid3.coords t) (fblk3_2 V c t) = iblk3 V c 2 t from win3_2.cut_fill _ _ _]
    try iexact H2
  isplitl [H3]
  · iexists d3
    change _ ⊢ owns (c : Thread nD τ) (stage3_3 (cfg3.slots t 3)) fullShare (win3_3.fill (grid3.coords t) d3 (win3_3.cut (grid3.coords t) (fblk3_3 V c t)))
    rw [show win3_3.cut (grid3.coords t) (fblk3_3 V c t) = iblk3 V c 3 t from win3_3.cut_fill _ _ _]
    try iexact H3
  · iexists (out3_4 (grid3.coords t) (iblk3 V c 0 t) (iblk3 V c 1 t) (win3_2.fill (grid3.coords t) d2 (iblk3 V c 2 t)) (win3_3.fill (grid3.coords t) d3 (iblk3 V c 3 t)))
    change _ ⊢ owns (c : Thread nD τ) (stage3_4 (cfg3.slots t 4)) fullShare (win3_4.fill (grid3.coords t)
      (out3_4 (grid3.coords t) (iblk3 V c 0 t) (iblk3 V c 1 t) (win3_2.fill (grid3.coords t) d2 (iblk3 V c 2 t)) (win3_3.fill (grid3.coords t) d3 (iblk3 V c 3 t)))
      (win3_4.cut (grid3.coords t) (out3_4 (grid3.coords t) (iblk3 V c 0 t) (iblk3 V c 1 t) (fblk3_2 V c t) (fblk3_3 V c t))))
    have hcut : win3_4.cut (grid3.coords t) (out3_4 (grid3.coords t) (iblk3 V c 0 t) (iblk3 V c 1 t) (win3_2.fill (grid3.coords t) d2 (iblk3 V c 2 t)) (win3_3.fill (grid3.coords t) d3 (iblk3 V c 3 t)))
        = win3_4.cut (grid3.coords t) (out3_4 (grid3.coords t) (iblk3 V c 0 t) (iblk3 V c 1 t) (fblk3_2 V c t) (fblk3_3 V c t)) :=
      out3_4_cut_indep t (iblk3 V c 0 t) (iblk3 V c 1 t) (iblk3 V c 2 t) (iblk3 V c 3 t) d2 d3 _ _
    rw [win3_4.fill_congr_cut (grid3.coords t) hcut]
    try iexact H4

end Cert.KI

end
-- ==== Proof.Final012.lean ====
/-
  From blocks to the array, for the three propagation calls. Each call runs over 25 row blocks; at every point the body
  stores, into the output's block of rows, its value of the three input blocks there, and the block is written back. The
  blocks tile the output array exactly, so after the run the array at row `r`, column `j` is the body's value, at the
  point `r / rows` that covers the row, of that point's input blocks, read at row `r % rows`, column `j`. Also: each
  input block read at an index is the input array read at the block's offset plus the index.
-/
import proofs.«132272_j21028159881436_2_alg».proof.Proof.Reg3b
import proofs.«132272_j21028159881436_2_alg».proof.Proof.Reg0
import proofs.«132272_j21028159881436_2_alg».proof.Proof.Reg1
import proofs.«132272_j21028159881436_2_alg».proof.Proof.Reg2
import Idealize.ShloMosaic.Lib.Pipeline.Value
import Idealize.ShloMosaic.Lib.ValueIdx

set_option maxRecDepth 16384

noncomputable section

namespace Cert.KI

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- The zero offset of a whole-buffer rectangle. -/
theorem off_zero2 : (![0, 0] : Fin 2 → Nat) = fun _ => 0 := funext fun a => by fin_cases a <;> rfl

/-! ## Call 0: 8000 rows in 25 blocks of 320 -/

/-- The printed index maps over the grid: the adjacency block, the table's rows and the output's rows move with the
    point; the whole table stays. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What the body stores at point `t`: its value of the three input blocks there. -/
def stored0 (c : Dev nD) (t : Fin cfg0.N) : Vec F S320x64 .f32 :=
  k0_pay1 (iblk0 V c 0 t) (iblk0 V c 1 t) (iblk0 V c 2 t)

/-- The point whose block covers row `r`. -/
def point0 (r : Fin 8000) : Fin cfg0.N := ⟨r.val / 320, by have := r.isLt; show r.val / 320 < 25; omega⟩

/-- The row inside that block. -/
def row0 (r : Fin 8000) : Fin 320 := ⟨r.val % 320, Nat.mod_lt _ (by norm_num)⟩

/-- The output array after the run, as one function of the input blocks: at row `r`, column `j`, what the point
    covering `r` stored at row `r % 320`. -/
def whole0 (c : Dev nD) : S8000x64.Idx → Elt F .f32 :=
  fun i => stored0 V c (point0 (i 0)) (ix2 (row0 (i 0)) (i 1))

/-- What point `t` writes back is block `t` of `whole0`. -/
theorem flushed0_eq (c : Dev nD) (t : Fin cfg0.N) :
    (dat0 V c).flushed 3 t = ((cfg0.win 3).blk t).view.read (Elt F) (whole0 V c) := by
  show (cfg0.win 3).cut (grid0.coords t) ((dat0 V c).after 3 t) = _
  rw [after0_3]
  unfold out0_3
  rw [View.canon_unit_zero off_zero2]
  simp only [View.ld_unit_zero (S := S320x8000) off_zero2, View.ld_unit_zero (S := S8000x64) off_zero2,
    View.ld_unit_zero (S := S320x64) off_zero2]
  obtain ⟨e0, e1, e2, e3, e4, e5, e6, e7⟩ := index_facts0 t
  funext y
  show k0_pay1 (iblk0 V c 0 t) (iblk0 V c 1 t) (iblk0 V c 2 t) y = whole0 V c (((cfg0.win 3).blk t).view.emb y)
  have hy0 : (y 0).val < 320 := (y 0).isLt
  have h0 : ((((cfg0.win 3).blk t).view.emb y) 0 : Fin 8000).val = t.val * 320 + (y 0).val := by
    show win0_3.index t (0 : Fin 2) * 320 + 1 * (y 0).val = _
    rw [e6]; omega
  have h1 : ((((cfg0.win 3).blk t).view.emb y) 1 : Fin 64).val = (y 1).val := by
    show win0_3.index t (1 : Fin 2) * 64 + 1 * (y 1).val = _
    rw [e7]; omega
  have hp : point0 ((((cfg0.win 3).blk t).view.emb y) 0) = t := Fin.ext (by
    show ((((cfg0.win 3).blk t).view.emb y) 0 : Fin 8000).val / 320 = t.val
    rw [h0]; omega)
  have hr : ix2 (row0 ((((cfg0.win 3).blk t).view.emb y) 0)) ((((cfg0.win 3).blk t).view.emb y) 1) = y := by
    funext a; apply Fin.ext
    match a with
    | ⟨0, _⟩ => show ((((cfg0.win 3).blk t).view.emb y) 0 : Fin 8000).val % 320 = (y 0).val; rw [h0]; omega
    | ⟨1, _⟩ => exact h1
  show stored0 V c t y = stored0 V c (point0 ((((cfg0.win 3).blk t).view.emb y) 0))
    (ix2 (row0 ((((cfg0.win 3).blk t).view.emb y) 0)) ((((cfg0.win 3).blk t).view.emb y) 1))
  rw [hp]
  exact (congrArg (stored0 V c t) hr).symm

theorem point0_val (r : Fin 8000) : (point0 r).val = r.val / 320 := rfl
theorem row0_val (r : Fin 8000) : (row0 r).val = r.val % 320 := rfl

/-- An index of the output array is in point `t`'s block iff each coordinate is in the block's range on its axis. -/
theorem mem_blk0_3 (t : Fin cfg0.N) (i : S8000x64.Idx) :
    i ∈ ((cfg0.win 3).blk t).view.set ↔ ∀ a : Fin 2, win0_3.index t a * S320x64.size a ≤ (i a).val
      ∧ (i a).val < win0_3.index t a * S320x64.size a + S320x64.size a := by
  show i ∈ ((View.whole main_v6).slice (win0_3.rect t)).set ↔ _
  rw [View.set_slice_whole, Rect.mem_set_unit]
  exact Iff.rfl

/-- The blocks tile the array: row `r` is in the block of point `r / 320`. -/
theorem cover0 (i : S8000x64.Idx) :
    ∃ t : Fin cfg0.N, (cfg0.win 3).flush t = true ∧ i ∈ ((cfg0.win 3).blk t).view.set := by
  refine ⟨point0 (i 0), flush0_3 _, ?_⟩
  rw [mem_blk0_3]
  obtain ⟨e0, e1, e2, e3, e4, e5, e6, e7⟩ := index_facts0 (point0 (i 0))
  have hi0 : (i 0).val < 8000 := (i 0).isLt
  have hi1 : (i 1).val < 64 := (i 1).isLt
  have hp : (point0 (i 0)).val = (i 0).val / 320 := rfl
  intro a
  match a with
  | ⟨0, _⟩ =>
    show win0_3.index (point0 (i 0)) (0 : Fin 2) * 320 ≤ (i 0).val
      ∧ (i 0).val < win0_3.index (point0 (i 0)) (0 : Fin 2) * 320 + 320
    rw [e6, hp]; omega
  | ⟨1, _⟩ =>
    show win0_3.index (point0 (i 0)) (1 : Fin 2) * 64 ≤ (i 1).val
      ∧ (i 1).val < win0_3.index (point0 (i 0)) (1 : Fin 2) * 64 + 64
    rw [e7]; omega

/-- The output array after the run is `whole0`. -/
theorem final0 (c : Dev nD) : (dat0 V c).arrAt 3 cfg0.N = whole0 V c :=
  (dat0 V c).arrAt_eq_of_cover 3 (whole0 V c) (fun t _ => flushed0_eq V c t) cover0

/-- The output array after the run, at row `r` and column `j`: the body's value of the input blocks at the point
    `r / 320`, read at row `r % 320`, column `j`. -/
theorem arr0_apply (c : Dev nD) (r : Fin 8000) (j : Fin 64) :
    ((dat0 V c).arrAt 3 cfg0.N : S8000x64.Idx → Elt F .f32) (ix2 r j)
      = k0_pay1 (iblk0 V c 0 (point0 r)) (iblk0 V c 1 (point0 r)) (iblk0 V c 2 (point0 r)) (ix2 (row0 r) j) := by
  rw [final0]; rfl

/-- The adjacency block at point `t`, row `r'`, column `k`, is the matrix at row `320 t + r'`, column `k`. -/
theorem iblk0_0_apply (c : Dev nD) (t : Fin cfg0.N) (r' : Fin 320) (k : Fin 8000) :
    (iblk0 V c 0 t : Vec F S320x8000 .f32) (ix2 r' k)
      = (V c (Pipeline.arrRef spec0 0) : S8000x8000.Idx → Elt F .f32)
          (ix2 ⟨320 * t.val + r'.val, by have : t.val < 25 := t.isLt; have := r'.isLt; omega⟩ k) := by
  obtain ⟨e0, e1, -⟩ := index_facts0 t
  unfold iblk0
  rw [View.read_apply]
  show V c (Pipeline.arrRef spec0 0) _ = V c (Pipeline.arrRef spec0 0) _
  congr 1
  funext a; apply Fin.ext
  match a with
  | ⟨0, _⟩ => show win0_0.index t (0 : Fin 2) * 320 + 1 * r'.val = 320 * t.val + r'.val; rw [e0]; omega
  | ⟨1, _⟩ => show win0_0.index t (1 : Fin 2) * 8000 + 1 * k.val = k.val; rw [e1]; omega

/-- The whole table's block at any point is the table. -/
theorem iblk0_1_apply (c : Dev nD) (t : Fin cfg0.N) (k : Fin 8000) (j : Fin 64) :
    (iblk0 V c 1 t : Vec F S8000x64 .bf16) (ix2 k j)
      = (V c (Pipeline.arrRef spec0 1) : S8000x64.Idx → Elt F .bf16) (ix2 k j) := by
  obtain ⟨-, -, e2, e3, -⟩ := index_facts0 t
  unfold iblk0
  rw [View.read_apply]
  show V c (Pipeline.arrRef spec0 1) _ = V c (Pipeline.arrRef spec0 1) _
  congr 1
  funext a; apply Fin.ext
  match a with
  | ⟨0, _⟩ => show win0_1.index t (0 : Fin 2) * 8000 + 1 * k.val = k.val; rw [e2]; omega
  | ⟨1, _⟩ => show win0_1.index t (1 : Fin 2) * 64 + 1 * j.val = j.val; rw [e3]; omega

/-- The table's row block at point `t`, row `r'`, column `j`, is the table at row `320 t + r'`, column `j`. -/
theorem iblk0_2_apply (c : Dev nD) (t : Fin cfg0.N) (r' : Fin 320) (j : Fin 64) :
    (iblk0 V c 2 t : Vec F S320x64 .f32) (ix2 r' j)
      = (V c (Pipeline.arrRef spec0 2) : S8000x64.Idx → Elt F .f32)
          (ix2 ⟨320 * t.val + r'.val, by have : t.val < 25 := t.isLt; have := r'.isLt; omega⟩ j) := by
  obtain ⟨-, -, -, -, e4, e5, -⟩ := index_facts0 t
  unfold iblk0
  rw [View.read_apply]
  show V c (Pipeline.arrRef spec0 2) _ = V c (Pipeline.arrRef spec0 2) _
  congr 1
  funext a; apply Fin.ext
  match a with
  | ⟨0, _⟩ => show win0_2.index t (0 : Fin 2) * 320 + 1 * r'.val = 320 * t.val + r'.val; rw [e4]; omega
  | ⟨1, _⟩ => show win0_2.index t (1 : Fin 2) * 64 + 1 * j.val = j.val; rw [e5]; omega

/-! ## Call 1: 4200 rows in 25 blocks of 168 -/

/-- The printed index maps over the grid: the adjacency block, the table's rows and the output's rows move with the
    point; the whole table stays. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What the body stores at point `t`: its value of the three input blocks there. -/
def stored1 (c : Dev nD) (t : Fin cfg1.N) : Vec F S168x64 .f32 :=
  k1_pay1 (iblk1 V c 0 t) (iblk1 V c 1 t) (iblk1 V c 2 t)

/-- The point whose block covers row `r`. -/
def point1 (r : Fin 4200) : Fin cfg1.N := ⟨r.val / 168, by have := r.isLt; show r.val / 168 < 25; omega⟩

/-- The row inside that block. -/
def row1 (r : Fin 4200) : Fin 168 := ⟨r.val % 168, Nat.mod_lt _ (by norm_num)⟩

/-- The output array after the run, as one function of the input blocks: at row `r`, column `j`, what the point
    covering `r` stored at row `r % 168`. -/
def whole1 (c : Dev nD) : S4200x64.Idx → Elt F .f32 :=
  fun i => stored1 V c (point1 (i 0)) (ix2 (row1 (i 0)) (i 1))

/-- What point `t` writes back is block `t` of `whole1`. -/
theorem flushed1_eq (c : Dev nD) (t : Fin cfg1.N) :
    (dat1 V c).flushed 3 t = ((cfg1.win 3).blk t).view.read (Elt F) (whole1 V c) := by
  show (cfg1.win 3).cut (grid1.coords t) ((dat1 V c).after 3 t) = _
  rw [after1_3]
  unfold out1_3
  rw [View.canon_unit_zero off_zero2]
  simp only [View.ld_unit_zero (S := S168x4200) off_zero2, View.ld_unit_zero (S := S4200x64) off_zero2,
    View.ld_unit_zero (S := S168x64) off_zero2]
  obtain ⟨e0, e1, e2, e3, e4, e5, e6, e7⟩ := index_facts1 t
  funext y
  show k1_pay1 (iblk1 V c 0 t) (iblk1 V c 1 t) (iblk1 V c 2 t) y = whole1 V c (((cfg1.win 3).blk t).view.emb y)
  have hy0 : (y 0).val < 168 := (y 0).isLt
  have h0 : ((((cfg1.win 3).blk t).view.emb y) 0 : Fin 4200).val = t.val * 168 + (y 0).val := by
    show win1_3.index t (0 : Fin 2) * 168 + 1 * (y 0).val = _
    rw [e6]; omega
  have h1 : ((((cfg1.win 3).blk t).view.emb y) 1 : Fin 64).val = (y 1).val := by
    show win1_3.index t (1 : Fin 2) * 64 + 1 * (y 1).val = _
    rw [e7]; omega
  have hp : point1 ((((cfg1.win 3).blk t).view.emb y) 0) = t := Fin.ext (by
    show ((((cfg1.win 3).blk t).view.emb y) 0 : Fin 4200).val / 168 = t.val
    rw [h0]; omega)
  have hr : ix2 (row1 ((((cfg1.win 3).blk t).view.emb y) 0)) ((((cfg1.win 3).blk t).view.emb y) 1) = y := by
    funext a; apply Fin.ext
    match a with
    | ⟨0, _⟩ => show ((((cfg1.win 3).blk t).view.emb y) 0 : Fin 4200).val % 168 = (y 0).val; rw [h0]; omega
    | ⟨1, _⟩ => exact h1
  show stored1 V c t y = stored1 V c (point1 ((((cfg1.win 3).blk t).view.emb y) 0))
    (ix2 (row1 ((((cfg1.win 3).blk t).view.emb y) 0)) ((((cfg1.win 3).blk t).view.emb y) 1))
  rw [hp]
  exact (congrArg (stored1 V c t) hr).symm

theorem point1_val (r : Fin 4200) : (point1 r).val = r.val / 168 := rfl
theorem row1_val (r : Fin 4200) : (row1 r).val = r.val % 168 := rfl

/-- An index of the output array is in point `t`'s block iff each coordinate is in the block's range on its axis. -/
theorem mem_blk1_3 (t : Fin cfg1.N) (i : S4200x64.Idx) :
    i ∈ ((cfg1.win 3).blk t).view.set ↔ ∀ a : Fin 2, win1_3.index t a * S168x64.size a ≤ (i a).val
      ∧ (i a).val < win1_3.index t a * S168x64.size a + S168x64.size a := by
  show i ∈ ((View.whole main_v7).slice (win1_3.rect t)).set ↔ _
  rw [View.set_slice_whole, Rect.mem_set_unit]
  exact Iff.rfl

/-- The blocks tile the array: row `r` is in the block of point `r / 168`. -/
theorem cover1 (i : S4200x64.Idx) :
    ∃ t : Fin cfg1.N, (cfg1.win 3).flush t = true ∧ i ∈ ((cfg1.win 3).blk t).view.set := by
  refine ⟨point1 (i 0), flush1_3 _, ?_⟩
  rw [mem_blk1_3]
  obtain ⟨e0, e1, e2, e3, e4, e5, e6, e7⟩ := index_facts1 (point1 (i 0))
  have hi0 : (i 0).val < 4200 := (i 0).isLt
  have hi1 : (i 1).val < 64 := (i 1).isLt
  have hp : (point1 (i 0)).val = (i 0).val / 168 := rfl
  intro a
  match a with
  | ⟨0, _⟩ =>
    show win1_3.index (point1 (i 0)) (0 : Fin 2) * 168 ≤ (i 0).val
      ∧ (i 0).val < win1_3.index (point1 (i 0)) (0 : Fin 2) * 168 + 168
    rw [e6, hp]; omega
  | ⟨1, _⟩ =>
    show win1_3.index (point1 (i 0)) (1 : Fin 2) * 64 ≤ (i 1).val
      ∧ (i 1).val < win1_3.index (point1 (i 0)) (1 : Fin 2) * 64 + 64
    rw [e7]; omega

/-- The output array after the run is `whole1`. -/
theorem final1 (c : Dev nD) : (dat1 V c).arrAt 3 cfg1.N = whole1 V c :=
  (dat1 V c).arrAt_eq_of_cover 3 (whole1 V c) (fun t _ => flushed1_eq V c t) cover1

/-- The output array after the run, at row `r` and column `j`: the body's value of the input blocks at the point
    `r / 168`, read at row `r % 168`, column `j`. -/
theorem arr1_apply (c : Dev nD) (r : Fin 4200) (j : Fin 64) :
    ((dat1 V c).arrAt 3 cfg1.N : S4200x64.Idx → Elt F .f32) (ix2 r j)
      = k1_pay1 (iblk1 V c 0 (point1 r)) (iblk1 V c 1 (point1 r)) (iblk1 V c 2 (point1 r)) (ix2 (row1 r) j) := by
  rw [final1]; rfl

/-- The adjacency block at point `t`, row `r'`, column `k`, is the matrix at row `168 t + r'`, column `k`. -/
theorem iblk1_0_apply (c : Dev nD) (t : Fin cfg1.N) (r' : Fin 168) (k : Fin 4200) :
    (iblk1 V c 0 t : Vec F S168x4200 .f32) (ix2 r' k)
      = (V c (Pipeline.arrRef spec1 0) : S4200x4200.Idx → Elt F .f32)
          (ix2 ⟨168 * t.val + r'.val, by have : t.val < 25 := t.isLt; have := r'.isLt; omega⟩ k) := by
  obtain ⟨e0, e1, -⟩ := index_facts1 t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 168 + 1 * r'.val = 168 * t.val + r'.val; rw [e0]; omega
  | ⟨1, _⟩ => show win1_0.index t (1 : Fin 2) * 4200 + 1 * k.val = k.val; rw [e1]; omega

/-- The whole table's block at any point is the table. -/
theorem iblk1_1_apply (c : Dev nD) (t : Fin cfg1.N) (k : Fin 4200) (j : Fin 64) :
    (iblk1 V c 1 t : Vec F S4200x64 .bf16) (ix2 k j)
      = (V c (Pipeline.arrRef spec1 1) : S4200x64.Idx → Elt F .bf16) (ix2 k j) := by
  obtain ⟨-, -, e2, e3, -⟩ := index_facts1 t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 4200 + 1 * k.val = k.val; rw [e2]; omega
  | ⟨1, _⟩ => show win1_1.index t (1 : Fin 2) * 64 + 1 * j.val = j.val; rw [e3]; omega

/-- The table's row block at point `t`, row `r'`, column `j`, is the table at row `168 t + r'`, column `j`. -/
theorem iblk1_2_apply (c : Dev nD) (t : Fin cfg1.N) (r' : Fin 168) (j : Fin 64) :
    (iblk1 V c 2 t : Vec F S168x64 .f32) (ix2 r' j)
      = (V c (Pipeline.arrRef spec1 2) : S4200x64.Idx → Elt F .f32)
          (ix2 ⟨168 * t.val + r'.val, by have : t.val < 25 := t.isLt; have := r'.isLt; omega⟩ j) := by
  obtain ⟨-, -, -, -, e4, e5, -⟩ := index_facts1 t
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 168 + 1 * r'.val = 168 * t.val + r'.val; rw [e4]; omega
  | ⟨1, _⟩ => show win1_2.index t (1 : Fin 2) * 64 + 1 * j.val = j.val; rw [e5]; omega

/-! ## Call 2: 4200 rows in 25 blocks of 168 -/

/-- The printed index maps over the grid: the adjacency block, the table's rows and the output's rows move with the
    point; the whole table stays. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What the body stores at point `t`: its value of the three input blocks there. -/
def stored2 (c : Dev nD) (t : Fin cfg2.N) : Vec F S168x64 .f32 :=
  k2_pay1 (iblk2 V c 0 t) (iblk2 V c 1 t) (iblk2 V c 2 t)

/-- The point whose block covers row `r`. -/
def point2 (r : Fin 4200) : Fin cfg2.N := ⟨r.val / 168, by have := r.isLt; show r.val / 168 < 25; omega⟩

/-- The row inside that block. -/
def row2 (r : Fin 4200) : Fin 168 := ⟨r.val % 168, Nat.mod_lt _ (by norm_num)⟩

/-- The output array after the run, as one function of the input blocks: at row `r`, column `j`, what the point
    covering `r` stored at row `r % 168`. -/
def whole2 (c : Dev nD) : S4200x64.Idx → Elt F .f32 :=
  fun i => stored2 V c (point2 (i 0)) (ix2 (row2 (i 0)) (i 1))

/-- What point `t` writes back is block `t` of `whole2`. -/
theorem flushed2_eq (c : Dev nD) (t : Fin cfg2.N) :
    (dat2 V c).flushed 3 t = ((cfg2.win 3).blk t).view.read (Elt F) (whole2 V c) := by
  show (cfg2.win 3).cut (grid2.coords t) ((dat2 V c).after 3 t) = _
  rw [after2_3]
  unfold out2_3
  rw [View.canon_unit_zero off_zero2]
  simp only [View.ld_unit_zero (S := S168x4200) off_zero2, View.ld_unit_zero (S := S4200x64) off_zero2,
    View.ld_unit_zero (S := S168x64) off_zero2]
  obtain ⟨e0, e1, e2, e3, e4, e5, e6, e7⟩ := index_facts2 t
  funext y
  show k2_pay1 (iblk2 V c 0 t) (iblk2 V c 1 t) (iblk2 V c 2 t) y = whole2 V c (((cfg2.win 3).blk t).view.emb y)
  have hy0 : (y 0).val < 168 := (y 0).isLt
  have h0 : ((((cfg2.win 3).blk t).view.emb y) 0 : Fin 4200).val = t.val * 168 + (y 0).val := by
    show win2_3.index t (0 : Fin 2) * 168 + 1 * (y 0).val = _
    rw [e6]; omega
  have h1 : ((((cfg2.win 3).blk t).view.emb y) 1 : Fin 64).val = (y 1).val := by
    show win2_3.index t (1 : Fin 2) * 64 + 1 * (y 1).val = _
    rw [e7]; omega
  have hp : point2 ((((cfg2.win 3).blk t).view.emb y) 0) = t := Fin.ext (by
    show ((((cfg2.win 3).blk t).view.emb y) 0 : Fin 4200).val / 168 = t.val
    rw [h0]; omega)
  have hr : ix2 (row2 ((((cfg2.win 3).blk t).view.emb y) 0)) ((((cfg2.win 3).blk t).view.emb y) 1) = y := by
    funext a; apply Fin.ext
    match a with
    | ⟨0, _⟩ => show ((((cfg2.win 3).blk t).view.emb y) 0 : Fin 4200).val % 168 = (y 0).val; rw [h0]; omega
    | ⟨1, _⟩ => exact h1
  show stored2 V c t y = stored2 V c (point2 ((((cfg2.win 3).blk t).view.emb y) 0))
    (ix2 (row2 ((((cfg2.win 3).blk t).view.emb y) 0)) ((((cfg2.win 3).blk t).view.emb y) 1))
  rw [hp]
  exact (congrArg (stored2 V c t) hr).symm

theorem point2_val (r : Fin 4200) : (point2 r).val = r.val / 168 := rfl
theorem row2_val (r : Fin 4200) : (row2 r).val = r.val % 168 := rfl

/-- An index of the output array is in point `t`'s block iff each coordinate is in the block's range on its axis. -/
theorem mem_blk2_3 (t : Fin cfg2.N) (i : S4200x64.Idx) :
    i ∈ ((cfg2.win 3).blk t).view.set ↔ ∀ a : Fin 2, win2_3.index t a * S168x64.size a ≤ (i a).val
      ∧ (i a).val < win2_3.index t a * S168x64.size a + S168x64.size a := by
  show i ∈ ((View.whole main_v8).slice (win2_3.rect t)).set ↔ _
  rw [View.set_slice_whole, Rect.mem_set_unit]
  exact Iff.rfl

/-- The blocks tile the array: row `r` is in the block of point `r / 168`. -/
theorem cover2 (i : S4200x64.Idx) :
    ∃ t : Fin cfg2.N, (cfg2.win 3).flush t = true ∧ i ∈ ((cfg2.win 3).blk t).view.set := by
  refine ⟨point2 (i 0), flush2_3 _, ?_⟩
  rw [mem_blk2_3]
  obtain ⟨e0, e1, e2, e3, e4, e5, e6, e7⟩ := index_facts2 (point2 (i 0))
  have hi0 : (i 0).val < 4200 := (i 0).isLt
  have hi1 : (i 1).val < 64 := (i 1).isLt
  have hp : (point2 (i 0)).val = (i 0).val / 168 := rfl
  intro a
  match a with
  | ⟨0, _⟩ =>
    show win2_3.index (point2 (i 0)) (0 : Fin 2) * 168 ≤ (i 0).val
      ∧ (i 0).val < win2_3.index (point2 (i 0)) (0 : Fin 2) * 168 + 168
    rw [e6, hp]; omega
  | ⟨1, _⟩ =>
    show win2_3.index (point2 (i 0)) (1 : Fin 2) * 64 ≤ (i 1).val
      ∧ (i 1).val < win2_3.index (point2 (i 0)) (1 : Fin 2) * 64 + 64
    rw [e7]; omega

/-- The output array after the run is `whole2`. -/
theorem final2 (c : Dev nD) : (dat2 V c).arrAt 3 cfg2.N = whole2 V c :=
  (dat2 V c).arrAt_eq_of_cover 3 (whole2 V c) (fun t _ => flushed2_eq V c t) cover2

/-- The output array after the run, at row `r` and column `j`: the body's value of the input blocks at the point
    `r / 168`, read at row `r % 168`, column `j`. -/
theorem arr2_apply (c : Dev nD) (r : Fin 4200) (j : Fin 64) :
    ((dat2 V c).arrAt 3 cfg2.N : S4200x64.Idx → Elt F .f32) (ix2 r j)
      = k2_pay1 (iblk2 V c 0 (point2 r)) (iblk2 V c 1 (point2 r)) (iblk2 V c 2 (point2 r)) (ix2 (row2 r) j) := by
  rw [final2]; rfl

/-- The adjacency block at point `t`, row `r'`, column `k`, is the matrix at row `168 t + r'`, column `k`. -/
theorem iblk2_0_apply (c : Dev nD) (t : Fin cfg2.N) (r' : Fin 168) (k : Fin 4200) :
    (iblk2 V c 0 t : Vec F S168x4200 .f32) (ix2 r' k)
      = (V c (Pipeline.arrRef spec2 0) : S4200x4200.Idx → Elt F .f32)
          (ix2 ⟨168 * t.val + r'.val, by have : t.val < 25 := t.isLt; have := r'.isLt; omega⟩ k) := by
  obtain ⟨e0, e1, -⟩ := index_facts2 t
  unfold iblk2
  rw [View.read_apply]
  show V c (Pipeline.arrRef spec2 0) _ = V c (Pipeline.arrRef spec2 0) _
  congr 1
  funext a; apply Fin.ext
  match a with
  | ⟨0, _⟩ => show win2_0.index t (0 : Fin 2) * 168 + 1 * r'.val = 168 * t.val + r'.val; rw [e0]; omega
  | ⟨1, _⟩ => show win2_0.index t (1 : Fin 2) * 4200 + 1 * k.val = k.val; rw [e1]; omega

/-- The whole table's block at any point is the table. -/
theorem iblk2_1_apply (c : Dev nD) (t : Fin cfg2.N) (k : Fin 4200) (j : Fin 64) :
    (iblk2 V c 1 t : Vec F S4200x64 .bf16) (ix2 k j)
      = (V c (Pipeline.arrRef spec2 1) : S4200x64.Idx → Elt F .bf16) (ix2 k j) := by
  obtain ⟨-, -, e2, e3, -⟩ := index_facts2 t
  unfold iblk2
  rw [View.read_apply]
  show V c (Pipeline.arrRef spec2 1) _ = V c (Pipeline.arrRef spec2 1) _
  congr 1
  funext a; apply Fin.ext
  match a with
  | ⟨0, _⟩ => show win2_1.index t (0 : Fin 2) * 4200 + 1 * k.val = k.val; rw [e2]; omega
  | ⟨1, _⟩ => show win2_1.index t (1 : Fin 2) * 64 + 1 * j.val = j.val; rw [e3]; omega

/-- The table's row block at point `t`, row `r'`, column `j`, is the table at row `168 t + r'`, column `j`. -/
theorem iblk2_2_apply (c : Dev nD) (t : Fin cfg2.N) (r' : Fin 168) (j : Fin 64) :
    (iblk2 V c 2 t : Vec F S168x64 .f32) (ix2 r' j)
      = (V c (Pipeline.arrRef spec2 2) : S4200x64.Idx → Elt F .f32)
          (ix2 ⟨168 * t.val + r'.val, by have : t.val < 25 := t.isLt; have := r'.isLt; omega⟩ j) := by
  obtain ⟨-, -, -, -, e4, e5, -⟩ := index_facts2 t
  unfold iblk2
  rw [View.read_apply]
  show V c (Pipeline.arrRef spec2 2) _ = V c (Pipeline.arrRef spec2 2) _
  congr 1
  funext a; apply Fin.ext
  match a with
  | ⟨0, _⟩ => show win2_2.index t (0 : Fin 2) * 168 + 1 * r'.val = 168 * t.val + r'.val; rw [e4]; omega
  | ⟨1, _⟩ => show win2_2.index t (1 : Fin 2) * 64 + 1 * j.val = j.val; rw [e5]; omega

end Cert.KI

end
-- ==== Proof.Final3.lean ====
/-
  From blocks to the array, for the attention call. The call runs over 8 column blocks of 512 items; at every point
  the body stores the 512×512 block of scores and the block is written back, cut at the result's 4000 columns: the last
  block keeps its first 416 columns. The cut blocks tile the result exactly, so after the run the result at user row b
  and item column p is the body's value at the point p / 512 that covers the column, read at (b, p % 512). Also: the
  user features' and the weights' blocks are the whole arrays, and a view table's block at point t, filled out to 512
  rows, reads on a row inside the table the table's row 512 t + p'.
-/
import proofs.«132272_j21028159881436_2_alg».proof.Proof.Final012
import proofs.«132272_j21028159881436_2_alg».proof.Proof.Reg3b
import Idealize.ShloMosaic.Lib.Pipeline.Value
import Idealize.ShloMosaic.Lib.ValueIdx

set_option maxRecDepth 16384

noncomputable section

namespace Cert.KI

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the features and the weights stay; the two view tables' rows and the
    result's columns move with the point; and a point's one coordinate is its number. -/
theorem index_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = t.val
    ∧ (grid3.coords t (0 : Fin 1)).val = t.val :=
  (by decide +kernel : ∀ t : Fin grid3.N, _)

/-- How much of each moving block lies inside its array: all 512 rows or columns, but at the last point what is left
    of the 4000. -/
theorem xsize_facts3 : ∀ t : Fin cfg3.N, win3_2.xsize (grid3.coords t) (0 : Fin 2) = min 512 (4000 - 512 * t.val)
    ∧ win3_3.xsize (grid3.coords t) (0 : Fin 2) = min 512 (4000 - 512 * t.val)
    ∧ win3_4.xsize (grid3.coords t) (0 : Fin 2) = 512
    ∧ win3_4.xsize (grid3.coords t) (1 : Fin 2) = min 512 (4000 - 512 * t.val) :=
  (by decide +kernel : ∀ t : Fin grid3.N, _)

/-- What the body stores at point `t`: its value of the four input blocks there. -/
def stored3 (c : Dev nD) (t : Fin cfg3.N) : Vec Ideal S512x512 .f32 :=
  k3_pay1 (F := Ideal) (grid3.coords t) (iblk3 V c 0 t) (iblk3 V c 1 t) (fblk3_2 V c t) (fblk3_3 V c t)

/-- The point whose block covers column `p`. -/
def point3 (p : Fin 4000) : Fin cfg3.N := ⟨p.val / 512, by have := p.isLt; show p.val / 512 < 8; omega⟩

/-- The column inside that block. -/
def col3 (p : Fin 4000) : Fin 512 := ⟨p.val % 512, Nat.mod_lt _ (by norm_num)⟩

theorem point3_val (p : Fin 4000) : (point3 p).val = p.val / 512 := rfl
theorem col3_val (p : Fin 4000) : (col3 p).val = p.val % 512 := rfl

/-- The result array after the run, as one function of the input blocks: at row `b`, column `p`, what the point
    covering `p` stored at row `b`, column `p % 512`. -/
def whole3 (c : Dev nD) : S512x4000.Idx → Elt Ideal .f32 :=
  fun i => stored3 V c (point3 (i 1)) (ix2 (i 0) (col3 (i 1)))

/-- What point `t` writes back — the stored block's columns inside the result — is block `t` of `whole3`. -/
theorem flushed3_eq (c : Dev nD) (t : Fin cfg3.N) :
    (dat3 V c).flushed 4 t = ((cfg3.win 4).blk t).view.read (Elt Ideal) (whole3 V c) := by
  show (cfg3.win 4).cut (grid3.coords t) ((dat3 V c).after 4 t) = _
  rw [after3_4, out3_4_eq_pay]
  obtain ⟨-, -, -, -, -, -, -, -, e8, e9, -⟩ := index_facts3 t
  obtain ⟨-, -, x0, x1⟩ := xsize_facts3 t
  funext y
  show stored3 V c t (win3_4.xinj (grid3.coords t) y) = whole3 V c (((cfg3.win 4).blk t).view.emb y)
  have hy1 : (y 1).val < min 512 (4000 - 512 * t.val) := x1 ▸ (y 1).isLt
  have ht : t.val < 8 := t.isLt
  have h0 : ((((cfg3.win 4).blk t).view.emb y) 0 : Fin 512).val = (y 0).val := by
    show win3_4.index t (0 : Fin 2) * 512 + 1 * (y 0).val = _
    rw [e8]; omega
  have h1 : ((((cfg3.win 4).blk t).view.emb y) 1 : Fin 4000).val = t.val * 512 + (y 1).val := by
    show win3_4.index t (1 : Fin 2) * 512 + 1 * (y 1).val = _
    rw [e9]; omega
  have hp : point3 ((((cfg3.win 4).blk t).view.emb y) 1) = t := Fin.ext (by
    show ((((cfg3.win 4).blk t).view.emb y) 1 : Fin 4000).val / 512 = t.val
    rw [h1]; omega)
  have hr : ix2 ((((cfg3.win 4).blk t).view.emb y) 0) (col3 ((((cfg3.win 4).blk t).view.emb y) 1))
      = win3_4.xinj (grid3.coords t) y := by
    funext a; apply Fin.ext
    match a with
    | ⟨0, _⟩ => exact h0
    | ⟨1, _⟩ => show ((((cfg3.win 4).blk t).view.emb y) 1 : Fin 4000).val % 512 = (y 1).val; rw [h1]; omega
  show stored3 V c t (win3_4.xinj (grid3.coords t) y) = stored3 V c (point3 ((((cfg3.win 4).blk t).view.emb y) 1))
    (ix2 ((((cfg3.win 4).blk t).view.emb y) 0) (col3 ((((cfg3.win 4).blk t).view.emb y) 1)))
  rw [hp]
  exact (congrArg (stored3 V c t) hr).symm

/-- An index of the result array is in point `t`'s cut block iff each coordinate is in the block's range on its axis,
    as far as the block lies inside the array. -/
theorem mem_blk3_4 (t : Fin cfg3.N) (i : S512x4000.Idx) :
    i ∈ ((cfg3.win 4).blk t).view.set ↔ ∀ a : Fin 2, win3_4.index t a * S512x512.size a ≤ (i a).val
      ∧ (i a).val < win3_4.index t a * S512x512.size a + win3_4.xsize (grid3.coords t) a := by
  show i ∈ ((View.whole main_v23).slice (win3_4.rect t)).set ↔ _
  rw [View.set_slice_whole, Rect.mem_set_unit]
  exact Iff.rfl

/-- The cut blocks tile the array: column `p` is in the block of point `p / 512`. -/
theorem cover3 (i : S512x4000.Idx) :
    ∃ t : Fin cfg3.N, (cfg3.win 4).flush t = true ∧ i ∈ ((cfg3.win 4).blk t).view.set := by
  refine ⟨point3 (i 1), flush3_4 _, ?_⟩
  rw [mem_blk3_4]
  obtain ⟨-, -, -, -, -, -, -, -, e8, e9, -⟩ := index_facts3 (point3 (i 1))
  obtain ⟨-, -, x0, x1⟩ := xsize_facts3 (point3 (i 1))
  have hi0 : (i 0).val < 512 := (i 0).isLt
  have hi1 : (i 1).val < 4000 := (i 1).isLt
  have hp : (point3 (i 1)).val = (i 1).val / 512 := rfl
  intro a
  match a with
  | ⟨0, _⟩ =>
    show win3_4.index (point3 (i 1)) (0 : Fin 2) * 512 ≤ (i 0).val
      ∧ (i 0).val < win3_4.index (point3 (i 1)) (0 : Fin 2) * 512 + win3_4.xsize (grid3.coords (point3 (i 1))) (0 : Fin 2)
    rw [e8, x0]; omega
  | ⟨1, _⟩ =>
    show win3_4.index (point3 (i 1)) (1 : Fin 2) * 512 ≤ (i 1).val
      ∧ (i 1).val < win3_4.index (point3 (i 1)) (1 : Fin 2) * 512 + win3_4.xsize (grid3.coords (point3 (i 1))) (1 : Fin 2)
    rw [e9, x1, hp]; omega

/-- The result array after the run is `whole3`. -/
theorem final3 (c : Dev nD) : (dat3 V c).arrAt 4 cfg3.N = whole3 V c :=
  (dat3 V c).arrAt_eq_of_cover 4 (whole3 V c) (fun t _ => flushed3_eq V c t) cover3

/-- The result array after the run, at row `b` and column `p`: the body's value of the input blocks at the point
    `p / 512`, read at row `b`, column `p % 512`. -/
theorem arr3_apply (c : Dev nD) (b : Fin 512) (p : Fin 4000) :
    ((dat3 V c).arrAt 4 cfg3.N : S512x4000.Idx → Elt Ideal .f32) (ix2 b p)
      = k3_pay1 (F := Ideal) (grid3.coords (point3 p)) (iblk3 V c 0 (point3 p)) (iblk3 V c 1 (point3 p))
          (fblk3_2 V c (point3 p)) (fblk3_3 V c (point3 p)) (ix2 b (col3 p)) := by
  rw [final3]; rfl

/-- A point's one grid coordinate is its number. -/
theorem coords3_val (t : Fin cfg3.N) : (grid3.coords t (0 : Fin 1)).val = t.val := (index_facts3 t).2.2.2.2.2.2.2.2.2.2

/-- The features' block at any point is the features' array. -/
theorem iblk3_0_apply (c : Dev nD) (t : Fin cfg3.N) (b : Fin 512) (e : Fin 64) :
    (iblk3 V c 0 t : Vec Ideal S512x64 .f32) (ix2 b e)
      = (V c (Pipeline.arrRef spec3 0) : S512x64.Idx → Elt Ideal .f32) (ix2 b e) := by
  obtain ⟨e0, e1, -⟩ := index_facts3 t
  unfold iblk3
  rw [View.read_apply]
  show V c (Pipeline.arrRef spec3 0) _ = V c (Pipeline.arrRef spec3 0) _
  congr 1
  funext a; apply Fin.ext
  match a with
  | ⟨0, _⟩ => show win3_0.index t (0 : Fin 2) * 512 + 1 * b.val = b.val; rw [e0]; omega
  | ⟨1, _⟩ => show win3_0.index t (1 : Fin 2) * 64 + 1 * e.val = e.val; rw [e1]; omega

/-- The weights' block at any point is the weights' array. -/
theorem iblk3_1_apply (c : Dev nD) (t : Fin cfg3.N) (e d : Fin 64) :
    (iblk3 V c 1 t : Vec Ideal S64x64 .f32) (ix2 e d)
      = (V c (Pipeline.arrRef spec3 1) : S64x64.Idx → Elt Ideal .f32) (ix2 e d) := by
  obtain ⟨-, -, e2, e3, -⟩ := index_facts3 t
  unfold iblk3
  rw [View.read_apply]
  show V c (Pipeline.arrRef spec3 1) _ = V c (Pipeline.arrRef spec3 1) _
  congr 1
  funext a; apply Fin.ext
  match a with
  | ⟨0, _⟩ => show win3_1.index t (0 : Fin 2) * 64 + 1 * e.val = e.val; rw [e2]; omega
  | ⟨1, _⟩ => show win3_1.index t (1 : Fin 2) * 64 + 1 * d.val = d.val; rw [e3]; omega

/-- View table 1's block at point `t`, filled out to 512 rows, reads on a row `p'` inside the table the table's
    row `512 t + p'`. -/
theorem fblk3_2_apply (c : Dev nD) (t : Fin cfg3.N) (p' : Fin 512) (d : Fin 64) (hp : 512 * t.val + p'.val < 4000) :
    fblk3_2 V c t (ix2 p' d)
      = (V c (Pipeline.arrRef spec3 2) : S4000x64.Idx → Elt Ideal .f32) (ix2 ⟨512 * t.val + p'.val, hp⟩ d) := by
  obtain ⟨-, -, -, -, e4, e5, e6, e7, -⟩ := index_facts3 t
  obtain ⟨x2, x3, -⟩ := xsize_facts3 t
  have hm : win3_2.moved (grid3.coords t) (ix2 p' d) = true := (win3_2.moved_iff _ _).mpr fun a => by
    match a with
    | ⟨0, _⟩ => show p'.val < win3_2.xsize (grid3.coords t) (0 : Fin 2); rw [x2]; omega
    | ⟨1, _⟩ => show d.val < win3_2.xsize (grid3.coords t) 1; rw [xs2_1 t]; exact d.isLt
  unfold fblk3_2 Pipeline.Window.fill
  rw [dif_pos hm]
  unfold iblk3
  rw [View.read_apply]
  show V c (Pipeline.arrRef spec3 2) _ = V c (Pipeline.arrRef spec3 2) _
  congr 1
  funext a; apply Fin.ext
  match a with
  | ⟨0, _⟩ => show win3_2.index t (0 : Fin 2) * 512 + 1 * p'.val = 512 * t.val + p'.val; rw [e4]; omega
  | ⟨1, _⟩ => show win3_2.index t (1 : Fin 2) * 64 + 1 * d.val = d.val; rw [e5]; omega

/-- View table 2's block at point `t`, filled out to 512 rows, reads on a row `p'` inside the table the table's
    row `512 t + p'`. -/
theorem fblk3_3_apply (c : Dev nD) (t : Fin cfg3.N) (p' : Fin 512) (d : Fin 64) (hp : 512 * t.val + p'.val < 4000) :
    fblk3_3 V c t (ix2 p' d)
      = (V c (Pipeline.arrRef spec3 3) : S4000x64.Idx → Elt Ideal .f32) (ix2 ⟨512 * t.val + p'.val, hp⟩ d) := by
  obtain ⟨-, -, -, -, e4, e5, e6, e7, -⟩ := index_facts3 t
  obtain ⟨x2, x3, -⟩ := xsize_facts3 t
  have hm : win3_3.moved (grid3.coords t) (ix2 p' d) = true := (win3_3.moved_iff _ _).mpr fun a => by
    match a with
    | ⟨0, _⟩ => show p'.val < win3_3.xsize (grid3.coords t) (0 : Fin 2); rw [x3]; omega
    | ⟨1, _⟩ => show d.val < win3_3.xsize (grid3.coords t) 1; rw [xs3_1 t]; exact d.isLt
  unfold fblk3_3 Pipeline.Window.fill
  rw [dif_pos hm]
  unfold iblk3
  rw [View.read_apply]
  show V c (Pipeline.arrRef spec3 3) _ = V c (Pipeline.arrRef spec3 3) _
  congr 1
  funext a; apply Fin.ext
  match a with
  | ⟨0, _⟩ => show win3_3.index t (0 : Fin 2) * 512 + 1 * p'.val = 512 * t.val + p'.val; rw [e6]; omega
  | ⟨1, _⟩ => show win3_3.index t (1 : Fin 2) * 64 + 1 * d.val = d.val; rw [e7]; omega

/-- Column `p` of the result is column `p % 512` of the block at point `p / 512`, and lies inside the table there. -/
theorem point3_col3 (p : Fin 4000) : 512 * (point3 p).val + (col3 p).val = p.val := by
  show 512 * (p.val / 512) + p.val % 512 = p.val
  omega

/-- THE RESULT ARRAY AT (b, p): the two-view attention score of user row `b` of the features, through the weights,
    against rows `p` of the two view tables. -/
theorem arr3_score (c : Dev nD) (b : Fin 512) (p : Fin 4000) :
    ((dat3 V c).arrAt 4 cfg3.N : S512x4000.Idx → Elt Ideal .f32) (ix2 b p)
      = Cert.PayAttn.score3 (fun e => (V c (Pipeline.arrRef spec3 0) : S512x64.Idx → Elt Ideal .f32) (ix2 b e))
          (V c (Pipeline.arrRef spec3 1) : S64x64.Idx → Elt Ideal .f32)
          (fun d => (V c (Pipeline.arrRef spec3 2) : S4000x64.Idx → Elt Ideal .f32) (ix2 p d))
          (fun d => (V c (Pipeline.arrRef spec3 3) : S4000x64.Idx → Elt Ideal .f32) (ix2 p d)) := by
  rw [arr3_apply, Cert.PayAttn.pay3_eq]
  have hpc := point3_col3 p
  have hlt : (grid3.coords (point3 p) (0 : Fin 1)).val * 512 + (col3 p).val < 4000 := by
    rw [coords3_val]; have := p.isLt; omega
  rw [if_pos hlt]
  have hrow : (⟨512 * (point3 p).val + (col3 p).val, by rw [hpc]; exact p.isLt⟩ : Fin 4000) = p := Fin.ext hpc
  have e0 : (fun e : Fin 64 => (iblk3 V c 0 (point3 p) : Vec Ideal S512x64 .f32) (ix2 b e))
      = fun e : Fin 64 => (V c (Pipeline.arrRef spec3 0) : S512x64.Idx → Elt Ideal .f32) (ix2 b e) :=
    funext fun e => iblk3_0_apply V c (point3 p) b e
  have e1 : (iblk3 V c 1 (point3 p) : Vec Ideal S64x64 .f32)
      = (V c (Pipeline.arrRef spec3 1) : S64x64.Idx → Elt Ideal .f32) :=
    funext fun i => by rw [eq_ix2 i]; exact iblk3_1_apply V c (point3 p) _ _
  have e2 : (fun d : Fin 64 => fblk3_2 V c (point3 p) (ix2 (col3 p) d))
      = fun d : Fin 64 => (V c (Pipeline.arrRef spec3 2) : S4000x64.Idx → Elt Ideal .f32) (ix2 p d) :=
    funext fun d => by
      rw [fblk3_2_apply V c (point3 p) (col3 p) d (by rw [hpc]; exact p.isLt), hrow]
  have e3 : (fun d : Fin 64 => fblk3_3 V c (point3 p) (ix2 (col3 p) d))
      = fun d : Fin 64 => (V c (Pipeline.arrRef spec3 3) : S4000x64.Idx → Elt Ideal .f32) (ix2 p d) :=
    funext fun d => by
      rw [fblk3_3_apply V c (point3 p) (col3 p) d (by rw [hpc]; exact p.isLt), hrow]
  exact congr (congr (congr (congrArg Cert.PayAttn.score3 e0) e1) e2) e3

end Cert.KI

end
-- ==== Proof.RunI.lean ====
/-
  The whole program run at the ideal instance: the host operations that lay out the three embedding tables, the
  three propagation calls, the host operations that slice, average and gather, and the attention call, composed in
  order. Between two items every unscoped buffer of the core is held at named contents: the launch memory, then each
  host stretch applied, then each call's arrays at what its write-backs leave. The run ends with every unscoped
  buffer at the last of these, which is where the results and the unchanged arguments are read.
-/
import proofs.«132272_j21028159881436_2_alg».proof.Proof.Final3
import proofs.«132272_j21028159881436_2_alg».proof.Proof.Gen.KernelIdeal.Launch
import proofs.«132272_j21028159881436_2_alg».proof.Proof.Gen.KernelIdeal.Skeleton
import proofs.«132272_j21028159881436_2_alg».proof.Proof.Gen.KernelIdeal.Points
import proofs.«132272_j21028159881436_2_alg».proof.Proof.Reg0
import proofs.«132272_j21028159881436_2_alg».proof.Proof.Reg1
import proofs.«132272_j21028159881436_2_alg».proof.Proof.Reg2
import proofs.«132272_j21028159881436_2_alg».proof.Proof.Reg3
import proofs.«132272_j21028159881436_2_alg».proof.Proof.Reg3b
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Core `c`'s buffers at launch. -/
abbrev W0 : Dev nD → Valuation τ sig (Elt Ideal) := fun c b => m (c, b)
/-- After the first host stretch (region 0's entry). -/
abbrev W1 : Dev nD → Valuation τ sig (Elt Ideal) := fun c => StableHlo.after hostOps0 (W0 m c)
abbrev V1 : (c : Dev nD) → (b : Ref sig .tc) → Buf (Elt Ideal) ((c : Thread nD τ).loc b) := fun c b => W1 m c b

/-- At region 0's exit: its arrays at what the pipeline leaves, every other buffer as entered. -/
def W2 (c : Dev nD) : Valuation τ sig (Elt Ideal) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt Ideal) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt Ideal) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt Ideal) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt Ideal) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt Ideal) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the second host stretch (region 3's entry). -/
abbrev W5 : Dev nD → Valuation τ sig (Elt Ideal) := fun c => StableHlo.after hostOps3 (W4 m c)
abbrev V5 : (c : Dev nD) → (b : Ref sig .tc) → Buf (Elt Ideal) ((c : Thread nD τ).loc b) := fun c b => W5 m c b

/-- At region 3's exit: its arrays at what the pipeline leaves, every other buffer as entered. -/
def W6 (c : Dev nD) : Valuation τ sig (Elt Ideal) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
abbrev V6 : (c : Dev nD) → (b : Ref sig .tc) → Buf (Elt Ideal) ((c : Thread nD τ).loc b) := fun c b => W6 m c b
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-- No pipeline has a prefetched table. -/
abbrev adm : (p : Fin 4) → (pcfgs (F := Ideal) p).Adm := fun p => (cfgs p).toPCfg_adm
/-- Every pipeline's proof data, each at its region's entry contents. -/
def pdats : (p : Fin 4) → (c : Dev nD) → Dat τ (Elt Ideal) Unit ℕ (UR sig nD τ) ℕ (Pipeline.pin (pcfgs (F := Ideal)) adm p) c
  | ⟨0, _⟩ => fun c => dat0 (V1 m) c
  | ⟨1, _⟩ => fun c => dat1 (V2 m) c
  | ⟨2, _⟩ => fun c => dat2 (V3 m) c
  | ⟨3, _⟩ => fun c => dat3 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt Ideal))).Forall fun op => op.fresh = ∅ := by
  simp only [List.Forall]; repeat' constructor
theorem hostOps3_fresh' : (hostOps3 : List (HloOp τ sig (Elt Ideal))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

set_option backward.isDefEq.respectTransparency.types false in
/-- Region 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the
    invariant and comes out; nothing is owed; the kernel has no semaphore of its own. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at the exit contents; the generator register goes into the
    invariant and comes out; nothing is owed; the kernel has no semaphore of its own. -/
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W5`, left at `W6`. Its arrays are
    split out of the unscoped buffers and put back at the exit contents; the generator register goes into the
    invariant and comes out; nothing is owed; the kernel has no semaphore of its own. -/
def reg3 : Pipeline.RegionSeg (pcfgs (F := Ideal)) adm (pdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 (V5 m) c
  hwaits := Pipeline.hwaits_of_owed_zero _ _ _ _ L lv 3 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := Ideal)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's six segments in order. -/
abbrev segs : List (Pipeline.Seg (pcfgs (F := Ideal)) adm (pdats m) () defs₀ 𝒱₀ L lv) :=
  [ .host (hseg hostOps0 hostOps0_sub hostOps0_fresh' (W0 m)),
    .region (reg0 m), .region (reg1 m), .region (reg2 m),
    .host (hseg hostOps3 hostOps3_sub hostOps3_fresh' (W4 m)),
    .region (reg3 m) ]
theorem main_run (c : Dev nD) : main (F := Ideal) c = Pipeline.Seg.run (segs m) := (main_chain c).trans (by chain_rfl)

set_option backward.isDefEq.respectTransparency.types false in
/-- THE RUN: from any memory with zero counters every weakly fair execution of @main terminates, nothing faulting, and
    every final state has every unscoped buffer of every core at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KI

end
-- ==== Proof.ReadBack.lean ====
/-
  What the last boundary's contents are at the buffers the claims speak of: each argument as launched, the scores at
  what the attention call's write-backs leave, the gathered user features at what the second host stretch computed.
-/
import proofs.«132272_j21028159881436_2_alg».proof.Proof.Gen.KernelIdeal.Launch
import proofs.«132272_j21028159881436_2_alg».proof.Proof.Gen.KernelIdeal.Skeleton
import proofs.«132272_j21028159881436_2_alg».proof.Proof.Gen.KernelIdeal.Points
import proofs.«132272_j21028159881436_2_alg».proof.Proof.RunI
import proofs.«132272_j21028159881436_2_alg».proof.Proof.Gen.KernelIdeal.Regions
import Idealize.ShloMosaic.PureOps.Ideal
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- `main_arg0` reaches the end as launched: no host operation writes it and no call's write-back touches it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps3 _ hostOps3_writes (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- `main_arg1` reaches the end as launched: no host operation writes it and no call's write-back touches it. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps3 _ hostOps3_writes (by decide)
    _ = W3 m c (Proc.devRef .tc main_arg1) := W4_of_ne m c main_arg1 (by decide)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` reaches the end as launched: no host operation writes it and no call's write-back touches it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps3 _ hostOps3_writes (by decide)
    _ = W3 m c (Proc.devRef .tc main_arg2) := (W4_arr m c 0).trans (((dat2 (V3 m) c).arrAt_in 0 rfl _).trans (A_eq2 (V3 m) c 0))
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host operation writes it and no call's write-back touches it. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps3 _ hostOps3_writes (by decide)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host operation writes it and no call's write-back touches it. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps3 _ hostOps3_writes (by decide)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host operation writes it and no call's write-back touches it. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps3 _ hostOps3_writes (by decide)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no host operation writes it and no call's write-back touches it. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := (W6_arr m c 1).trans (((dat3 (V5 m) c).arrAt_in 1 rfl _).trans (A_eq3 (V5 m) c 1))
    _ = W4 m c (Proc.devRef .tc main_arg6) := StableHlo.after_of_writes_sub hostOps3 _ hostOps3_writes (by decide)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- `main_arg7` reaches the end as launched: no host operation writes it and no call's write-back touches it. -/
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps3 _ hostOps3_writes (by decide)
    _ = W3 m c (Proc.devRef .tc main_arg7) := W4_of_ne m c main_arg7 (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-- The scores: what the attention call's write-backs leave in its result array. -/
theorem W6_main_v23 (c : Dev nD) : W6 m c (Proc.devRef .tc main_v23) = (dat3 (V5 m) c).arrAt 4 cfg3.N := W6_arr m c 4
/-- The gathered user features: an input of the attention call, so as the second host stretch left them. -/
theorem W6_main_v22 (c : Dev nD) : W6 m c (Proc.devRef .tc main_v22) = W5 m c (Proc.devRef .tc main_v22) :=
  (W6_arr m c 0).trans (((dat3 (V5 m) c).arrAt_in 0 rfl _).trans (A_eq3 (V5 m) c 0))

end Cert.KI

end
-- ==== Proof.Bridge012.lean ====
/-
  The three propagation results, joined: after each propagation call the call's output array holds the reference's
  propagation stage of the launch arguments. The array after the run is, index by index, the body's value of the input
  blocks at the covering point; the body's value is the propagation entry of the block's rows; the blocks' rows are the
  rows of the arrays the call reads; those arrays are the launch adjacency matrix and the concatenated embedding table
  the first host operations wrote; and the propagation entry written the kernel's way is the reference's stage when every
  entry is a real number.
-/
import proofs.«132272_j21028159881436_2_alg».proof.Proof.ReadBack
import proofs.«132272_j21028159881436_2_alg».proof.Proof.RunI
import proofs.«132272_j21028159881436_2_alg».proof.Proof.Final012
import proofs.«132272_j21028159881436_2_alg».proof.Proof.PayProp
import proofs.«132272_j21028159881436_2_alg».proof.Proof.RefBridge
import proofs.«132272_j21028159881436_2_alg».proof.Proof.Gen.KernelIdeal.Regions
import Idealize.ShloMosaic.Lib.StableHlo.Run
import Idealize.ShloMosaic.PureOps.Ideal

set_option maxRecDepth 16384

noncomputable section

namespace Cert.KI

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The block of the covering point, read at the row inside it, is the array's row -/

section Rows
variable {F : FTy → Type} [FloatOps F]
variable (V : (c : Dev nD) → (b : Ref sig .tc) → Buf (Elt F) ((c : Thread nD τ).loc b))

/-- The adjacency block of the point covering row `r`, read at that row inside the block, is the matrix's row `r`. -/
theorem iblk0_0_row (c : Dev nD) (r : Fin 8000) (k : Fin 8000) :
    (iblk0 V c 0 (point0 r) : Vec F S320x8000 .f32) (ix2 (row0 r) k)
      = (V c (Pipeline.arrRef spec0 0) : S8000x8000.Idx → Elt F .f32) (ix2 r k) := by
  rw [iblk0_0_apply]
  exact congrArg (fun q : Fin 8000 => (V c (Pipeline.arrRef spec0 0) : S8000x8000.Idx → Elt F .f32) (ix2 q k))
    (Fin.ext (by show 320 * (r.val / 320) + r.val % 320 = r.val; exact Nat.div_add_mod r.val 320))

/-- The table's row block of the point covering row `r`, read at that row inside the block, is the table's row `r`. -/
theorem iblk0_2_row (c : Dev nD) (r : Fin 8000) (j : Fin 64) :
    (iblk0 V c 2 (point0 r) : Vec F S320x64 .f32) (ix2 (row0 r) j)
      = (V c (Pipeline.arrRef spec0 2) : S8000x64.Idx → Elt F .f32) (ix2 r j) := by
  rw [iblk0_2_apply]
  exact congrArg (fun q : Fin 8000 => (V c (Pipeline.arrRef spec0 2) : S8000x64.Idx → Elt F .f32) (ix2 q j))
    (Fin.ext (by show 320 * (r.val / 320) + r.val % 320 = r.val; exact Nat.div_add_mod r.val 320))

/-- The adjacency block of the point covering row `r`, read at that row inside the block, is the matrix's row `r`. -/
theorem iblk1_0_row (c : Dev nD) (r : Fin 4200) (k : Fin 4200) :
    (iblk1 V c 0 (point1 r) : Vec F S168x4200 .f32) (ix2 (row1 r) k)
      = (V c (Pipeline.arrRef spec1 0) : S4200x4200.Idx → Elt F .f32) (ix2 r k) := by
  rw [iblk1_0_apply]
  exact congrArg (fun q : Fin 4200 => (V c (Pipeline.arrRef spec1 0) : S4200x4200.Idx → Elt F .f32) (ix2 q k))
    (Fin.ext (by show 168 * (r.val / 168) + r.val % 168 = r.val; exact Nat.div_add_mod r.val 168))

/-- The table's row block of the point covering row `r`, read at that row inside the block, is the table's row `r`. -/
theorem iblk1_2_row (c : Dev nD) (r : Fin 4200) (j : Fin 64) :
    (iblk1 V c 2 (point1 r) : Vec F S168x64 .f32) (ix2 (row1 r) j)
      = (V c (Pipeline.arrRef spec1 2) : S4200x64.Idx → Elt F .f32) (ix2 r j) := by
  rw [iblk1_2_apply]
  exact congrArg (fun q : Fin 4200 => (V c (Pipeline.arrRef spec1 2) : S4200x64.Idx → Elt F .f32) (ix2 q j))
    (Fin.ext (by show 168 * (r.val / 168) + r.val % 168 = r.val; exact Nat.div_add_mod r.val 168))

/-- The adjacency block of the point covering row `r`, read at that row inside the block, is the matrix's row `r`. -/
theorem iblk2_0_row (c : Dev nD) (r : Fin 4200) (k : Fin 4200) :
    (iblk2 V c 0 (point2 r) : Vec F S168x4200 .f32) (ix2 (row2 r) k)
      = (V c (Pipeline.arrRef spec2 0) : S4200x4200.Idx → Elt F .f32) (ix2 r k) := by
  rw [iblk2_0_apply]
  exact congrArg (fun q : Fin 4200 => (V c (Pipeline.arrRef spec2 0) : S4200x4200.Idx → Elt F .f32) (ix2 q k))
    (Fin.ext (by show 168 * (r.val / 168) + r.val % 168 = r.val; exact Nat.div_add_mod r.val 168))

/-- The table's row block of the point covering row `r`, read at that row inside the block, is the table's row `r`. -/
theorem iblk2_2_row (c : Dev nD) (r : Fin 4200) (j : Fin 64) :
    (iblk2 V c 2 (point2 r) : Vec F S168x64 .f32) (ix2 (row2 r) j)
      = (V c (Pipeline.arrRef spec2 2) : S4200x64.Idx → Elt F .f32) (ix2 r j) := by
  rw [iblk2_2_apply]
  exact congrArg (fun q : Fin 4200 => (V c (Pipeline.arrRef spec2 2) : S4200x64.Idx → Elt F .f32) (ix2 q j))
    (Fin.ext (by show 168 * (r.val / 168) + r.val % 168 = r.val; exact Nat.div_add_mod r.val 168))

end Rows

/-! ## What the first host operations leave -/

variable (m : (ℓ : Loc nD τ sig) → Buf (Elt Ideal) ℓ)

/-- The first host operations do not write the first adjacency matrix. -/
theorem V1_arg0 (c : Dev nD) :
    (V1 m c (Pipeline.arrRef spec0 0) : S8000x8000.Idx → EReal) = m ((c : Thread nD τ).loc main_arg0) :=
  StableHlo.after_of_writes_sub hostOps0 _ hostOps0_writes (by decide)

/-- The first table: the user rows over the paper rows. -/
theorem V1_v0 (c : Dev nD) :
    (V1 m c (Pipeline.arrRef spec0 2) : S8000x64.Idx → EReal)
      = Cert.ReferenceIdeal.Read.val_main_v0 (F := Ideal) (m ((c : Thread nD τ).loc main_arg3)) (m ((c : Thread nD τ).loc main_arg4)) := by
  show (V1 m c main_v0 : S8000x64.Idx → EReal) = _
  dsimp only [V1, W1, W0, hostOps0]
  after_results
  rfl

/-- The same table narrowed, which at the ideal values is the table. -/
theorem V1_v1 (c : Dev nD) :
    (V1 m c (Pipeline.arrRef spec0 1) : S8000x64.Idx → EReal)
      = Cert.ReferenceIdeal.Read.val_main_v0 (F := Ideal) (m ((c : Thread nD τ).loc main_arg3)) (m ((c : Thread nD τ).loc main_arg4)) := by
  show (V1 m c main_v1 : S8000x64.Idx → EReal) = _
  dsimp only [V1, W1, W0, hostOps0]
  after_results
  rfl

/-! ## The first propagation's result -/

/-- After the first propagation call its output array is the reference's first propagation stage of the launch
    arguments, when every entry of the adjacency matrix and of the two embedding tables is a real. -/
theorem v6_eq (c : Dev nD)
    (f0 : ∀ i, ∃ r : ℝ, (m ((c : Thread nD τ).loc main_arg0) : S8000x8000.Idx → EReal) i = (r : EReal))
    (f3 : ∀ i, ∃ r : ℝ, (m ((c : Thread nD τ).loc main_arg3) : S4000x64.Idx → EReal) i = (r : EReal))
    (f4 : ∀ i, ∃ r : ℝ, (m ((c : Thread nD τ).loc main_arg4) : S4000x64.Idx → EReal) i = (r : EReal)) :
    (W2 m c (Proc.devRef .tc main_v6) : S8000x64.Idx → EReal)
      = Cert.ReferenceIdeal.Read.val_main_v10 (F := Ideal) (m ((c : Thread nD τ).loc main_arg0))
          (m ((c : Thread nD τ).loc main_arg3)) (m ((c : Thread nD τ).loc main_arg4)) := by
  refine Cert.RefSide.kprop1_eq_array _ _ _ f0 f3 f4 _ fun i j => ?_
  rw [show (W2 m c (Proc.devRef .tc main_v6) : S8000x64.Idx → EReal) = (dat0 (V1 m) c).arrAt 3 cfg0.N from W2_arr m c 3]
  rw [arr0_apply, Cert.PayProp.pay0_at]
  unfold Cert.PayProp.prop
  simp only [iblk0_0_row, iblk0_1_apply, iblk0_2_row]
  rw [V1_arg0, V1_v1, V1_v0, zero_add]

/-! ## The second propagation's result -/

/-- Region 0 and the first host operations leave the second adjacency matrix as launched. -/
theorem V2_arg1 (c : Dev nD) :
    (V2 m c (Pipeline.arrRef spec1 0) : S4200x4200.Idx → EReal) = m ((c : Thread nD τ).loc main_arg1) :=
  (W2_of_ne m c main_arg1 (by decide)).trans (StableHlo.after_of_writes_sub hostOps0 _ hostOps0_writes (by decide))

/-- The second table: the group rows over the user rows; region 0 does not touch it. -/
theorem V2_v2 (c : Dev nD) :
    (V2 m c (Pipeline.arrRef spec1 2) : S4200x64.Idx → EReal)
      = Cert.ReferenceIdeal.Read.val_main_v11 (F := Ideal) (m ((c : Thread nD τ).loc main_arg3)) (m ((c : Thread nD τ).loc main_arg5)) := by
  refine (W2_of_ne m c main_v2 (by decide)).trans ?_
  show (V1 m c main_v2 : S4200x64.Idx → EReal) = _
  dsimp only [V1, W1, W0, hostOps0]
  after_results
  rfl

/-- The same table narrowed. -/
theorem V2_v3 (c : Dev nD) :
    (V2 m c (Pipeline.arrRef spec1 1) : S4200x64.Idx → EReal)
      = Cert.ReferenceIdeal.Read.val_main_v11 (F := Ideal) (m ((c : Thread nD τ).loc main_arg3)) (m ((c : Thread nD τ).loc main_arg5)) := by
  refine (W2_of_ne m c main_v3 (by decide)).trans ?_
  show (V1 m c main_v3 : S4200x64.Idx → EReal) = _
  dsimp only [V1, W1, W0, hostOps0]
  after_results
  rfl

/-- After the second propagation call its output array is the reference's second propagation stage. -/
theorem v7_eq (c : Dev nD)
    (f1 : ∀ i, ∃ r : ℝ, (m ((c : Thread nD τ).loc main_arg1) : S4200x4200.Idx → EReal) i = (r : EReal))
    (f3 : ∀ i, ∃ r : ℝ, (m ((c : Thread nD τ).loc main_arg3) : S4000x64.Idx → EReal) i = (r : EReal))
    (f5 : ∀ i, ∃ r : ℝ, (m ((c : Thread nD τ).loc main_arg5) : S200x64.Idx → EReal) i = (r : EReal)) :
    (W3 m c (Proc.devRef .tc main_v7) : S4200x64.Idx → EReal)
      = Cert.ReferenceIdeal.Read.val_main_v21 (F := Ideal) (m ((c : Thread nD τ).loc main_arg1))
          (m ((c : Thread nD τ).loc main_arg3)) (m ((c : Thread nD τ).loc main_arg5)) := by
  refine Cert.RefSide.kprop2_eq_array _ _ _ f1 f3 f5 _ fun i j => ?_
  rw [show (W3 m c (Proc.devRef .tc main_v7) : S4200x64.Idx → EReal) = (dat1 (V2 m) c).arrAt 3 cfg1.N from W3_arr m c 3]
  rw [arr1_apply, Cert.PayProp.pay1_at]
  unfold Cert.PayProp.prop
  simp only [iblk1_0_row, iblk1_1_apply, iblk1_2_row]
  rw [V2_arg1, V2_v3, V2_v2, zero_add]

/-! ## The third propagation's result -/

/-- Regions 0 and 1 and the first host operations leave the third adjacency matrix as launched. -/
theorem V3_arg2 (c : Dev nD) :
    (V3 m c (Pipeline.arrRef spec2 0) : S4200x4200.Idx → EReal) = m ((c : Thread nD τ).loc main_arg2) :=
  (W3_of_ne m c main_arg2 (by decide)).trans ((W2_of_ne m c main_arg2 (by decide)).trans
    (StableHlo.after_of_writes_sub hostOps0 _ hostOps0_writes (by decide)))

/-- The third table: the group rows over the paper rows; regions 0 and 1 do not touch it. -/
theorem V3_v4 (c : Dev nD) :
    (V3 m c (Pipeline.arrRef spec2 2) : S4200x64.Idx → EReal)
      = Cert.ReferenceIdeal.Read.val_main_v22 (F := Ideal) (m ((c : Thread nD τ).loc main_arg4)) (m ((c : Thread nD τ).loc main_arg5)) := by
  refine (W3_of_ne m c main_v4 (by decide)).trans ((W2_of_ne m c main_v4 (by decide)).trans ?_)
  show (V1 m c main_v4 : S4200x64.Idx → EReal) = _
  dsimp only [V1, W1, W0, hostOps0]
  after_results
  rfl

/-- The same table narrowed. -/
theorem V3_v5 (c : Dev nD) :
    (V3 m c (Pipeline.arrRef spec2 1) : S4200x64.Idx → EReal)
      = Cert.ReferenceIdeal.Read.val_main_v22 (F := Ideal) (m ((c : Thread nD τ).loc main_arg4)) (m ((c : Thread nD τ).loc main_arg5)) := by
  refine (W3_of_ne m c main_v5 (by decide)).trans ((W2_of_ne m c main_v5 (by decide)).trans ?_)
  show (V1 m c main_v5 : S4200x64.Idx → EReal) = _
  dsimp only [V1, W1, W0, hostOps0]
  after_results
  rfl

/-- After the third propagation call its output array is the reference's third propagation stage. -/
theorem v8_eq (c : Dev nD)
    (f2 : ∀ i, ∃ r : ℝ, (m ((c : Thread nD τ).loc main_arg2) : S4200x4200.Idx → EReal) i = (r : EReal))
    (f4 : ∀ i, ∃ r : ℝ, (m ((c : Thread nD τ).loc main_arg4) : S4000x64.Idx → EReal) i = (r : EReal))
    (f5 : ∀ i, ∃ r : ℝ, (m ((c : Thread nD τ).loc main_arg5) : S200x64.Idx → EReal) i = (r : EReal)) :
    (W4 m c (Proc.devRef .tc main_v8) : S4200x64.Idx → EReal)
      = Cert.ReferenceIdeal.Read.val_main_v32 (F := Ideal) (m ((c : Thread nD τ).loc main_arg2))
          (m ((c : Thread nD τ).loc main_arg4)) (m ((c : Thread nD τ).loc main_arg5)) := by
  refine Cert.RefSide.kprop3_eq_array _ _ _ f2 f4 f5 _ fun i j => ?_
  rw [show (W4 m c (Proc.devRef .tc main_v8) : S4200x64.Idx → EReal) = (dat2 (V3 m) c).arrAt 3 cfg2.N from W4_arr m c 3]
  rw [arr2_apply, Cert.PayProp.pay2_at]
  unfold Cert.PayProp.prop
  simp only [iblk2_0_row, iblk2_1_apply, iblk2_2_row]
  rw [V3_arg2, V3_v5, V3_v4, zero_add]

/-! ## The three results at the last boundary before the second host stretch -/

/-- The first result is still there after the second and third calls. -/
theorem v6_at_W4 (c : Dev nD)
    (f0 : ∀ i, ∃ r : ℝ, (m ((c : Thread nD τ).loc main_arg0) : S8000x8000.Idx → EReal) i = (r : EReal))
    (f3 : ∀ i, ∃ r : ℝ, (m ((c : Thread nD τ).loc main_arg3) : S4000x64.Idx → EReal) i = (r : EReal))
    (f4 : ∀ i, ∃ r : ℝ, (m ((c : Thread nD τ).loc main_arg4) : S4000x64.Idx → EReal) i = (r : EReal)) :
    (W4 m c (Proc.devRef .tc main_v6) : S8000x64.Idx → EReal)
      = Cert.ReferenceIdeal.Read.val_main_v10 (F := Ideal) (m ((c : Thread nD τ).loc main_arg0))
          (m ((c : Thread nD τ).loc main_arg3)) (m ((c : Thread nD τ).loc main_arg4)) :=
  (W4_of_ne m c main_v6 (by decide)).trans ((W3_of_ne m c main_v6 (by decide)).trans (v6_eq m c f0 f3 f4))

/-- The second result is still there after the third call. -/
theorem v7_at_W4 (c : Dev nD)
    (f1 : ∀ i, ∃ r : ℝ, (m ((c : Thread nD τ).loc main_arg1) : S4200x4200.Idx → EReal) i = (r : EReal))
    (f3 : ∀ i, ∃ r : ℝ, (m ((c : Thread nD τ).loc main_arg3) : S4000x64.Idx → EReal) i = (r : EReal))
    (f5 : ∀ i, ∃ r : ℝ, (m ((c : Thread nD τ).loc main_arg5) : S200x64.Idx → EReal) i = (r : EReal)) :
    (W4 m c (Proc.devRef .tc main_v7) : S4200x64.Idx → EReal)
      = Cert.ReferenceIdeal.Read.val_main_v21 (F := Ideal) (m ((c : Thread nD τ).loc main_arg1))
          (m ((c : Thread nD τ).loc main_arg3)) (m ((c : Thread nD τ).loc main_arg5)) :=
  (W4_of_ne m c main_v7 (by decide)).trans (v7_eq m c f1 f3 f5)

end Cert.KI

end
-- ==== Proof.Bridge3.lean ====
/-
  What the second host stretch leaves: the two paper tables the attention call reads are slices of the propagation
  results, and the gathered user features are the same host operations the reference applies, applied to the same
  propagation results.
-/
import proofs.«132272_j21028159881436_2_alg».proof.Proof.Bridge012
import proofs.«132272_j21028159881436_2_alg».proof.Proof.Gen.KernelIdeal.Launch
import proofs.«132272_j21028159881436_2_alg».proof.Proof.Gen.KernelIdeal.Skeleton
import proofs.«132272_j21028159881436_2_alg».proof.Proof.Gen.KernelIdeal.Points
import proofs.«132272_j21028159881436_2_alg».proof.Proof.RunI
import proofs.«132272_j21028159881436_2_alg».proof.Proof.Gen.KernelIdeal.Regions
import proofs.«132272_j21028159881436_2_alg».proof.Proof.RefBridge
import Idealize.ShloMosaic.PureOps.Ideal
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The user ids reach the second host stretch as launched: no host operation writes them and no call touches them. -/
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-- The attention matrix is as launched after the second host stretch. -/
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps3 _ hostOps3_writes (by decide)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- The first view's item table the attention call reads — rows 4000‥7999 of the first propagation's result — is the
    reference's first view, once the propagation's result is the reference's. -/
theorem t10_eq (c : Dev nD)
    (h6 : (W4 m c (Proc.devRef .tc main_v6) : S8000x64.Idx → EReal)
      = Cert.ReferenceIdeal.Read.val_main_v10 (F := Ideal) (m ((c : Thread nD τ).loc main_arg0)) (m ((c : Thread nD τ).loc main_arg3)) (m ((c : Thread nD τ).loc main_arg4))) :
    (W5 m c (Proc.devRef .tc main_v10) : S4000x64.Idx → EReal)
      = Cert.ReferenceIdeal.Read.val_main_v34 (F := Ideal) (m ((c : Thread nD τ).loc main_arg0)) (m ((c : Thread nD τ).loc main_arg3)) (m ((c : Thread nD τ).loc main_arg4)) := by
  have e : (W5 m c (Proc.devRef .tc main_v10) : S4000x64.Idx → EReal)
      = extractStridedSlice S4000x64 ![4000, 0] (W4 m c (Proc.devRef .tc main_v6) : S8000x64.Idx → EReal) slices_S8000x64_S4000x64_4000_0 := by
    dsimp only [W5, hostOps3]; after_results
  rw [e, h6]
  rfl

/-- The second view's item table — rows 200‥4199 of the third propagation's result — is the reference's second view. -/
theorem t12_eq (c : Dev nD)
    (h8 : (W4 m c (Proc.devRef .tc main_v8) : S4200x64.Idx → EReal)
      = Cert.ReferenceIdeal.Read.val_main_v32 (F := Ideal) (m ((c : Thread nD τ).loc main_arg2)) (m ((c : Thread nD τ).loc main_arg4)) (m ((c : Thread nD τ).loc main_arg5))) :
    (W5 m c (Proc.devRef .tc main_v12) : S4000x64.Idx → EReal)
      = Cert.ReferenceIdeal.Read.val_main_v36 (F := Ideal) (m ((c : Thread nD τ).loc main_arg2)) (m ((c : Thread nD τ).loc main_arg4)) (m ((c : Thread nD τ).loc main_arg5)) := by
  have e : (W5 m c (Proc.devRef .tc main_v12) : S4000x64.Idx → EReal)
      = extractStridedSlice S4000x64 ![200, 0] (W4 m c (Proc.devRef .tc main_v8) : S4200x64.Idx → EReal) slices_S4200x64_S4000x64_200_0 := by
    dsimp only [W5, hostOps3]; after_results
  rw [e, h8]
  rfl

/-- The gathered user features: the same host operations the reference applies — slice, add, halve, normalise the ids,
    gather — applied to the same propagation results and the same ids. -/
theorem feat_eq (c : Dev nD)
    (h6 : (W4 m c (Proc.devRef .tc main_v6) : S8000x64.Idx → EReal)
      = Cert.ReferenceIdeal.Read.val_main_v10 (F := Ideal) (m ((c : Thread nD τ).loc main_arg0)) (m ((c : Thread nD τ).loc main_arg3)) (m ((c : Thread nD τ).loc main_arg4)))
    (h7 : (W4 m c (Proc.devRef .tc main_v7) : S4200x64.Idx → EReal)
      = Cert.ReferenceIdeal.Read.val_main_v21 (F := Ideal) (m ((c : Thread nD τ).loc main_arg1)) (m ((c : Thread nD τ).loc main_arg3)) (m ((c : Thread nD τ).loc main_arg5))) :
    (W5 m c (Proc.devRef .tc main_v22) : S512x64.Idx → EReal)
      = Cert.ReferenceIdeal.Read.val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) := by
  have e : (W5 m c (Proc.devRef .tc main_v22) : S512x64.Idx → EReal)
      = Host.gather gather_S4000x64_S512x1_S512x64_1_0_n_n_0_1_164
          (mulf
            (addf (extractStridedSlice S4000x64 ![0, 0] (W4 m c (Proc.devRef .tc main_v6) : S8000x64.Idx → EReal) slices_S8000x64_S4000x64_0_0)
              (extractStridedSlice S4000x64 ![200, 0] (W4 m c (Proc.devRef .tc main_v7) : S4200x64.Idx → EReal) slices_S4200x64_S4000x64_200_0))
            (broadcastInDim S4000x64 ![] bcast_S_S4000x64 (constant (F := Ideal) S_ .f32 0x3F000000#32)))
          (broadcastInDim S512x1 ![0] bcast_S512_S512x1_0
            (select
              (cmpi .slt (W4 m c (Proc.devRef .tc main_arg7)) (broadcastInDim S512 ![] bcast_S_S512 (constantI S_ 32 0#32)))
              (addi (W4 m c (Proc.devRef .tc main_arg7)) (broadcastInDim S512 ![] bcast_S_S512 (constantI S_ 32 4000#32)))
              (W4 m c (Proc.devRef .tc main_arg7)))) := by
    dsimp only [W5, hostOps3]; after_results
  rw [e, h6, h7, W4_main_arg7]
  rfl

end Cert.KI

end
-- ==== Proof.Bridge23.lean ====
/-
  The scores, joined: after the attention call its result array holds the reference's scores stage of the launch
  arguments, given that the call's three computed inputs — the gathered user features and the two view tables — hold
  the reference's corresponding stages when the call starts. The array after the run is, index by index, the body's
  value of the input blocks at the covering point; inside the result the body's value is the two-view attention score
  of the user's row against the item's two view rows; the blocks' rows are the rows of the arrays the call reads; and
  the kernel's score is the reference's.
-/
import proofs.«132272_j21028159881436_2_alg».proof.Proof.Bridge3
import proofs.«132272_j21028159881436_2_alg».proof.Proof.RunI
import proofs.«132272_j21028159881436_2_alg».proof.Proof.ReadBack
import proofs.«132272_j21028159881436_2_alg».proof.Proof.Final3
import proofs.«132272_j21028159881436_2_alg».proof.Proof.PayAttn
import proofs.«132272_j21028159881436_2_alg».proof.Proof.ScoreBridge
import proofs.«132272_j21028159881436_2_alg».proof.Proof.Gen.KernelIdeal.Regions
import Idealize.ShloMosaic.Lib.StableHlo.Run
import Idealize.ShloMosaic.PureOps.Ideal

set_option maxRecDepth 16384

noncomputable section

namespace Cert.KI

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The attention matrix reaches the attention call as launched: no host operation writes it and no earlier call's
    write-back touches it. -/
theorem W5_arg6_kept (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps3 _ hostOps3_writes (by decide)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- After the attention call its result array is the reference's scores stage of the launch arguments, when the
    gathered user features and the two view tables the call reads are the reference's stages. -/
theorem scores_of (c : Dev nD)
    (h22 : (W5 m c (Proc.devRef .tc main_v22) : S512x64.Idx → EReal)
      = Cert.ReferenceIdeal.Read.val_main_v46 (F := Ideal) (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg7)))
    (h10 : (W5 m c (Proc.devRef .tc main_v10) : S4000x64.Idx → EReal)
      = Cert.ReferenceIdeal.Read.val_main_v34 (F := Ideal) (m ((c : Thread nD τ).loc main_arg0))
          (m ((c : Thread nD τ).loc main_arg3)) (m ((c : Thread nD τ).loc main_arg4)))
    (h12 : (W5 m c (Proc.devRef .tc main_v12) : S4000x64.Idx → EReal)
      = Cert.ReferenceIdeal.Read.val_main_v36 (F := Ideal) (m ((c : Thread nD τ).loc main_arg2))
          (m ((c : Thread nD τ).loc main_arg4)) (m ((c : Thread nD τ).loc main_arg5))) :
    (W6 m c (Proc.devRef .tc main_v23) : S512x4000.Idx → EReal)
      = Cert.ReferenceIdeal.Read.val_main_v69 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [show (W6 m c (Proc.devRef .tc main_v23) : S512x4000.Idx → EReal) = (dat3 (V5 m) c).arrAt 4 cfg3.N from W6_main_v23 m c]
  funext i
  obtain ⟨b, p, rfl⟩ : ∃ (b : Fin 512) (p : Fin 4000), i = ix2 b p := ⟨i 0, i 1, eq_ix2 i⟩
  have hin : 512 * (point3 p).val + (col3 p).val < 4000 := by rw [point3_col3]; exact p.isLt
  rw [arr3_apply, Cert.PayAttn.pay3_eq, if_pos (by rw [coords3_val]; omega), Cert.RefSide.scores_eq_score3]
  have e0 : (fun e : Fin 64 => (iblk3 (V5 m) c 0 (point3 p) : Vec Ideal S512x64 .f32) (ix2 b e))
      = fun e : Fin 64 => Cert.ReferenceIdeal.Read.val_main_v46 (F := Ideal) (m ((c : Thread nD τ).loc main_arg0))
          (m ((c : Thread nD τ).loc main_arg1)) (m ((c : Thread nD τ).loc main_arg3)) (m ((c : Thread nD τ).loc main_arg4))
          (m ((c : Thread nD τ).loc main_arg5)) (m ((c : Thread nD τ).loc main_arg7)) (ix2 b e) := funext fun e => by
    rw [iblk3_0_apply]
    show (W5 m c (Proc.devRef .tc main_v22) : S512x64.Idx → EReal) (ix2 b e) = _
    rw [h22]
  have e1 : (iblk3 (V5 m) c 1 (point3 p) : Vec Ideal S64x64 .f32) = m ((c : Thread nD τ).loc main_arg6) := funext fun q => by
    obtain ⟨e, d, rfl⟩ : ∃ (e d : Fin 64), q = ix2 e d := ⟨q 0, q 1, eq_ix2 q⟩
    rw [iblk3_1_apply]
    show (W5 m c (Proc.devRef .tc main_arg6) : S64x64.Idx → EReal) (ix2 e d) = _
    rw [W5_arg6_kept]
  have e2 : (fun d : Fin 64 => fblk3_2 (V5 m) c (point3 p) (ix2 (col3 p) d))
      = fun d : Fin 64 => Cert.ReferenceIdeal.Read.val_main_v34 (F := Ideal) (m ((c : Thread nD τ).loc main_arg0))
          (m ((c : Thread nD τ).loc main_arg3)) (m ((c : Thread nD τ).loc main_arg4)) (ix2 p d) := funext fun d => by
    rw [fblk3_2_apply (V5 m) c (point3 p) (col3 p) d hin]
    show (W5 m c (Proc.devRef .tc main_v10) : S4000x64.Idx → EReal) (ix2 ⟨512 * (point3 p).val + (col3 p).val, hin⟩ d) = _
    rw [h10, show (⟨512 * (point3 p).val + (col3 p).val, hin⟩ : Fin 4000) = p from Fin.ext (point3_col3 p)]
  have e3 : (fun d : Fin 64 => fblk3_3 (V5 m) c (point3 p) (ix2 (col3 p) d))
      = fun d : Fin 64 => Cert.ReferenceIdeal.Read.val_main_v36 (F := Ideal) (m ((c : Thread nD τ).loc main_arg2))
          (m ((c : Thread nD τ).loc main_arg4)) (m ((c : Thread nD τ).loc main_arg5)) (ix2 p d) := funext fun d => by
    rw [fblk3_3_apply (V5 m) c (point3 p) (col3 p) d hin]
    show (W5 m c (Proc.devRef .tc main_v12) : S4000x64.Idx → EReal) (ix2 ⟨512 * (point3 p).val + (col3 p).val, hin⟩ d) = _
    rw [h12, show (⟨512 * (point3 p).val + (col3 p).val, hin⟩ : Fin 4000) = p from Fin.ext (point3_col3 p)]
  rw [e0, e1, e2, e3]

end Cert.KI

end
-- ==== Proof.Join.lean ====
/-
  The two results of the idealised kernel's run are the reference's two stages of the same arguments: the gathered
  user features because the propagation results agree (the inputs being finite) and the host operations after them
  are the same; the scores because, besides, a score is the same function of one user's features, the attention matrix
  and one paper's two embeddings on both sides.
-/
import proofs.«132272_j21028159881436_2_alg».proof.Proof.Gen.KernelIdeal.Launch
import proofs.«132272_j21028159881436_2_alg».proof.Proof.Gen.KernelIdeal.Skeleton
import proofs.«132272_j21028159881436_2_alg».proof.Proof.Gen.KernelIdeal.Points
import proofs.«132272_j21028159881436_2_alg».proof.Defs
import proofs.«132272_j21028159881436_2_alg».proof.Proof.ReadBack
import proofs.«132272_j21028159881436_2_alg».proof.Proof.Finite
import proofs.«132272_j21028159881436_2_alg».proof.Proof.Bridge012
import proofs.«132272_j21028159881436_2_alg».proof.Proof.Bridge3
import proofs.«132272_j21028159881436_2_alg».proof.Proof.Bridge23
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The gathered user features the run ends with are the reference's. -/
theorem feats_eq (hpre : Cert.Pre_KernelIdeal m) (c : Dev nD) :
    W6 m c (Proc.devRef .tc main_v22) = Cert.ReferenceIdeal.Read.val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) := by
  obtain ⟨f0, f1, f2, f3, f4, f5, f6⟩ := Cert.Finite.of_pre m hpre c
  exact (W6_main_v22 m c).trans (feat_eq m c (v6_at_W4 m c f0 f3 f4) (v7_at_W4 m c f1 f3 f5))

/-- The scores the run ends with are the reference's. -/
theorem scores_eq (hpre : Cert.Pre_KernelIdeal m) (c : Dev nD) :
    W6 m c (Proc.devRef .tc main_v23) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨f0, f1, f2, f3, f4, f5, f6⟩ := Cert.Finite.of_pre m hpre c
  have h6 := v6_at_W4 m c f0 f3 f4
  exact scores_of m c (feat_eq m c h6 (v7_at_W4 m c f1 f3 f5)) (t10_eq m c h6) (t12_eq m c (v8_eq m c f2 f4 f5))

end Cert.KI

end
-- ==== Proof.RegB0.lean ====
/-
  One propagation call (the user–paper graph, 8000 rows in 25 blocks of 320) as a pipeline over row blocks: at each grid point the body reads a block of
  rows of the adjacency matrix, the whole embedding table and the matching rows of the table again, and stores
  (x + (A·x) / max(rowsum A, ε)) · ½ for those rows. This module states, at any float instance, what each staging
  buffer holds around the body at a point (the input blocks; the stored value as a function of them), runs the body,
  and packages the per-point obligation of the pipeline. The region's entry contents are a parameter `V`.
-/
import proofs.«132272_j21028159881436_2_alg».proof.Proof.Join
import proofs.«132272_j21028159881436_2_alg».proof.Proof.Gen.Kernel.Launch
import proofs.«132272_j21028159881436_2_alg».proof.Proof.Gen.Kernel.Skeleton
import proofs.«132272_j21028159881436_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_A : Rect S320x8000 := Rect.unit (s := S320x8000) ![0, 0] S320x8000.size inb_S320x8000_S320x8000_0_0
abbrev r0_X : Rect S8000x64 := Rect.unit (s := S8000x64) ![0, 0] S8000x64.size inb_S8000x64_S8000x64_0_0
abbrev r0_B : Rect S320x64 := Rect.unit (s := S320x64) ![0, 0] S320x64.size inb_S320x64_S320x64_0_0

/-- The output buffer after the body: its one whole store, of the body's value of the three loaded blocks. -/
def out0_3 (x0 : Vec F S320x8000 .f32) (x1 : Vec F S8000x64 .bf16) (x2 : Vec F S320x64 .f32) : Vec F S320x64 .f32 :=
  View.canon [⟨r0_B, k0_pay1 (View.ld x0 r0_A) (View.ld x1 r0_X) (View.ld x2 r0_B)⟩]

/-- The one store covers the buffer. -/
theorem cover0_3 (p0 : Vec F S320x64 .f32) (y : S320x64.Idx) :
    ∃ pc ∈ ([⟨r0_B, p0⟩] : List (View.Piece (Elt F) S320x64 .f32)), y ∈ pc.1.set :=
  View.cover_of_tiled [⟨r0_B, p0⟩] S320x64.size (by rfl) y

set_option maxHeartbeats 2000000 in
/-- The body on whole staging memrefs, the inputs' at known contents and the output's at anything, runs to the
    continuation holding the inputs' as they were and the output's at `out0_3` of them. -/
theorem sound_kernel0 (c : Dev nD) (E : Set ℕ) (i : grid0.Coords)
    (arg1 : Memref sig .tc .vmem S320x8000 .f32) (harg1 : arg1.IsWhole) (arg2 : Memref sig .tc .vmem S8000x64 .bf16) (harg2 : arg2.IsWhole)
    (arg3 : Memref sig .tc .vmem S320x64 .f32) (harg3 : arg3.IsWhole) (arg4 : Memref sig .tc .vmem S320x64 .f32) (harg4 : arg4.IsWhole)
    (x0 : Vec F S320x8000 .f32) (x1 : Vec F S8000x64 .bf16) (x2 : Vec F S320x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__propagate_kernel i arg1 harg1 arg2 harg2 arg3 harg3 arg4 harg4) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body at point `t`
    each input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KB

end
-- ==== Proof.RegB1.lean ====
/-
  One propagation call (the group–user graph, 4200 rows in 25 blocks of 168) as a pipeline over row blocks: at each grid point the body reads a block of
  rows of the adjacency matrix, the whole embedding table and the matching rows of the table again, and stores
  (x + (A·x) / max(rowsum A, ε)) · ½ for those rows. This module states, at any float instance, what each staging
  buffer holds around the body at a point (the input blocks; the stored value as a function of them), runs the body,
  and packages the per-point obligation of the pipeline. The region's entry contents are a parameter `V`.
-/
import proofs.«132272_j21028159881436_2_alg».proof.Proof.RegB0
import proofs.«132272_j21028159881436_2_alg».proof.Proof.Gen.Kernel.Launch
import proofs.«132272_j21028159881436_2_alg».proof.Proof.Gen.Kernel.Skeleton
import proofs.«132272_j21028159881436_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_A : Rect S168x4200 := Rect.unit (s := S168x4200) ![0, 0] S168x4200.size inb_S168x4200_S168x4200_0_0
abbrev r1_X : Rect S4200x64 := Rect.unit (s := S4200x64) ![0, 0] S4200x64.size inb_S4200x64_S4200x64_0_0
abbrev r1_B : Rect S168x64 := Rect.unit (s := S168x64) ![0, 0] S168x64.size inb_S168x64_S168x64_0_0

/-- The output buffer after the body: its one whole store, of the body's value of the three loaded blocks. -/
def out1_3 (x0 : Vec F S168x4200 .f32) (x1 : Vec F S4200x64 .bf16) (x2 : Vec F S168x64 .f32) : Vec F S168x64 .f32 :=
  View.canon [⟨r1_B, k1_pay1 (View.ld x0 r1_A) (View.ld x1 r1_X) (View.ld x2 r1_B)⟩]

/-- The one store covers the buffer. -/
theorem cover1_3 (p0 : Vec F S168x64 .f32) (y : S168x64.Idx) :
    ∃ pc ∈ ([⟨r1_B, p0⟩] : List (View.Piece (Elt F) S168x64 .f32)), y ∈ pc.1.set :=
  View.cover_of_tiled [⟨r1_B, p0⟩] S168x64.size (by rfl) y

set_option maxHeartbeats 2000000 in
/-- The body on whole staging memrefs, the inputs' at known contents and the output's at anything, runs to the
    continuation holding the inputs' as they were and the output's at `out1_3` of them. -/
theorem sound_kernel1 (c : Dev nD) (E : Set ℕ) (i : grid1.Coords)
    (arg1 : Memref sig .tc .vmem S168x4200 .f32) (harg1 : arg1.IsWhole) (arg2 : Memref sig .tc .vmem S4200x64 .bf16) (harg2 : arg2.IsWhole)
    (arg3 : Memref sig .tc .vmem S168x64 .f32) (harg3 : arg3.IsWhole) (arg4 : Memref sig .tc .vmem S168x64 .f32) (harg4 : arg4.IsWhole)
    (x0 : Vec F S168x4200 .f32) (x1 : Vec F S4200x64 .bf16) (x2 : Vec F S168x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__propagate_kernel i arg1 harg1 arg2 harg2 arg3 harg3 arg4 harg4) K := by
  simp only [cc1__propagate_kernel_eq_skeleton]; unfold cc1__propagate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t`
    each input's buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KB

end
-- ==== Proof.RegB2.lean ====
/-
  One propagation call (the group–paper graph, 4200 rows in 25 blocks of 168) as a pipeline over row blocks: at each grid point the body reads a block of
  rows of the adjacency matrix, the whole embedding table and the matching rows of the table again, and stores
  (x + (A·x) / max(rowsum A, ε)) · ½ for those rows. This module states, at any float instance, what each staging
  buffer holds around the body at a point (the input blocks; the stored value as a function of them), runs the body,
  and packages the per-point obligation of the pipeline. The region's entry contents are a parameter `V`.
-/
import proofs.«132272_j21028159881436_2_alg».proof.Proof.RegB1
import proofs.«132272_j21028159881436_2_alg».proof.Proof.Gen.Kernel.Launch
import proofs.«132272_j21028159881436_2_alg».proof.Proof.Gen.Kernel.Skeleton
import proofs.«132272_j21028159881436_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_A : Rect S168x4200 := Rect.unit (s := S168x4200) ![0, 0] S168x4200.size inb_S168x4200_S168x4200_0_0
abbrev r2_X : Rect S4200x64 := Rect.unit (s := S4200x64) ![0, 0] S4200x64.size inb_S4200x64_S4200x64_0_0
abbrev r2_B : Rect S168x64 := Rect.unit (s := S168x64) ![0, 0] S168x64.size inb_S168x64_S168x64_0_0

/-- The output buffer after the body: its one whole store, of the body's value of the three loaded blocks. -/
def out2_3 (x0 : Vec F S168x4200 .f32) (x1 : Vec F S4200x64 .bf16) (x2 : Vec F S168x64 .f32) : Vec F S168x64 .f32 :=
  View.canon [⟨r2_B, k2_pay1 (View.ld x0 r2_A) (View.ld x1 r2_X) (View.ld x2 r2_B)⟩]

/-- The one store covers the buffer. -/
theorem cover2_3 (p0 : Vec F S168x64 .f32) (y : S168x64.Idx) :
    ∃ pc ∈ ([⟨r2_B, p0⟩] : List (View.Piece (Elt F) S168x64 .f32)), y ∈ pc.1.set :=
  View.cover_of_tiled [⟨r2_B, p0⟩] S168x64.size (by rfl) y

set_option maxHeartbeats 2000000 in
/-- The body on whole staging memrefs, the inputs' at known contents and the output's at anything, runs to the
    continuation holding the inputs' as they were and the output's at `out2_3` of them. -/
theorem sound_kernel2 (c : Dev nD) (E : Set ℕ) (i : grid2.Coords)
    (arg1 : Memref sig .tc .vmem S168x4200 .f32) (harg1 : arg1.IsWhole) (arg2 : Memref sig .tc .vmem S4200x64 .bf16) (harg2 : arg2.IsWhole)
    (arg3 : Memref sig .tc .vmem S168x64 .f32) (harg3 : arg3.IsWhole) (arg4 : Memref sig .tc .vmem S168x64 .f32) (harg4 : arg4.IsWhole)
    (x0 : Vec F S168x4200 .f32) (x1 : Vec F S4200x64 .bf16) (x2 : Vec F S168x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__propagate_kernel i arg1 harg1 arg2 harg2 arg3 harg3 arg4 harg4) K := by
  simp only [cc2__propagate_kernel_eq_skeleton]; unfold cc2__propagate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t`
    each input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KB

end
-- ==== Proof.RegB3.lean ====
/-
  The attention call's body on whole staging buffers, at any float instance: it reads the gathered user features, the
  attention matrix and 512 rows of each of the two paper tables, and stores one 512×512 block of scores, a function
  of the four values read. Stated from any contents of the four input buffers, so that it applies whatever the
  pipeline's clipped fetches left in the rows past the tables' end.
-/
import proofs.«132272_j21028159881436_2_alg».proof.Proof.RegB2
import proofs.«132272_j21028159881436_2_alg».proof.Proof.Gen.Kernel.Launch
import proofs.«132272_j21028159881436_2_alg».proof.Proof.Gen.Kernel.Skeleton
import proofs.«132272_j21028159881436_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

abbrev r3_u : Rect S512x64 := Rect.unit (s := S512x64) ![0, 0] S512x64.size inb_S512x64_S512x64_0_0
abbrev r3_w : Rect S64x64 := Rect.unit (s := S64x64) ![0, 0] S64x64.size inb_S64x64_S64x64_0_0
abbrev r3_o : Rect S512x512 := Rect.unit (s := S512x512) ![0, 0] S512x512.size inb_S512x512_S512x512_0_0

/-- The result's buffer after the body: its one whole store, of the body's value of the four loaded blocks. -/
def out3_4 {F : FTy → Type} [FloatOps F] (i : grid3.Coords) (x0 : Vec F S512x64 .f32) (x1 : Vec F S64x64 .f32) (x2 x3 : Vec F S512x64 .f32) : Vec F S512x512 .f32 :=
  View.canon [⟨r3_o, k3_pay1 i (View.ld x0 r3_u) (View.ld x1 r3_w) (View.ld x2 r3_u) (View.ld x3 r3_u)⟩]

theorem cover3_4 {F : FTy → Type} [FloatOps F] (p0 : Vec F S512x512 .f32) (y : S512x512.Idx) :
    ∃ pc ∈ ([⟨r3_o, p0⟩] : List (View.Piece (Elt F) S512x512 .f32)), y ∈ pc.1.set :=
  View.cover_of_tiled [⟨r3_o, p0⟩] S512x512.size (by rfl) y

set_option maxHeartbeats 2000000 in
/-- The body on whole staging memrefs, at any float instance: the four inputs' at known contents and the result's at
    anything run to the inputs' as they were and the result's at `out3_4` of them. -/
theorem sound_kernel3 {F : FTy → Type} [FloatOps F] (c : Dev nD) (E : Set ℕ) (i : grid3.Coords)
    (arg1 : Memref sig .tc .vmem S512x64 .f32) (harg1 : arg1.IsWhole) (arg2 : Memref sig .tc .vmem S64x64 .f32) (harg2 : arg2.IsWhole)
    (arg3 : Memref sig .tc .vmem S512x64 .f32) (harg3 : arg3.IsWhole) (arg4 : Memref sig .tc .vmem S512x64 .f32) (harg4 : arg4.IsWhole)
    (arg5 : Memref sig .tc .vmem S512x512 .f32) (harg5 : arg5.IsWhole)
    (x0 : Vec F S512x64 .f32) (x1 : Vec F S64x64 .f32) (x2 x3 : Vec F S512x64 .f32)
    (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 i x0 x1 x2 x3)) -∗ K ⟨⟩))
      ⊢ wp frame (wpE (defs₀ (F := F)) Variants.none c none) E (cc3__attn_kernel i arg1 harg1 arg2 harg2 arg3 harg3 arg4 harg4 arg5 harg5) K := by
  simp only [cc3__attn_kernel_eq_skeleton]; unfold cc3__attn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

end Cert.KB

end
-- ==== Proof.FrameRKernel.lean ====
/-
  The whole program as a run of six pieces — a stretch of host operations, three propagation calls, a second stretch
  of host operations, the attention call — and the claim that every argument array ends as launched, at any float
  instance. The three propagation calls tile their arrays, so what each leaves in its result is a closed function of
  what it finds; the buffer contents between pieces are therefore named by a fold from the launch memory. The
  attention call's blocks overhang its paper tables and its result, so what it leaves in the result is only
  constrained, not named: its proof data relate what the body finds in a buffer to what it leaves there by the
  relation that always holds. It is the last piece, so nothing downstream needs its result; its input arrays are never
  written, and every other buffer bypasses it.
-/
import proofs.«132272_j21028159881436_2_alg».proof.Proof.RegB0
import proofs.«132272_j21028159881436_2_alg».proof.Proof.RegB1
import proofs.«132272_j21028159881436_2_alg».proof.Proof.RegB2
import proofs.«132272_j21028159881436_2_alg».proof.Proof.RegB3
import proofs.«132272_j21028159881436_2_alg».proof.Proof.Gen.Kernel.Regions

set_option maxRecDepth 16384

noncomputable section

namespace Cert.FrameR.Kernel

open Cert.Kernel Cert.Kernel.Gen Cert.KB
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold from the launch memory -/

/-- Core `c`'s buffers at launch. -/
abbrev W0 : Dev nD → Valuation τ sig (Elt F) := fun c b => m (c, b)
/-- After the first host stretch (the first propagation call's entry). -/
abbrev W1 : Dev nD → Valuation τ sig (Elt F) := fun c => StableHlo.after hostOps0 (W0 m c)
/-- The same read at the TensorCore's references. -/
abbrev En0 : (c : Dev nD) → (b : Ref sig .tc) → Buf (Elt F) ((c : Thread nD τ).loc b) := fun c b => W1 m c b

/-- At propagation call 0's exit: its arrays at what the pipeline leaves (the inputs as entered, the result's
    write-backs folded), every other buffer as entered. -/
def W2 (c : Dev nD) : Valuation τ sig (Elt F) :=
  Pipeline.withArrays spec0 c (W1 m c) fun w => (dat0 (En0 m) c).arrAt w cfg0.N
theorem W2_arr (c : Dev nD) (w : Fin cfg0.W) :
    W2 m c (Proc.devRef .tc (Pipeline.arrRef spec0 w)) = (dat0 (En0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input array of the call is as entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (En0 m) c).arrAt_in w hin _).trans (A_eq0 (En0 m) c w))
/-- The same read at the TensorCore's references. -/
abbrev En1 : (c : Dev nD) → (b : Ref sig .tc) → Buf (Elt F) ((c : Thread nD τ).loc b) := fun c b => W2 m c b
theorem hF0 (c : Dev nD) (w : Fin cfg0.W) : (dat0 (En0 m) c).arrAt w cfg0.N = En1 m c (Pipeline.arrRef spec0 w) :=
  (W2_arr m c w).symm
theorem hrest0 (c : Dev nD) : ∀ b, b ∉ Finset.univ.image (Pipeline.arrRef spec0) → En1 m c b = En0 m c b :=
  fun b hb => W2_of_ne m c b fun w e => hb (Finset.mem_image.mpr ⟨w, Finset.mem_univ _, e⟩)

/-- At propagation call 1's exit: its arrays at what the pipeline leaves (the inputs as entered, the result's
    write-backs folded), every other buffer as entered. -/
def W3 (c : Dev nD) : Valuation τ sig (Elt F) :=
  Pipeline.withArrays spec1 c (W2 m c) fun w => (dat1 (En1 m) c).arrAt w cfg1.N
theorem W3_arr (c : Dev nD) (w : Fin cfg1.W) :
    W3 m c (Proc.devRef .tc (Pipeline.arrRef spec1 w)) = (dat1 (En1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- An input array of the call is as entered. -/
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (En1 m) c).arrAt_in w hin _).trans (A_eq1 (En1 m) c w))
/-- The same read at the TensorCore's references. -/
abbrev En2 : (c : Dev nD) → (b : Ref sig .tc) → Buf (Elt F) ((c : Thread nD τ).loc b) := fun c b => W3 m c b
theorem hF1 (c : Dev nD) (w : Fin cfg1.W) : (dat1 (En1 m) c).arrAt w cfg1.N = En2 m c (Pipeline.arrRef spec1 w) :=
  (W3_arr m c w).symm
theorem hrest1 (c : Dev nD) : ∀ b, b ∉ Finset.univ.image (Pipeline.arrRef spec1) → En2 m c b = En1 m c b :=
  fun b hb => W3_of_ne m c b fun w e => hb (Finset.mem_image.mpr ⟨w, Finset.mem_univ _, e⟩)

/-- At propagation call 2's exit: its arrays at what the pipeline leaves (the inputs as entered, the result's
    write-backs folded), every other buffer as entered. -/
def W4 (c : Dev nD) : Valuation τ sig (Elt F) :=
  Pipeline.withArrays spec2 c (W3 m c) fun w => (dat2 (En2 m) c).arrAt w cfg2.N
theorem W4_arr (c : Dev nD) (w : Fin cfg2.W) :
    W4 m c (Proc.devRef .tc (Pipeline.arrRef spec2 w)) = (dat2 (En2 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- An input array of the call is as entered. -/
theorem W4_in (c : Dev nD) (w : Fin cfg2.W) (hin : (cfg2.win w).isOut = false) :
    W4 m c (Proc.devRef .tc (Pipeline.arrRef spec2 w)) = W3 m c (Proc.devRef .tc (Pipeline.arrRef spec2 w)) :=
  (W4_arr m c w).trans (((dat2 (En2 m) c).arrAt_in w hin _).trans (A_eq2 (En2 m) c w))
/-- The same read at the TensorCore's references. -/
abbrev Ex2 : (c : Dev nD) → (b : Ref sig .tc) → Buf (Elt F) ((c : Thread nD τ).loc b) := fun c b => W4 m c b
theorem hF2 (c : Dev nD) (w : Fin cfg2.W) : (dat2 (En2 m) c).arrAt w cfg2.N = Ex2 m c (Pipeline.arrRef spec2 w) :=
  (W4_arr m c w).symm
theorem hrest2 (c : Dev nD) : ∀ b, b ∉ Finset.univ.image (Pipeline.arrRef spec2) → Ex2 m c b = En2 m c b :=
  fun b hb => W4_of_ne m c b fun w e => hb (Finset.mem_image.mpr ⟨w, Finset.mem_univ _, e⟩)

/-- After the second host stretch (the attention call's entry). -/
abbrev W5 : Dev nD → Valuation τ sig (Elt F) := fun c => StableHlo.after hostOps3 (W4 m c)
/-- The same read at the TensorCore's references. -/
abbrev En3 : (c : Dev nD) → (b : Ref sig .tc) → Buf (Elt F) ((c : Thread nD τ).loc b) := fun c b => W5 m c b

/-! ### The arguments reach the attention call as launched: no host operation writes one, and a propagation call
    reads one through an input window or bypasses it -/

theorem W5_arg (c : Dev nD) (b : Ref sig .tc) (h3 : b ∉ hostOps3_W)
    (h2 : W4 m c (Proc.devRef .tc b) = W3 m c (Proc.devRef .tc b))
    (h1 : W3 m c (Proc.devRef .tc b) = W2 m c (Proc.devRef .tc b))
    (h0 : W2 m c (Proc.devRef .tc b) = W1 m c (Proc.devRef .tc b))
    (hh : b ∉ hostOps0_W) : W5 m c (Proc.devRef .tc b) = m ((c : Thread nD τ).loc b) :=
  (StableHlo.after_of_writes_sub hostOps3 _ hostOps3_writes h3).trans <| h2.trans <| h1.trans <| h0.trans <|
    (StableHlo.after_of_writes_sub hostOps0 _ hostOps0_writes hh).trans rfl

theorem W5_main_arg0 (c : Dev nD) : W5 m c (Proc.devRef .tc main_arg0) = m ((c : Thread nD τ).loc main_arg0) :=
  W5_arg m c main_arg0 (by decide) (W4_of_ne m c main_arg0 (by decide)) (W3_of_ne m c main_arg0 (by decide)) (W2_in m c 0 rfl) (by decide)
theorem W5_main_arg1 (c : Dev nD) : W5 m c (Proc.devRef .tc main_arg1) = m ((c : Thread nD τ).loc main_arg1) :=
  W5_arg m c main_arg1 (by decide) (W4_of_ne m c main_arg1 (by decide)) (W3_in m c 0 rfl) (W2_of_ne m c main_arg1 (by decide)) (by decide)
theorem W5_main_arg2 (c : Dev nD) : W5 m c (Proc.devRef .tc main_arg2) = m ((c : Thread nD τ).loc main_arg2) :=
  W5_arg m c main_arg2 (by decide) (W4_in m c 0 rfl) (W3_of_ne m c main_arg2 (by decide)) (W2_of_ne m c main_arg2 (by decide)) (by decide)
theorem W5_main_arg3 (c : Dev nD) : W5 m c (Proc.devRef .tc main_arg3) = m ((c : Thread nD τ).loc main_arg3) :=
  W5_arg m c main_arg3 (by decide) (W4_of_ne m c main_arg3 (by decide)) (W3_of_ne m c main_arg3 (by decide)) (W2_of_ne m c main_arg3 (by decide)) (by decide)
theorem W5_main_arg4 (c : Dev nD) : W5 m c (Proc.devRef .tc main_arg4) = m ((c : Thread nD τ).loc main_arg4) :=
  W5_arg m c main_arg4 (by decide) (W4_of_ne m c main_arg4 (by decide)) (W3_of_ne m c main_arg4 (by decide)) (W2_of_ne m c main_arg4 (by decide)) (by decide)
theorem W5_main_arg5 (c : Dev nD) : W5 m c (Proc.devRef .tc main_arg5) = m ((c : Thread nD τ).loc main_arg5) :=
  W5_arg m c main_arg5 (by decide) (W4_of_ne m c main_arg5 (by decide)) (W3_of_ne m c main_arg5 (by decide)) (W2_of_ne m c main_arg5 (by decide)) (by decide)
theorem W5_main_arg6 (c : Dev nD) : W5 m c (Proc.devRef .tc main_arg6) = m ((c : Thread nD τ).loc main_arg6) :=
  W5_arg m c main_arg6 (by decide) (W4_of_ne m c main_arg6 (by decide)) (W3_of_ne m c main_arg6 (by decide)) (W2_of_ne m c main_arg6 (by decide)) (by decide)
theorem W5_main_arg7 (c : Dev nD) : W5 m c (Proc.devRef .tc main_arg7) = m ((c : Thread nD τ).loc main_arg7) :=
  W5_arg m c main_arg7 (by decide) (W4_of_ne m c main_arg7 (by decide)) (W3_of_ne m c main_arg7 (by decide)) (W2_of_ne m c main_arg7 (by decide)) (by decide)

/-! ## The proof data family and the thread state -/

/-- The attention call's proof data on core `c`: the arrays as the call finds them; of what the body leaves in a
    buffer nothing is said, whatever it found there; the invariant holds the scoped rest and the generator register;
    nothing owed; full shares. -/
def rd3 (c : Dev nD) : RDat τ (Elt F) Unit ℕ (UR sig nD τ) ℕ cfg3 c where
  A w := En3 m c (Pipeline.arrRef spec3 w)
  after _ _ _ _ := True
  Φ _ := Pipeline.ΦA spec3 c
  q _ := fullShare
  owed _ := 0

/-- Every pipeline's proof data, each at its call's entry contents: the propagation calls' exact data read as
    relational data, the attention call's relational data. -/
def rdats : (p : Fin 4) → (c : Dev nD) → RDat τ (Elt F) Unit ℕ (UR sig nD τ) ℕ (Pipeline.pin (pcfgs (F := F)) adm p) c
  | ⟨0, _⟩ => fun c => (dat0 (En0 m) c).toR
  | ⟨1, _⟩ => fun c => (dat1 (En1 m) c).toR
  | ⟨2, _⟩ => fun c => (dat2 (En2 m) c).toR
  | ⟨3, _⟩ => fun c => rd3 m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the core's generator register at some state and its dues, at
    nothing. -/
abbrev R (c : Dev nD) : sProp 𝕄 := iprop((∃ r, prngReg c r) ∗ ∃ W, owes (c : Thread nD τ) (0 : CellTallies nD τ sig Unit) W)
/-- A host stretch as a piece of the run: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: the attention call's arrays at some contents they may hold after its
    write-backs, every other unscoped buffer as the call was entered, the generator register at some state. -/
abbrev Tₙ (c : Dev nD) : sProp 𝕄 :=
  iprop((rdats m 3 c).arraysAt cfg3.N
    ∗ Pipeline.unscopedRest (Ix := Unit) (Name := ℕ) (U := UR sig nD τ) (Lvl := ℕ) spec3 c (En3 m c) ∗ ∃ r, prngReg c r)

/-- A call's arrays at contents `F` and the unscoped rest at `V` are the core's unscoped buffers at any valuation
    that has the arrays at `F` and agrees with `V` off them. -/
theorem unscopedBufs_of_arraysR
    (rds : (p : Fin 4) → (c : Dev nD) → RDat τ (Elt F) Unit ℕ (UR sig nD τ) ℕ (Pipeline.pin (pcfgs (F := F)) adm p) c)
    {p : Fin 4} (hw : Pipeline.WinFacts (Pipeline.pin (pcfgs (F := F)) adm p).spec)
    (harr : ∀ w, ((Pipeline.pin (pcfgs (F := F)) adm p).spec w).arr.IsWhole)
    (c : Dev nD) (hshare : ∀ w, (rds p c).share w = fullShare)
    (V V' : (b : Ref sig .tc) → Buf (Elt F) ((c.tc : Thread nD τ).loc b))
    (A : (w : Fin (Pipeline.pin (pcfgs (F := F)) adm p).W) → Buf (Elt F) (((Pipeline.pin (pcfgs (F := F)) adm p).spec w).arr.view.loc (c.tc : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays A ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hA])) (Entails.of_eq ?_)
  unfold Pipeline.unscopedRest
  exact bigSep_congr fun b hb => by rw [hrest b (Finset.mem_sdiff.mp hb).2]

/-! ## The attention call's body obligation -/

/-- At every point, from whatever its five buffers hold, the body runs and hands them back at some contents. -/
theorem body_obligation3 (c : Dev nD) : (rd3 m c).BodyObligation (defs₀ (F := F)) Variants.none () Set.univ := fun t Y hY => by
  rw [bigSep_W3, bigSep_W3]
  show _ ⊢ wp frame (wpE (defs₀ (F := F)) Variants.none c none) Set.univ (bodyAt3 t) _
  rw [show (rd3 m c).Φ t.succ = (rd3 m c).Φ t.castSucc from rfl,
    show (rd3 m c).owesAt () t.succ = (rd3 m c).owesAt () t.castSucc from rfl]
  unfold bodyAt3
  iintro ⟨HΦ, Ho, H0, H1, H2, H3, H4⟩
  iapply (sound_kernel3 c Set.univ _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists _; isplitr
    swap; · iexact H0
    ipureintro; trivial
  isplitl [H1]
  · iexists _; isplitr
    swap; · iexact H1
    ipureintro; trivial
  isplitl [H2]
  · iexists _; isplitr
    swap; · iexact H2
    ipureintro; trivial
  isplitl [H3]
  · iexists _; isplitr
    swap; · iexact H3
    ipureintro; trivial
  iexists _; isplitr
  swap; · iexact H4
  ipureintro; trivial

/-! ## The calls as pieces of the run -/

-- `iapply` of a library lemma stated over `pin pcs a p` unifies with the pinned configuration only when unification may
-- unfold plain definitions in a metavariable's type
set_option backward.isDefEq.respectTransparency.types false in
/-- Propagation call 0 over the thread state: entered from every unscoped buffer at `W1`, left at `W2`. Its
    arrays split out of the unscoped buffers and put back at the exit contents; the generator register into the
    invariant and out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arraysR (rdats m) (p := 0) launch0.win launch0.arr_whole c
      ((rdats m 0 c).share_full fun _ => rfl)
      (En0 m c) (En1 m c) ((dat0 (En0 m) c).arrAt · cfg0.N) (hF0 m c) (hrest0 m c)
    rw [Pipeline.unscopedBufs_held] at hjoin
    rw [show (rdats m 0 c).arraysAt (Pipeline.pin (pcfgs (F := F)) adm 0).N
        = (rdats m 0 c).arrays ((dat0 (En0 m) c).arrAt · cfg0.N) from (dat0 (En0 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Propagation call 1 over the thread state: entered from every unscoped buffer at `W2`, left at `W3`. Its
    arrays split out of the unscoped buffers and put back at the exit contents; the generator register into the
    invariant and out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arraysR (rdats m) (p := 1) launch1.win launch1.arr_whole c
      ((rdats m 1 c).share_full fun _ => rfl)
      (En1 m c) (En2 m c) ((dat1 (En1 m) c).arrAt · cfg1.N) (hF1 m c) (hrest1 m c)
    rw [Pipeline.unscopedBufs_held] at hjoin
    rw [show (rdats m 1 c).arraysAt (Pipeline.pin (pcfgs (F := F)) adm 1).N
        = (rdats m 1 c).arrays ((dat1 (En1 m) c).arrAt · cfg1.N) from (dat1 (En1 m) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Propagation call 2 over the thread state: entered from every unscoped buffer at `W3`, left at `W4`. Its
    arrays split out of the unscoped buffers and put back at the exit contents; the generator register into the
    invariant and out; nothing owed; no semaphore of the kernel's own. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).toR
  hwaits := Pipeline.RDat.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arraysR (rdats m) (p := 2) launch2.win launch2.arr_whole c
      ((rdats m 2 c).share_full fun _ => rfl)
      (En2 m c) (Ex2 m c) ((dat2 (En2 m) c).arrAt · cfg2.N) (hF2 m c) (hrest2 m c)
    rw [Pipeline.unscopedBufs_held] at hjoin
    rw [show (rdats m 2 c).arraysAt (Pipeline.pin (pcfgs (F := F)) adm 2).N
        = (rdats m 2 c).arrays ((dat2 (En2 m) c).arrAt · cfg2.N) from (dat2 (En2 m) c).toR_arraysAt_eq cfg2.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- as above
set_option backward.isDefEq.respectTransparency.types false in
/-- The attention call over the thread state: entered from every unscoped buffer at `W5`; left with its arrays at
    some contents they may hold after the write-backs, the unscoped rest as entered, the generator register, nothing
    owed. -/
def reg3 : Pipeline.RDat.RegionSeg (pcfgs (F := F)) adm (rdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 m c
  hwaits := Pipeline.RDat.hwaits_of_owed_zero _ _ _ _ L lv 3 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.RDat.arrays_of_unscopedBufs (p := 3) (pcfgs (F := F)) adm (rdats m) launch3.win launch3.arr_whole c
      ((rdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## The program as its pieces, and the launch -/

/-- The six pieces in order. -/
abbrev rsegs : List (Pipeline.RDat.Seg (pcfgs (F := F)) adm (rdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)),
    .region (reg3 m) ]

-- the launch theorem's implicit arguments are found by unifying its conclusion with this one, which takes unfolding
-- plain definitions in a metavariable's type
set_option backward.isDefEq.respectTransparency.types false in
/-- At the compiled mesh, from any memory with zero counters, every weakly fair execution of the program on the
    TensorCores terminates, nothing faulting, and every final state has the eight argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.RDat.θ_run_regions_kit (pcfgs (F := F)) adm (rdats m) () cellOf_inj emb₁ defs₀ 𝒱₀ L lv m ρ main (rsegs m)
    (fun c Q => by
      rewrite [main_chain c, Pipeline.RDat.Seg.run_eq_chain,
        show (rsegs m).map Pipeline.RDat.Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()) ] from rfl]
      exact .rfl)
    (by simp only [rsegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => (∀ w, (rdats m 3 c).ArrAt w cfg3.N (s.mem ((spec3 w).arr.view.loc (c.tc : Thread nD τ))))
      ∧ ∀ b ∈ (Finset.univ.filter fun b : Ref sig .tc => ¬ b.isScoped) \ Finset.univ.image (Pipeline.arrRef spec3),
          s.mem ((c.tc : Thread nD τ).loc b) = En3 m c b)
    (hfin := fun c s' => by
      iintro ⟨⟨Ha, Hrest, -⟩, HSI⟩
      ihave H1 := (Pipeline.RDat.arrays_read (pcfgs (F := F)) adm (rdats m) (p := 3) launch3.arr_whole c cfg3.N s') $$ [Ha HSI]
      · isplitl [Ha] <;> iassumption
      icases H1 with ⟨%ha, HSI⟩
      unfold Pipeline.unscopedRest
      ihave H2 := (pointsTo_read_all _ (fun b : Ref sig .tc => (c.tc : Thread nD τ).loc b) (En3 m c) s') $$ [Hrest HSI]
      · isplitl [Hrest] <;> iassumption
      icases H2 with ⟨%hr, HSI⟩
      imodintro
      isplitr; · ipureintro; exact ⟨ha, hr⟩
      iexact HSI)
    (hQ := fun s h c => by
      obtain ⟨ha, hr⟩ := h c
      have h6 : s.mem ((c.tc : Thread nD τ).loc main_arg6) = En3 m c main_arg6 := by
        have := ha 1
        rw [(rdats m 3 c).ArrAt_in 1 rfl cfg3.N] at this
        exact this
      exact ⟨(hr main_arg0 (by decide)).trans (W5_main_arg0 m c), (hr main_arg1 (by decide)).trans (W5_main_arg1 m c),
        (hr main_arg2 (by decide)).trans (W5_main_arg2 m c), (hr main_arg3 (by decide)).trans (W5_main_arg3 m c),
        (hr main_arg4 (by decide)).trans (W5_main_arg4 m c), (hr main_arg5 (by decide)).trans (W5_main_arg5 m c),
        h6.trans (W5_main_arg6 m c), (hr main_arg7 (by decide)).trans (W5_main_arg7 m c)⟩)

end Cert.FrameR.Kernel

end
-- ==== Proof.lean ====
/-
  The certificate of a graph-embedding scorer. Both programs propagate three embedding tables over row-normalised
  adjacency matrices, average two of the results row by row, gather the rows of 512 users, and score every user
  against every paper by a two-way attention over the paper's two propagated embeddings.
  They differ in arrangement only. The kernel normalises after the matrix product, (A·x) / d with d = max(rowsum A, ε),
  where the reference normalises the matrix first, (A / d)·x: equal because every input is finite, so d is a positive
  real. The kernel halves by multiplying with ½ where the reference divides by 2; it scales the logits by ⅛ where the
  reference divides 1 by √64; it writes the two-way softmax out where the reference reduces over an axis of size two.
  The kernel computes the scores in blocks of 512 papers, the last of which overhangs the 4000 papers; a score reads
  one paper's rows only, so the scores inside the result do not depend on what lies past the tables' end.
  The frames: the idealised kernel's is its run read at the arguments; the reference's is its run; the printed
  kernel's is proved separately over relational proof data, since at the bit-exact instance the attention call's
  overhanging block makes the result's contents depend on words nothing names.
-/
import proofs.«132272_j21028159881436_2_alg».proof.Defs
import proofs.«132272_j21028159881436_2_alg».proof.Proof.Gen.Kernel
import proofs.«132272_j21028159881436_2_alg».proof.Proof.Gen.KernelIdeal
import proofs.«132272_j21028159881436_2_alg».proof.Proof.Gen.ReferenceIdeal
import proofs.«132272_j21028159881436_2_alg».proof.Proof.Gen.Pre_finite_inputs
import proofs.«132272_j21028159881436_2_alg».proof.Proof.Gen.ReferenceIdeal.Run
import proofs.«132272_j21028159881436_2_alg».proof.Proof.Gen.ReferenceIdeal.Read
import proofs.«132272_j21028159881436_2_alg».proof.Proof.Join
import proofs.«132272_j21028159881436_2_alg».proof.Proof.FrameRKernel
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.FrameR.Kernel.frame (F := Bits) m ρ

/-- The idealised kernel's frame: its run, read at the eight arguments. -/
theorem frame_ki : Cert.frame_KernelIdeal := fun m ρ _ =>
  (θ_run Cert.KernelIdeal.defs _ _).mono (fun r h c =>
    ⟨(h c _ (Cert.KI.mem_uc Cert.KernelIdeal.main_arg0 (by decide))).trans (Cert.KI.W6_main_arg0 m c),
     (h c _ (Cert.KI.mem_uc Cert.KernelIdeal.main_arg1 (by decide))).trans (Cert.KI.W6_main_arg1 m c),
     (h c _ (Cert.KI.mem_uc Cert.KernelIdeal.main_arg2 (by decide))).trans (Cert.KI.W6_main_arg2 m c),
     (h c _ (Cert.KI.mem_uc Cert.KernelIdeal.main_arg3 (by decide))).trans (Cert.KI.W6_main_arg3 m c),
     (h c _ (Cert.KI.mem_uc Cert.KernelIdeal.main_arg4 (by decide))).trans (Cert.KI.W6_main_arg4 m c),
     (h c _ (Cert.KI.mem_uc Cert.KernelIdeal.main_arg5 (by decide))).trans (Cert.KI.W6_main_arg5 m c),
     (h c _ (Cert.KI.mem_uc Cert.KernelIdeal.main_arg6 (by decide))).trans (Cert.KI.W6_main_arg6 m c),
     (h c _ (Cert.KI.mem_uc Cert.KernelIdeal.main_arg7 (by decide))).trans (Cert.KI.W6_main_arg7 m c)⟩)
    (Cert.KI.run_all m ρ)

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two stages of the (agreeing) arguments. -/
theorem algebraic : Cert.algebraic_KernelIdeal_ReferenceIdeal := by
  intro m ρ m' ρ' hpre hagree
  refine ⟨fun c => Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)), ?_, ?_⟩
  · refine (θ_run Cert.KernelIdeal.defs _ _).mono (fun r h c => ?_) (Cert.KI.run_all m ρ)
    exact ⟨(h c _ (Cert.KI.mem_uc Cert.KernelIdeal.main_v23 (by decide))).trans (Cert.KI.scores_eq m hpre c),
      (h c _ (Cert.KI.mem_uc Cert.KernelIdeal.main_v22 (by decide))).trans (Cert.KI.feats_eq m hpre c),
      (h c _ (Cert.KI.mem_uc Cert.KernelIdeal.main_arg0 (by decide))).trans (Cert.KI.W6_main_arg0 m c),
      (h c _ (Cert.KI.mem_uc Cert.KernelIdeal.main_arg1 (by decide))).trans (Cert.KI.W6_main_arg1 m c),
      (h c _ (Cert.KI.mem_uc Cert.KernelIdeal.main_arg2 (by decide))).trans (Cert.KI.W6_main_arg2 m c),
      (h c _ (Cert.KI.mem_uc Cert.KernelIdeal.main_arg3 (by decide))).trans (Cert.KI.W6_main_arg3 m c),
      (h c _ (Cert.KI.mem_uc Cert.KernelIdeal.main_arg4 (by decide))).trans (Cert.KI.W6_main_arg4 m c),
      (h c _ (Cert.KI.mem_uc Cert.KernelIdeal.main_arg5 (by decide))).trans (Cert.KI.W6_main_arg5 m c),
      (h c _ (Cert.KI.mem_uc Cert.KernelIdeal.main_arg6 (by decide))).trans (Cert.KI.W6_main_arg6 m c),
      (h c _ (Cert.KI.mem_uc Cert.KernelIdeal.main_arg7 (by decide))).trans (Cert.KI.W6_main_arg7 m c)⟩
  · refine (θ_run Cert.ReferenceIdeal.defs _ _).mono (fun r h c => ⟨?_, ?_, (h c).2.2⟩) (Cert.ReferenceIdeal.Value.run (F := Ideal) m' ρ')
    · rw [(h c).1, Cert.ReferenceIdeal.Read.val_main_v69_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
    · rw [(h c).2.1, Cert.ReferenceIdeal.Read.val_main_v46_eq, (hagree c).1, (hagree c).2.1, (hagree c).2.2.2.1,
        (hagree c).2.2.2.2.1, (hagree c).2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
